-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8)) (m ((c.tc : Thread Cert.Kernel.nD Cert.Kernel.τ).loc Cert.Kernel.main_arg9)) (m ((c.tc : Thread Cert.Kernel.nD Cert.Kernel.τ).loc Cert.Kernel.main_arg10)) (m ((c.tc : Thread Cert.Kernel.nD Cert.Kernel.τ).loc Cert.Kernel.main_arg11)) (m ((c.tc : Thread Cert.Kernel.nD Cert.Kernel.τ).loc Cert.Kernel.main_arg12)) (m ((c.tc : Thread Cert.Kernel.nD Cert.Kernel.τ).loc Cert.Kernel.main_arg13))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12)) (m ((c.tc : Thread Cert.KernelIdeal.nD Cert.KernelIdeal.τ).loc Cert.KernelIdeal.main_arg13))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11)) (m ((c.tc : Thread Cert.ReferenceIdeal.nD Cert.ReferenceIdeal.τ).loc Cert.ReferenceIdeal.main_arg12)) (m ((c.tc : Thread Cert.ReferenceIdeal.nD Cert.ReferenceIdeal.τ).loc Cert.ReferenceIdeal.main_arg13))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9)
      ∧ r.2.mem ((c.tc : Thread Cert.Kernel.nD Cert.Kernel.τ).loc Cert.Kernel.main_arg10) = m ((c.tc : Thread Cert.Kernel.nD Cert.Kernel.τ).loc Cert.Kernel.main_arg10)
      ∧ r.2.mem ((c.tc : Thread Cert.Kernel.nD Cert.Kernel.τ).loc Cert.Kernel.main_arg11) = m ((c.tc : Thread Cert.Kernel.nD Cert.Kernel.τ).loc Cert.Kernel.main_arg11)
      ∧ r.2.mem ((c.tc : Thread Cert.Kernel.nD Cert.Kernel.τ).loc Cert.Kernel.main_arg12) = m ((c.tc : Thread Cert.Kernel.nD Cert.Kernel.τ).loc Cert.Kernel.main_arg12)
      ∧ r.2.mem ((c.tc : Thread Cert.Kernel.nD Cert.Kernel.τ).loc Cert.Kernel.main_arg13) = m ((c.tc : Thread Cert.Kernel.nD Cert.Kernel.τ).loc Cert.Kernel.main_arg13))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
      ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
      ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
      ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10)
      ∧ r.2.mem ((c.tc : Thread Cert.ReferenceIdeal.nD Cert.ReferenceIdeal.τ).loc Cert.ReferenceIdeal.main_arg11) = m ((c.tc : Thread Cert.ReferenceIdeal.nD Cert.ReferenceIdeal.τ).loc Cert.ReferenceIdeal.main_arg11)
      ∧ r.2.mem ((c.tc : Thread Cert.ReferenceIdeal.nD Cert.ReferenceIdeal.τ).loc Cert.ReferenceIdeal.main_arg12) = m ((c.tc : Thread Cert.ReferenceIdeal.nD Cert.ReferenceIdeal.τ).loc Cert.ReferenceIdeal.main_arg12)
      ∧ r.2.mem ((c.tc : Thread Cert.ReferenceIdeal.nD Cert.ReferenceIdeal.τ).loc Cert.ReferenceIdeal.main_arg13) = m ((c.tc : Thread Cert.ReferenceIdeal.nD Cert.ReferenceIdeal.τ).loc Cert.ReferenceIdeal.main_arg13))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)
      ∧ m' ((c.tc : Thread Cert.ReferenceIdeal.nD Cert.ReferenceIdeal.τ).loc Cert.ReferenceIdeal.main_arg11) = m ((c.tc : Thread Cert.KernelIdeal.nD Cert.KernelIdeal.τ).loc Cert.KernelIdeal.main_arg11)
      ∧ m' ((c.tc : Thread Cert.ReferenceIdeal.nD Cert.ReferenceIdeal.τ).loc Cert.ReferenceIdeal.main_arg12) = m ((c.tc : Thread Cert.KernelIdeal.nD Cert.KernelIdeal.τ).loc Cert.KernelIdeal.main_arg12)
      ∧ m' ((c.tc : Thread Cert.ReferenceIdeal.nD Cert.ReferenceIdeal.τ).loc Cert.ReferenceIdeal.main_arg13) = m ((c.tc : Thread Cert.KernelIdeal.nD Cert.KernelIdeal.τ).loc Cert.KernelIdeal.main_arg13)) →
    ∃ (v0 : (c : Dev Cert.KernelIdeal.nD) → Buf (Elt Ideal) ((c.tc : Thread Cert.KernelIdeal.nD Cert.KernelIdeal.τ).loc Cert.KernelIdeal.main_v8)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v8) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
          ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
          ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
          ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
          ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v102) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9)
          ∧ r.2.mem ((c.tc : Thread Cert.ReferenceIdeal.nD Cert.ReferenceIdeal.τ).loc Cert.ReferenceIdeal.main_arg10) = m' ((c.tc : Thread Cert.ReferenceIdeal.nD Cert.ReferenceIdeal.τ).loc Cert.ReferenceIdeal.main_arg10)
          ∧ r.2.mem ((c.tc : Thread Cert.ReferenceIdeal.nD Cert.ReferenceIdeal.τ).loc Cert.ReferenceIdeal.main_arg11) = m' ((c.tc : Thread Cert.ReferenceIdeal.nD Cert.ReferenceIdeal.τ).loc Cert.ReferenceIdeal.main_arg11)
          ∧ r.2.mem ((c.tc : Thread Cert.ReferenceIdeal.nD Cert.ReferenceIdeal.τ).loc Cert.ReferenceIdeal.main_arg12) = m' ((c.tc : Thread Cert.ReferenceIdeal.nD Cert.ReferenceIdeal.τ).loc Cert.ReferenceIdeal.main_arg12)
          ∧ r.2.mem ((c.tc : Thread Cert.ReferenceIdeal.nD Cert.ReferenceIdeal.τ).loc Cert.ReferenceIdeal.main_arg13) = m' ((c.tc : Thread Cert.ReferenceIdeal.nD Cert.ReferenceIdeal.τ).loc Cert.ReferenceIdeal.main_arg13))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S65536x48 : Shape := ⟨2, ![65536, 48]⟩
abbrev S65536x12 : Shape := ⟨2, ![65536, 12]⟩
abbrev S65536 : Shape := ⟨1, ![65536]⟩
abbrev S101 : Shape := ⟨1, ![101]⟩
abbrev S60x1024 : Shape := ⟨2, ![60, 1024]⟩
abbrev S1024 : Shape := ⟨1, ![1024]⟩
abbrev S1024x512 : Shape := ⟨2, ![1024, 512]⟩
abbrev S512 : Shape := ⟨1, ![512]⟩
abbrev S512x256 : Shape := ⟨2, ![512, 256]⟩
abbrev S256 : Shape := ⟨1, ![256]⟩
abbrev S256x101 : Shape := ⟨2, ![256, 101]⟩
abbrev S_ : Shape := ⟨0, ![]⟩

class Facts : Prop where
  bcast_S_S65536x48 : S_.BroadcastsInDim S65536x48 (![] : Fin 0 → Fin S65536x48.rank)
  reducesTo_S65536x48_S_d0_1 : S65536x48.ReducesTo [0, 1] S_
  h_S_ : 0 < S_.numel
  bcast_S_S65536x12 : S_.BroadcastsInDim S65536x12 (![] : Fin 0 → Fin S65536x12.rank)
  reducesTo_S65536x12_S_d0_1 : S65536x12.ReducesTo [0, 1] S_
  bcast_S_S65536 : S_.BroadcastsInDim S65536 (![] : Fin 0 → Fin S65536.rank)
  reducesTo_S65536_S_d0 : S65536.ReducesTo [0] S_
  bcast_S_S101 : S_.BroadcastsInDim S101 (![] : Fin 0 → Fin S101.rank)
  reducesTo_S101_S_d0 : S101.ReducesTo [0] S_
  bcast_S_S60x1024 : S_.BroadcastsInDim S60x1024 (![] : Fin 0 → Fin S60x1024.rank)
  reducesTo_S60x1024_S_d0_1 : S60x1024.ReducesTo [0, 1] S_
  bcast_S_S1024 : S_.BroadcastsInDim S1024 (![] : Fin 0 → Fin S1024.rank)
  reducesTo_S1024_S_d0 : S1024.ReducesTo [0] S_
  bcast_S_S1024x512 : S_.BroadcastsInDim S1024x512 (![] : Fin 0 → Fin S1024x512.rank)
  reducesTo_S1024x512_S_d0_1 : S1024x512.ReducesTo [0, 1] S_
  bcast_S_S512 : S_.BroadcastsInDim S512 (![] : Fin 0 → Fin S512.rank)
  reducesTo_S512_S_d0 : S512.ReducesTo [0] S_
  bcast_S_S512x256 : S_.BroadcastsInDim S512x256 (![] : Fin 0 → Fin S512x256.rank)
  reducesTo_S512x256_S_d0_1 : S512x256.ReducesTo [0, 1] S_
  bcast_S_S256 : S_.BroadcastsInDim S256 (![] : Fin 0 → Fin S256.rank)
  reducesTo_S256_S_d0 : S256.ReducesTo [0] S_
  bcast_S_S256x101 : S_.BroadcastsInDim S256x101 (![] : Fin 0 → Fin S256x101.rank)
  reducesTo_S256x101_S_d0_1 : S256x101.ReducesTo [0, 1] S_

variable [Facts]

def fn_part4 {F : FTy → Type} [FloatOps F] (main_v63 : IVec S_ 1) (main_v67 : IVec S_ 1) : IVec S_ 1 :=
  let main_v68 : IVec S_ 1 := andi main_v63 main_v67
  main_v68

def fn_part3 {F : FTy → Type} [FloatOps F] (main_arg11 : FVec F S256 .f32) (main_arg12 : FVec F S256x101 .f32) (main_arg13 : FVec F S101 .f32) (main_v48 : IVec S_ 1) (main_v49 : FVec F S512x256 .f32) (main_v50 : FVec F S512x256 .f32) : IVec S_ 1 :=
  let main_v51 : IVec S512x256 1 := cmpf .olt main_v49 main_v50
  let main_c_19 : IVec S_ 1 := constantI S_ 1 1#1
  let main_v52 : IVec S_ 1 := (fun x v => Host.reduce IntOp.andi x v reducesTo_S512x256_S_d0_1 h_S_) main_v51 main_c_19
  let main_v53 : IVec S_ 1 := andi main_v48 main_v52
  let main_v54 : FVec F S256 .f32 := Host.absf main_arg11
  let main_cst_20 : FVec F S_ .f32 := constant S_ .f32 0x7F800000#32
  let main_v55 : FVec F S256 .f32 := broadcastInDim S256 ![] bcast_S_S256 main_cst_20
  let main_v56 : IVec S256 1 := cmpf .olt main_v54 main_v55
  let main_c_21 : IVec S_ 1 := constantI S_ 1 1#1
  let main_v57 : IVec S_ 1 := (fun x v => Host.reduce IntOp.andi x v reducesTo_S256_S_d0 h_S_) main_v56 main_c_21
  let main_v58 : IVec S_ 1 := andi main_v53 main_v57
  let main_v59 : FVec F S256x101 .f32 := Host.absf main_arg12
  let main_cst_22 : FVec F S_ .f32 := constant S_ .f32 0x7F800000#32
  let main_v60 : FVec F S256x101 .f32 := broadcastInDim S256x101 ![] bcast_S_S256x101 main_cst_22
  let main_v61 : IVec S256x101 1 := cmpf .olt main_v59 main_v60
  let main_c_23 : IVec S_ 1 := constantI S_ 1 1#1
  let main_v62 : IVec S_ 1 := (fun x v => Host.reduce IntOp.andi x v reducesTo_S256x101_S_d0_1 h_S_) main_v61 main_c_23
  let main_v63 : IVec S_ 1 := andi main_v58 main_v62
  let main_v64 : FVec F S101 .f32 := Host.absf main_arg13
  let main_cst_24 : FVec F S_ .f32 := constant S_ .f32 0x7F800000#32
  let main_v65 : FVec F S101 .f32 := broadcastInDim S101 ![] bcast_S_S101 main_cst_24
  let main_v66 : IVec S101 1 := cmpf .olt main_v64 main_v65
  let main_c_25 : IVec S_ 1 := constantI S_ 1 1#1
  let main_v67 : IVec S_ 1 := (fun x v => Host.reduce IntOp.andi x v reducesTo_S101_S_d0 h_S_) main_v66 main_c_25
  fn_part4 (F := F) main_v63 main_v67

def fn_part2 {F : FTy → Type} [FloatOps F] (main_arg7 : FVec F S1024 .f32) (main_arg8 : FVec F S1024x512 .f32) (main_arg9 : FVec F S512 .f32) (main_arg10 : FVec F S512x256 .f32) (main_arg11 : FVec F S256 .f32) (main_arg12 : FVec F S256x101 .f32) (main_arg13 : FVec F S101 .f32) (main_v33 : IVec S_ 1) : IVec S_ 1 :=
  let main_v34 : FVec F S1024 .f32 := Host.absf main_arg7
  let main_cst_12 : FVec F S_ .f32 := constant S_ .f32 0x7F800000#32
  let main_v35 : FVec F S1024 .f32 := broadcastInDim S1024 ![] bcast_S_S1024 main_cst_12
  let main_v36 : IVec S1024 1 := cmpf .olt main_v34 main_v35
  let main_c_13 : IVec S_ 1 := constantI S_ 1 1#1
  let main_v37 : IVec S_ 1 := (fun x v => Host.reduce IntOp.andi x v reducesTo_S1024_S_d0 h_S_) main_v36 main_c_13
  let main_v38 : IVec S_ 1 := andi main_v33 main_v37
  let main_v39 : FVec F S1024x512 .f32 := Host.absf main_arg8
  let main_cst_14 : FVec F S_ .f32 := constant S_ .f32 0x7F800000#32
  let main_v40 : FVec F S1024x512 .f32 := broadcastInDim S1024x512 ![] bcast_S_S1024x512 main_cst_14
  let main_v41 : IVec S1024x512 1 := cmpf .olt main_v39 main_v40
  let main_c_15 : IVec S_ 1 := constantI S_ 1 1#1
  let main_v42 : IVec S_ 1 := (fun x v => Host.reduce IntOp.andi x v reducesTo_S1024x512_S_d0_1 h_S_) main_v41 main_c_15
  let main_v43 : IVec S_ 1 := andi main_v38 main_v42
  let main_v44 : FVec F S512 .f32 := Host.absf main_arg9
  let main_cst_16 : FVec F S_ .f32 := constant S_ .f32 0x7F800000#32
  let main_v45 : FVec F S512 .f32 := broadcastInDim S512 ![] bcast_S_S512 main_cst_16
  let main_v46 : IVec S512 1 := cmpf .olt main_v44 main_v45
  let main_c_17 : IVec S_ 1 := constantI S_ 1 1#1
  let main_v47 : IVec S_ 1 := (fun x v => Host.reduce IntOp.andi x v reducesTo_S512_S_d0 h_S_) main_v46 main_c_17
  let main_v48 : IVec S_ 1 := andi main_v43 main_v47
  let main_v49 : FVec F S512x256 .f32 := Host.absf main_arg10
  let main_cst_18 : FVec F S_ .f32 := constant S_ .f32 0x7F800000#32
  let main_v50 : FVec F S512x256 .f32 := broadcastInDim S512x256 ![] bcast_S_S512x256 main_cst_18
  fn_part3 (F := F) main_arg11 main_arg12 main_arg13 main_v48 main_v49 main_v50

def fn_part1 {F : FTy → Type} [FloatOps F] (main_arg4 : FVec F S65536 .f32) (main_arg5 : FVec F S101 .f32) (main_arg6 : FVec F S60x1024 .f32) (main_arg7 : FVec F S1024 .f32) (main_arg8 : FVec F S1024x512 .f32) (main_arg9 : FVec F S512 .f32) (main_arg10 : FVec F S512x256 .f32) (main_arg11 : FVec F S256 .f32) (main_arg12 : FVec F S256x101 .f32) (main_arg13 : FVec F S101 .f32) (main_v13 : IVec S_ 1) (main_v16 : IVec S65536 1) : IVec S_ 1 :=
  let main_c_5 : IVec S_ 1 := constantI S_ 1 1#1
  let main_v17 : IVec S_ 1 := (fun x v => Host.reduce IntOp.andi x v reducesTo_S65536_S_d0 h_S_) main_v16 main_c_5
  let main_v18 : IVec S_ 1 := andi main_v13 main_v17
  let main_v19 : FVec F S65536 .f32 := Host.absf main_arg4
  let main_cst_6 : FVec F S_ .f32 := constant S_ .f32 0x7F800000#32
  let main_v20 : FVec F S65536 .f32 := broadcastInDim S65536 ![] bcast_S_S65536 main_cst_6
  let main_v21 : IVec S65536 1 := cmpf .olt main_v19 main_v20
  let main_c_7 : IVec S_ 1 := constantI S_ 1 1#1
  let main_v22 : IVec S_ 1 := (fun x v => Host.reduce IntOp.andi x v reducesTo_S65536_S_d0 h_S_) main_v21 main_c_7
  let main_v23 : IVec S_ 1 := andi main_v18 main_v22
  let main_v24 : FVec F S101 .f32 := Host.absf main_arg5
  let main_cst_8 : FVec F S_ .f32 := constant S_ .f32 0x7F800000#32
  let main_v25 : FVec F S101 .f32 := broadcastInDim S101 ![] bcast_S_S101 main_cst_8
  let main_v26 : IVec S101 1 := cmpf .olt main_v24 main_v25
  let main_c_9 : IVec S_ 1 := constantI S_ 1 1#1
  let main_v27 : IVec S_ 1 := (fun x v => Host.reduce IntOp.andi x v reducesTo_S101_S_d0 h_S_) main_v26 main_c_9
  let main_v28 : IVec S_ 1 := andi main_v23 main_v27
  let main_v29 : FVec F S60x1024 .f32 := Host.absf main_arg6
  let main_cst_10 : FVec F S_ .f32 := constant S_ .f32 0x7F800000#32
  let main_v30 : FVec F S60x1024 .f32 := broadcastInDim S60x1024 ![] bcast_S_S60x1024 main_cst_10
  let main_v31 : IVec S60x1024 1 := cmpf .olt main_v29 main_v30
  let main_c_11 : IVec S_ 1 := constantI S_ 1 1#1
  let main_v32 : IVec S_ 1 := (fun x v => Host.reduce IntOp.andi x v reducesTo_S60x1024_S_d0_1 h_S_) main_v31 main_c_11
  let main_v33 : IVec S_ 1 := andi main_v28 main_v32
  fn_part2 (F := F) main_arg7 main_arg8 main_arg9 main_arg10 main_arg11 main_arg12 main_arg13 main_v33

def fn {F : FTy → Type} [FloatOps F] (main_arg0 : FVec F S65536x48 .f32) (main_arg1 : FVec F S65536x12 .f32) (main_arg2 : FVec F S65536 .f32) (main_arg3 : FVec F S65536 .f32) (main_arg4 : FVec F S65536 .f32) (main_arg5 : FVec F S101 .f32) (main_arg6 : FVec F S60x1024 .f32) (main_arg7 : FVec F S1024 .f32) (main_arg8 : FVec F S1024x512 .f32) (main_arg9 : FVec F S512 .f32) (main_arg10 : FVec F S512x256 .f32) (main_arg11 : FVec F S256 .f32) (main_arg12 : FVec F S256x101 .f32) (main_arg13 : FVec F S101 .f32) : IVec S_ 1 :=
  let main_v0 : FVec F S65536x48 .f32 := Host.absf main_arg0
  let main_cst : FVec F S_ .f32 := constant S_ .f32 0x7F800000#32
  let main_v1 : FVec F S65536x48 .f32 := broadcastInDim S65536x48 ![] bcast_S_S65536x48 main_cst
  let main_v2 : IVec S65536x48 1 := cmpf .olt main_v0 main_v1
  let main_c : IVec S_ 1 := constantI S_ 1 1#1
  let main_v3 : IVec S_ 1 := (fun x v => Host.reduce IntOp.andi x v reducesTo_S65536x48_S_d0_1 h_S_) main_v2 main_c
  let main_v4 : FVec F S65536x12 .f32 := Host.absf main_arg1
  let main_cst_0 : FVec F S_ .f32 := constant S_ .f32 0x7F800000#32
  let main_v5 : FVec F S65536x12 .f32 := broadcastInDim S65536x12 ![] bcast_S_S65536x12 main_cst_0
  let main_v6 : IVec S65536x12 1 := cmpf .olt main_v4 main_v5
  let main_c_1 : IVec S_ 1 := constantI S_ 1 1#1
  let main_v7 : IVec S_ 1 := (fun x v => Host.reduce IntOp.andi x v reducesTo_S65536x12_S_d0_1 h_S_) main_v6 main_c_1
  let main_v8 : IVec S_ 1 := andi main_v3 main_v7
  let main_v9 : FVec F S65536 .f32 := Host.absf main_arg2
  let main_cst_2 : FVec F S_ .f32 := constant S_ .f32 0x7F800000#32
  let main_v10 : FVec F S65536 .f32 := broadcastInDim S65536 ![] bcast_S_S65536 main_cst_2
  let main_v11 : IVec S65536 1 := cmpf .olt main_v9 main_v10
  let main_c_3 : IVec S_ 1 := constantI S_ 1 1#1
  let main_v12 : IVec S_ 1 := (fun x v => Host.reduce IntOp.andi x v reducesTo_S65536_S_d0 h_S_) main_v11 main_c_3
  let main_v13 : IVec S_ 1 := andi main_v8 main_v12
  let main_v14 : FVec F S65536 .f32 := Host.absf main_arg3
  let main_cst_4 : FVec F S_ .f32 := constant S_ .f32 0x7F800000#32
  let main_v15 : FVec F S65536 .f32 := broadcastInDim S65536 ![] bcast_S_S65536 main_cst_4
  let main_v16 : IVec S65536 1 := cmpf .olt main_v14 main_v15
  fn_part1 (F := F) main_arg4 main_arg5 main_arg6 main_arg7 main_arg8 main_arg9 main_arg10 main_arg11 main_arg12 main_arg13 main_v13 main_v16
-- ==== Kernel.lean ====
abbrev S65536x48 : Shape := ⟨2, ![65536, 48]⟩
abbrev S65536x12 : Shape := ⟨2, ![65536, 12]⟩
abbrev S65536 : Shape := ⟨1, ![65536]⟩
abbrev S101 : Shape := ⟨1, ![101]⟩
abbrev S60x1024 : Shape := ⟨2, ![60, 1024]⟩
abbrev S1024 : Shape := ⟨1, ![1024]⟩
abbrev S1024x512 : Shape := ⟨2, ![1024, 512]⟩
abbrev S512 : Shape := ⟨1, ![512]⟩
abbrev S512x256 : Shape := ⟨2, ![512, 256]⟩
abbrev S256 : Shape := ⟨1, ![256]⟩
abbrev S256x101 : Shape := ⟨2, ![256, 101]⟩
abbrev S1x1024 : Shape := ⟨2, ![1, 1024]⟩
abbrev S1x512 : Shape := ⟨2, ![1, 512]⟩
abbrev S1x256 : Shape := ⟨2, ![1, 256]⟩
abbrev S1x101 : Shape := ⟨2, ![1, 101]⟩
abbrev S65536x101 : Shape := ⟨2, ![65536, 101]⟩
abbrev S256x48 : Shape := ⟨2, ![256, 48]⟩
abbrev S256x12 : Shape := ⟨2, ![256, 12]⟩
abbrev S256x60 : Shape := ⟨2, ![256, 60]⟩
abbrev S256x1024 : Shape := ⟨2, ![256, 1024]⟩
abbrev S256x512 : Shape := ⟨2, ![256, 512]⟩
abbrev S256x256 : Shape := ⟨2, ![256, 256]⟩
abbrev S256x1 : Shape := ⟨2, ![256, 1]⟩
abbrev S256x8 : Shape := ⟨2, ![256, 8]⟩
abbrev S256x8x101 : Shape := ⟨3, ![256, 8, 101]⟩
abbrev S256x8x1 : Shape := ⟨3, ![256, 8, 1]⟩
abbrev S256x5 : Shape := ⟨2, ![256, 5]⟩
abbrev S256x5x101 : Shape := ⟨3, ![256, 5, 101]⟩
abbrev S256x5x1 : Shape := ⟨3, ![256, 5, 1]⟩

abbrev nBuf : Space → Nat
  | .hbm => 23
  | .vmem => 21
  | .smem => 0
  | _ => 0

abbrev bufTy : (tb : Table) → Fin (tcTables nBuf tb) → BufTy
  | .hbm, ⟨0, _⟩ => ⟨S65536x48, .f32⟩
  | .hbm, ⟨1, _⟩ => ⟨S65536x12, .f32⟩
  | .hbm, ⟨2, _⟩ => ⟨S65536, .f32⟩
  | .hbm, ⟨3, _⟩ => ⟨S65536, .f32⟩
  | .hbm, ⟨4, _⟩ => ⟨S65536, .f32⟩
  | .hbm, ⟨5, _⟩ => ⟨S101, .f32⟩
  | .hbm, ⟨6, _⟩ => ⟨S60x1024, .f32⟩
  | .hbm, ⟨7, _⟩ => ⟨S1024, .f32⟩
  | .hbm, ⟨8, _⟩ => ⟨S1024x512, .f32⟩
  | .hbm, ⟨9, _⟩ => ⟨S512, .f32⟩
  | .hbm, ⟨10, _⟩ => ⟨S512x256, .f32⟩
  | .hbm, ⟨11, _⟩ => ⟨S256, .f32⟩
  | .hbm, ⟨12, _⟩ => ⟨S256x101, .f32⟩
  | .hbm, ⟨13, _⟩ => ⟨S101, .f32⟩
  | .hbm, ⟨14, _⟩ => ⟨S60x1024, .bf16⟩
  | .hbm, ⟨15, _⟩ => ⟨S1024x512, .bf16⟩
  | .hbm, ⟨16, _⟩ => ⟨S512x256, .bf16⟩
  | .hbm, ⟨17, _⟩ => ⟨S256x101, .bf16⟩
  | .hbm, ⟨18, _⟩ => ⟨S1x1024, .f32⟩
  | .hbm, ⟨19, _⟩ => ⟨S1x512, .f32⟩
  | .hbm, ⟨20, _⟩ => ⟨S1x256, .f32⟩
  | .hbm, ⟨21, _⟩ => ⟨S1x101, .f32⟩
  | .hbm, ⟨22, _⟩ => ⟨S65536x101, .f32⟩
  | .local _ .vmem, ⟨0, _⟩ => ⟨S256x48, .f32⟩
  | .local _ .vmem, ⟨1, _⟩ => ⟨S256x48, .f32⟩
  | .local _ .vmem, ⟨2, _⟩ => ⟨S256x12, .f32⟩
  | .local _ .vmem, ⟨3, _⟩ => ⟨S256x12, .f32⟩
  | .local _ .vmem, ⟨4, _⟩ => ⟨S256, .f32⟩
  | .local _ .vmem, ⟨5, _⟩ => ⟨S256, .f32⟩
  | .local _ .vmem, ⟨6, _⟩ => ⟨S256, .f32⟩
  | .local _ .vmem, ⟨7, _⟩ => ⟨S256, .f32⟩
  | .local _ .vmem, ⟨8, _⟩ => ⟨S256, .f32⟩
  | .local _ .vmem, ⟨9, _⟩ => ⟨S256, .f32⟩
  | .local _ .vmem, ⟨10, _⟩ => ⟨S101, .f32⟩
  | .local _ .vmem, ⟨11, _⟩ => ⟨S60x1024, .bf16⟩
  | .local _ .vmem, ⟨12, _⟩ => ⟨S1x1024, .f32⟩
  | .local _ .vmem, ⟨13, _⟩ => ⟨S1024x512, .bf16⟩
  | .local _ .vmem, ⟨14, _⟩ => ⟨S1x512, .f32⟩
  | .local _ .vmem, ⟨15, _⟩ => ⟨S512x256, .bf16⟩
  | .local _ .vmem, ⟨16, _⟩ => ⟨S1x256, .f32⟩
  | .local _ .vmem, ⟨17, _⟩ => ⟨S256x101, .bf16⟩
  | .local _ .vmem, ⟨18, _⟩ => ⟨S1x101, .f32⟩
  | .local _ .vmem, ⟨19, _⟩ => ⟨S256x101, .f32⟩
  | .local _ .vmem, ⟨20, _⟩ => ⟨S256x101, .f32⟩
  | _, _ => ⟨S65536x48, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | _, _ => false

abbrev semScoped : Fin 0 → Bool
  | ⟨_, h⟩ => absurd h (Nat.not_lt_zero _)

abbrev dmaSemScoped : Fin 21 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | _ => false

abbrev sig : RefSig :=
  ofTc nBuf bufTy 0 21 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_v0 : Ref sig .tc := ⟨.hbm, 14, rfl⟩
abbrev main_v1 : Ref sig .tc := ⟨.hbm, 15, rfl⟩
abbrev main_v2 : Ref sig .tc := ⟨.hbm, 16, rfl⟩
abbrev main_v3 : Ref sig .tc := ⟨.hbm, 17, rfl⟩
abbrev main_v4 : Ref sig .tc := ⟨.hbm, 18, rfl⟩
abbrev main_v5 : Ref sig .tc := ⟨.hbm, 19, rfl⟩
abbrev main_v6 : Ref sig .tc := ⟨.hbm, 20, rfl⟩
abbrev main_v7 : Ref sig .tc := ⟨.hbm, 21, rfl⟩
abbrev main_v8 : Ref sig .tc := ⟨.hbm, 22, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg6_0 : Ref sig .tc := ⟨.vmem, 11, rfl⟩
abbrev cc0_stg7_0 : Ref sig .tc := ⟨.vmem, 12, rfl⟩
abbrev cc0_stg8_0 : Ref sig .tc := ⟨.vmem, 13, rfl⟩
abbrev cc0_stg9_0 : Ref sig .tc := ⟨.vmem, 14, rfl⟩
abbrev cc0_stg10_0 : Ref sig .tc := ⟨.vmem, 15, rfl⟩
abbrev cc0_stg11_0 : Ref sig .tc := ⟨.vmem, 16, rfl⟩
abbrev cc0_stg12_0 : Ref sig .tc := ⟨.vmem, 17, rfl⟩
abbrev cc0_stg13_0 : Ref sig .tc := ⟨.vmem, 18, rfl⟩
abbrev cc0_stg14_0 : Ref sig .tc := ⟨.vmem, 19, rfl⟩
abbrev cc0_stg14_1 : Ref sig .tc := ⟨.vmem, 20, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem6_0 : DmaSem sig := 11
abbrev cc0_sem7_0 : DmaSem sig := 12
abbrev cc0_sem8_0 : DmaSem sig := 13
abbrev cc0_sem9_0 : DmaSem sig := 14
abbrev cc0_sem10_0 : DmaSem sig := 15
abbrev cc0_sem11_0 : DmaSem sig := 16
abbrev cc0_sem12_0 : DmaSem sig := 17
abbrev cc0_sem13_0 : DmaSem sig := 18
abbrev cc0_sem14_0 : DmaSem sig := 19
abbrev cc0_sem14_1 : DmaSem sig := 20

abbrev nD : Nat := 1
abbrev τ : Topo := Topo.v7x

variable {F : FTy → Type} [FloatOps F]

abbrev grid0 : Pipeline.Grid := ⟨1, ![256], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 1 → Nat :=
  let arg0 : BitVec 32 := BitVec.ofNat 32 (i 0).val
  let c0_i32 : BitVec 32 := 0#32
  ![arg0.toNat]

def cc0_transform_3 (i : grid0.Coords) : Fin 1 → Nat :=
  let arg0 : BitVec 32 := BitVec.ofNat 32 (i 0).val
  let c0_i32 : BitVec 32 := 0#32
  ![arg0.toNat]

def cc0_transform_4 (i : grid0.Coords) : Fin 1 → Nat :=
  let arg0 : BitVec 32 := BitVec.ofNat 32 (i 0).val
  let c0_i32 : BitVec 32 := 0#32
  ![arg0.toNat]

def cc0_transform_5 (i : grid0.Coords) : Fin 1 → Nat :=
  let arg0 : BitVec 32 := BitVec.ofNat 32 (i 0).val
  let c0_i32 : BitVec 32 := 0#32
  let c0_i32_0 : BitVec 32 := 0#32
  ![c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_9 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_10 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_11 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_12 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_13 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_14 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S256x48 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S256x12 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S256 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S256 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S256 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 1 → Memref sig .tc .vmem S101 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S60x1024 .bf16 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 1 → Memref sig .tc .vmem S1x1024 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 1 → Memref sig .tc .vmem S1024x512 .bf16 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false]

abbrev stage0_9 : Fin 1 → Memref sig .tc .vmem S1x512 .f32 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false]

abbrev stage0_10 : Fin 1 → Memref sig .tc .vmem S512x256 .bf16 := fun | 0 => Memref.whole cc0_stg10_0 | ⟨_ + 1, h⟩ => absurd h (Nat.not_lt.2 (Nat.le_add_left _ _))
abbrev sem0_10 : Fin 1 → DmaSem sig := fun | 0 => cc0_sem10_0 | ⟨_ + 1, h⟩ => absurd h (Nat.not_lt.2 (Nat.le_add_left _ _))
abbrev reads0_10 : Fin grid0.rank → Bool := ![false]

abbrev stage0_11 : Fin 1 → Memref sig .tc .vmem S1x256 .f32 := fun | 0 => Memref.whole cc0_stg11_0 | ⟨_ + 1, h⟩ => absurd h (Nat.not_lt.2 (Nat.le_add_left _ _))
abbrev sem0_11 : Fin 1 → DmaSem sig := fun | 0 => cc0_sem11_0 | ⟨_ + 1, h⟩ => absurd h (Nat.not_lt.2 (Nat.le_add_left _ _))
abbrev reads0_11 : Fin grid0.rank → Bool := ![false]

abbrev stage0_12 : Fin 1 → Memref sig .tc .vmem S256x101 .bf16 := fun | 0 => Memref.whole cc0_stg12_0 | ⟨_ + 1, h⟩ => absurd h (Nat.not_lt.2 (Nat.le_add_left _ _))
abbrev sem0_12 : Fin 1 → DmaSem sig := fun | 0 => cc0_sem12_0 | ⟨_ + 1, h⟩ => absurd h (Nat.not_lt.2 (Nat.le_add_left _ _))
abbrev reads0_12 : Fin grid0.rank → Bool := ![false]

abbrev stage0_13 : Fin 1 → Memref sig .tc .vmem S1x101 .f32 := fun | 0 => Memref.whole cc0_stg13_0 | ⟨_ + 1, h⟩ => absurd h (Nat.not_lt.2 (Nat.le_add_left _ _))
abbrev sem0_13 : Fin 1 → DmaSem sig := fun | 0 => cc0_sem13_0 | ⟨_ + 1, h⟩ => absurd h (Nat.not_lt.2 (Nat.le_add_left _ _))
abbrev reads0_13 : Fin grid0.rank → Bool := ![false]

abbrev stage0_14 : Fin 2 → Memref sig .tc .vmem S256x101 .f32 := fun | 0 => Memref.whole cc0_stg14_0 | 1 => Memref.whole cc0_stg14_1 | ⟨_ + 2, h⟩ => absurd h (Nat.not_lt.2 (Nat.le_add_left _ _))
abbrev sem0_14 : Fin 2 → DmaSem sig := fun | 0 => cc0_sem14_0 | 1 => cc0_sem14_1 | ⟨_ + 2, h⟩ => absurd h (Nat.not_lt.2 (Nat.le_add_left _ _))
abbrev reads0_14 : Fin grid0.rank → Bool := ![true]

class Facts₀ : Prop where
  bitsLt_bf16_f32 : FTy.bits .bf16 < FTy.bits .f32
  shapeCasts_S1024_S1x1024 : S1024.ShapeCasts S1x1024
  shapeCasts_S512_S1x512 : S512.ShapeCasts S1x512
  shapeCasts_S256_S1x256 : S256.ShapeCasts S1x256
  shapeCasts_S101_S1x101 : S101.ShapeCasts S1x101
  inb_S256x48_S256x48_0_0 : ∀ a, (![0, 0] : Fin 2 → Nat) a + S256x48.size a ≤ S256x48.size a
  h_S256x48 : 0 < S256x48.numel
  inb_S256x12_S256x12_0_0 : ∀ a, (![0, 0] : Fin 2 → Nat) a + S256x12.size a ≤ S256x12.size a
  h_S256x12 : 0 < S256x12.numel
  concatenates_S256x48_S256x12_S256x60_d1 : Shape.Concatenates [S256x48, S256x12] S256x60 1
  inb_S60x1024_S60x1024_0_0 : ∀ a, (![0, 0] : Fin 2 → Nat) a + S60x1024.size a ≤ S60x1024.size a
  h_S60x1024 : 0 < S60x1024.numel
  shapeCasts_S60x1024_S60x1024 : S60x1024.ShapeCasts S60x1024
  inb_S1x1024_S1x1024_0_0 : ∀ a, (![0, 0] : Fin 2 → Nat) a + S1x1024.size a ≤ S1x1024.size a
  h_S1x1024 : 0 < S1x1024.numel
  shapeCasts_S1x1024_S1x1024 : S1x1024.ShapeCasts S1x1024
  broadcasts_S1x1024_S256x1024 : S1x1024.Broadcasts S256x1024
  inb_S1024x512_S1024x512_0_0 : ∀ a, (![0, 0] : Fin 2 → Nat) a + S1024x512.size a ≤ S1024x512.size a
  h_S1024x512 : 0 < S1024x512.numel
  shapeCasts_S1024x512_S1024x512 : S1024x512.ShapeCasts S1024x512
  inb_S1x512_S1x512_0_0 : ∀ a, (![0, 0] : Fin 2 → Nat) a + S1x512.size a ≤ S1x512.size a
  h_S1x512 : 0 < S1x512.numel
  shapeCasts_S1x512_S1x512 : S1x512.ShapeCasts S1x512
  broadcasts_S1x512_S256x512 : S1x512.Broadcasts S256x512
  inb_S512x256_S512x256_0_0 : ∀ a, (![0, 0] : Fin 2 → Nat) a + S512x256.size a ≤ S512x256.size a
  h_S512x256 : 0 < S512x256.numel
  shapeCasts_S512x256_S512x256 : S512x256.ShapeCasts S512x256
  inb_S1x256_S1x256_0_0 : ∀ a, (![0, 0] : Fin 2 → Nat) a + S1x256.size a ≤ S1x256.size a
  h_S1x256 : 0 < S1x256.numel
  shapeCasts_S1x256_S1x256 : S1x256.ShapeCasts S1x256
  broadcasts_S1x256_S256x256 : S1x256.Broadcasts S256x256
  inb_S256x101_S256x101_0_0 : ∀ a, (![0, 0] : Fin 2 → Nat) a + S256x101.size a ≤ S256x101.size a
  h_S256x101 : 0 < S256x101.numel
  shapeCasts_S256x101_S256x101 : S256x101.ShapeCasts S256x101
  inb_S1x101_S1x101_0_0 : ∀ a, (![0, 0] : Fin 2 → Nat) a + S1x101.size a ≤ S1x101.size a
  h_S1x101 : 0 < S1x101.numel
  shapeCasts_S1x101_S1x101 : S1x101.ShapeCasts S1x101
  broadcasts_S1x101_S256x101 : S1x101.Broadcasts S256x101
  reduces_S256x101_S256 : S256x101.Reduces [1] S256
  shapeCasts_S256_S256x1 : S256.ShapeCasts S256x1
  broadcasts_S256x1_S256x101 : S256x1.Broadcasts S256x101
  inb_S256_S256_0 : ∀ a, (![0] : Fin 1 → Nat) a + S256.size a ≤ S256.size a
  h_S256 : 0 < S256.numel
  inb_S101_S101_0 : ∀ a, (![0] : Fin 1 → Nat) a + S101.size a ≤ S101.size a
  h_S101 : 0 < S101.numel
  slices_S256x101_o0_0_S256x8 : S256x101.Slices ![0, 0] S256x8
  iota_S256x8x101_d2_w32 : S256x8x101.Iotas .tc 32 [2]
  shapeCasts_S256x8_S256x8x1 : S256x8.ShapeCasts S256x8x1
  broadcasts_S256x8x1_S256x8x101 : S256x8x1.Broadcasts S256x8x101
  shapeCasts_S256x8x1_S256x8x1 : S256x8x1.ShapeCasts S256x8x1
  reduces_S256x8x101_S256x101 : S256x8x101.Reduces [1] S256x101
  slices_S256x101_o0_8_S256x8 : S256x101.Slices ![0, 8] S256x8
  slices_S256x101_o0_16_S256x8 : S256x101.Slices ![0, 16] S256x8
  slices_S256x101_o0_24_S256x8 : S256x101.Slices ![0, 24] S256x8
  slices_S256x101_o0_32_S256x8 : S256x101.Slices ![0, 32] S256x8
  slices_S256x101_o0_40_S256x8 : S256x101.Slices ![0, 40] S256x8
  slices_S256x101_o0_48_S256x8 : S256x101.Slices ![0, 48] S256x8
  slices_S256x101_o0_56_S256x8 : S256x101.Slices ![0, 56] S256x8
  slices_S256x101_o0_64_S256x8 : S256x101.Slices ![0, 64] S256x8
  slices_S256x101_o0_72_S256x8 : S256x101.Slices ![0, 72] S256x8
  slices_S256x101_o0_80_S256x8 : S256x101.Slices ![0, 80] S256x8
  slices_S256x101_o0_88_S256x8 : S256x101.Slices ![0, 88] S256x8
  slices_S256x101_o0_96_S256x5 : S256x101.Slices ![0, 96] S256x5
  iota_S256x5x101_d2_w32 : S256x5x101.Iotas .tc 32 [2]
  shapeCasts_S256x5_S256x5x1 : S256x5.ShapeCasts S256x5x1
  broadcasts_S256x5x1_S256x5x101 : S256x5x1.Broadcasts S256x5x101
  shapeCasts_S256x5x1_S256x5x1 : S256x5x1.ShapeCasts S256x5x1
  reduces_S256x5x101_S256x101 : S256x5x101.Reduces [1] S256x101
  dot_S256x60_S60x1024_S256x1024_1_0_0_1_n_n_wf : DotDims.WF S256x60 S60x1024 S256x1024 [1] [0] [0] [1] [] []
  dot_S256x1024_S1024x512_S256x512_1_0_0_1_n_n_wf : DotDims.WF S256x1024 S1024x512 S256x512 [1] [0] [0] [1] [] []
  dot_S256x512_S512x256_S256x256_1_0_0_1_n_n_wf : DotDims.WF S256x512 S512x256 S256x256 [1] [0] [0] [1] [] []
  dot_S256x256_S256x101_S256x101_1_0_0_1_n_n_wf : DotDims.WF S256x256 S256x101 S256x101 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S256x48.size a ≤ S65536x48.size a
  hwx0_0 : ∀ i : grid0.Coords, EltTy.bits .f32 = 32 ∨ (Rect.block (s := S65536x48) S256x48.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S256x12.size a ≤ S65536x12.size a
  hwx0_1 : ∀ i : grid0.Coords, EltTy.bits .f32 = 32 ∨ (Rect.block (s := S65536x12) S256x12.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S256.size a ≤ S65536.size a
  hwx0_2 : ∀ i : grid0.Coords, EltTy.bits .f32 = 32 ∨ (Rect.block (s := S65536) S256.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S256.size a ≤ S65536.size a
  hwx0_3 : ∀ i : grid0.Coords, EltTy.bits .f32 = 32 ∨ (Rect.block (s := S65536) S256.size (cc0_transform_3 i) (hinb0_3 i)).WholeWords (EltTy.packing .f32)
  hstage0_4 : ∀ j, (stage0_4 j).IsWhole
  nbuf0_4 : grid0.bufCount reads0_4 false = 2
  hreads0_4 : ∀ i i' : grid0.Coords, (∀ a, reads0_4 a = true → i a = i' a) → cc0_transform_4 i = cc0_transform_4 i'
  hinb0_4 : ∀ (i : grid0.Coords) a, (cc0_transform_4 i a + 1) * S256.size a ≤ S65536.size a
  hwx0_4 : ∀ i : grid0.Coords, EltTy.bits .f32 = 32 ∨ (Rect.block (s := S65536) S256.size (cc0_transform_4 i) (hinb0_4 i)).WholeWords (EltTy.packing .f32)
  hstage0_5 : ∀ j, (stage0_5 j).IsWhole
  nbuf0_5 : grid0.bufCount reads0_5 true = 1
  hreads0_5 : ∀ i i' : grid0.Coords, (∀ a, reads0_5 a = true → i a = i' a) → cc0_transform_5 i = cc0_transform_5 i'
  hinb0_5 : ∀ (i : grid0.Coords) a, (cc0_transform_5 i a + 1) * S101.size a ≤ S101.size a
  hwx0_5 : ∀ i : grid0.Coords, EltTy.bits .f32 = 32 ∨ (Rect.block (s := S101) S101.size (cc0_transform_5 i) (hinb0_5 i)).WholeWords (EltTy.packing .f32)
  hstage0_6 : ∀ j, (stage0_6 j).IsWhole
  nbuf0_6 : grid0.bufCount reads0_6 true = 1
  hreads0_6 : ∀ i i' : grid0.Coords, (∀ a, reads0_6 a = true → i a = i' a) → cc0_transform_6 i = cc0_transform_6 i'
  hinb0_6 : ∀ (i : grid0.Coords) a, (cc0_transform_6 i a + 1) * S60x1024.size a ≤ S60x1024.size a
  hwx0_6 : ∀ i : grid0.Coords, EltTy.bits .bf16 = 32 ∨ (Rect.block (s := S60x1024) S60x1024.size (cc0_transform_6 i) (hinb0_6 i)).WholeWords (EltTy.packing .bf16)
  hstage0_7 : ∀ j, (stage0_7 j).IsWhole
  nbuf0_7 : grid0.bufCount reads0_7 true = 1
  hreads0_7 : ∀ i i' : grid0.Coords, (∀ a, reads0_7 a = true → i a = i' a) → cc0_transform_7 i = cc0_transform_7 i'
  hinb0_7 : ∀ (i : grid0.Coords) a, (cc0_transform_7 i a + 1) * S1x1024.size a ≤ S1x1024.size a
  hwx0_7 : ∀ i : grid0.Coords, EltTy.bits .f32 = 32 ∨ (Rect.block (s := S1x1024) S1x1024.size (cc0_transform_7 i) (hinb0_7 i)).WholeWords (EltTy.packing .f32)
  hstage0_8 : ∀ j, (stage0_8 j).IsWhole
  nbuf0_8 : grid0.bufCount reads0_8 true = 1
  hreads0_8 : ∀ i i' : grid0.Coords, (∀ a, reads0_8 a = true → i a = i' a) → cc0_transform_8 i = cc0_transform_8 i'
  hinb0_8 : ∀ (i : grid0.Coords) a, (cc0_transform_8 i a + 1) * S1024x512.size a ≤ S1024x512.size a
  hwx0_8 : ∀ i : grid0.Coords, EltTy.bits .bf16 = 32 ∨ (Rect.block (s := S1024x512) S1024x512.size (cc0_transform_8 i) (hinb0_8 i)).WholeWords (EltTy.packing .bf16)
  hstage0_9 : ∀ j, (stage0_9 j).IsWhole
  nbuf0_9 : grid0.bufCount reads0_9 true = 1
  hreads0_9 : ∀ i i' : grid0.Coords, (∀ a, reads0_9 a = true → i a = i' a) → cc0_transform_9 i = cc0_transform_9 i'
  hinb0_9 : ∀ (i : grid0.Coords) a, (cc0_transform_9 i a + 1) * S1x512.size a ≤ S1x512.size a
  hwx0_9 : ∀ i : grid0.Coords, EltTy.bits .f32 = 32 ∨ (Rect.block (s := S1x512) S1x512.size (cc0_transform_9 i) (hinb0_9 i)).WholeWords (EltTy.packing .f32)
  hstage0_10 : ∀ j, (stage0_10 j).IsWhole
  nbuf0_10 : grid0.bufCount reads0_10 true = 1
  hreads0_10 : ∀ i i' : grid0.Coords, (∀ a, reads0_10 a = true → i a = i' a) → cc0_transform_10 i = cc0_transform_10 i'
  hinb0_10 : ∀ (i : grid0.Coords) a, (cc0_transform_10 i a + 1) * S512x256.size a ≤ S512x256.size a
  hwx0_10 : ∀ i : grid0.Coords, EltTy.bits .bf16 = 32 ∨ (Rect.block (s := S512x256) S512x256.size (cc0_transform_10 i) (hinb0_10 i)).WholeWords (EltTy.packing .bf16)
  hstage0_11 : ∀ j, (stage0_11 j).IsWhole
  nbuf0_11 : grid0.bufCount reads0_11 true = 1
  hreads0_11 : ∀ i i' : grid0.Coords, (∀ a, reads0_11 a = true → i a = i' a) → cc0_transform_11 i = cc0_transform_11 i'
  hinb0_11 : ∀ (i : grid0.Coords) a, (cc0_transform_11 i a + 1) * S1x256.size a ≤ S1x256.size a
  hwx0_11 : ∀ i : grid0.Coords, EltTy.bits .f32 = 32 ∨ (Rect.block (s := S1x256) S1x256.size (cc0_transform_11 i) (hinb0_11 i)).WholeWords (EltTy.packing .f32)
  hstage0_12 : ∀ j, (stage0_12 j).IsWhole
  nbuf0_12 : grid0.bufCount reads0_12 true = 1
  hreads0_12 : ∀ i i' : grid0.Coords, (∀ a, reads0_12 a = true → i a = i' a) → cc0_transform_12 i = cc0_transform_12 i'
  hinb0_12 : ∀ (i : grid0.Coords) a, (cc0_transform_12 i a + 1) * S256x101.size a ≤ S256x101.size a
  hwx0_12 : ∀ i : grid0.Coords, EltTy.bits .bf16 = 32 ∨ (Rect.block (s := S256x101) S256x101.size (cc0_transform_12 i) (hinb0_12 i)).WholeWords (EltTy.packing .bf16)
  hstage0_13 : ∀ j, (stage0_13 j).IsWhole
  nbuf0_13 : grid0.bufCount reads0_13 true = 1
  hreads0_13 : ∀ i i' : grid0.Coords, (∀ a, reads0_13 a = true → i a = i' a) → cc0_transform_13 i = cc0_transform_13 i'
  hinb0_13 : ∀ (i : grid0.Coords) a, (cc0_transform_13 i a + 1) * S1x101.size a ≤ S1x101.size a
  hwx0_13 : ∀ i : grid0.Coords, EltTy.bits .f32 = 32 ∨ (Rect.block (s := S1x101) S1x101.size (cc0_transform_13 i) (hinb0_13 i)).WholeWords (EltTy.packing .f32)
  hstage0_14 : ∀ j, (stage0_14 j).IsWhole
  nbuf0_14 : grid0.bufCount reads0_14 false = 2
  hreads0_14 : ∀ i i' : grid0.Coords, (∀ a, reads0_14 a = true → i a = i' a) → cc0_transform_14 i = cc0_transform_14 i'
  hinb0_14 : ∀ (i : grid0.Coords) a, (cc0_transform_14 i a + 1) * S256x101.size a ≤ S65536x101.size a
  hwx0_14 : ∀ i : grid0.Coords, EltTy.bits .f32 = 32 ∨ (Rect.block (s := S65536x101) S256x101.size (cc0_transform_14 i) (hinb0_14 i)).WholeWords (EltTy.packing .f32)

variable [Facts₀]

def dot_S256x60_S60x1024_S256x1024_1_0_0_1_n_n : DotDims S256x60 S60x1024 S256x1024 where
  lhsContracting := [1]
  rhsContracting := [0]
  lhsNonContracting := [0]
  rhsNonContracting := [1]
  lhsBatch := []
  rhsBatch := []
  wf := dot_S256x60_S60x1024_S256x1024_1_0_0_1_n_n_wf
def dot_S256x1024_S1024x512_S256x512_1_0_0_1_n_n : DotDims S256x1024 S1024x512 S256x512 where
  lhsContracting := [1]
  rhsContracting := [0]
  lhsNonContracting := [0]
  rhsNonContracting := [1]
  lhsBatch := []
  rhsBatch := []
  wf := dot_S256x1024_S1024x512_S256x512_1_0_0_1_n_n_wf
def dot_S256x512_S512x256_S256x256_1_0_0_1_n_n : DotDims S256x512 S512x256 S256x256 where
  lhsContracting := [1]
  rhsContracting := [0]
  lhsNonContracting := [0]
  rhsNonContracting := [1]
  lhsBatch := []
  rhsBatch := []
  wf := dot_S256x512_S512x256_S256x256_1_0_0_1_n_n_wf
def dot_S256x256_S256x101_S256x101_1_0_0_1_n_n : DotDims S256x256 S256x101 S256x101 where
  lhsContracting := [1]
  rhsContracting := [0]
  lhsNonContracting := [0]
  rhsNonContracting := [1]
  lhsBatch := []
  rhsBatch := []
  wf := dot_S256x256_S256x101_S256x101_1_0_0_1_n_n_wf

abbrev win0_0 : Pipeline.Window sig grid0 :=
  Pipeline.Window.ofSpec (Memref.whole main_arg0) S256x48.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg1) S256x12.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_arg2) S256.size cc0_transform_2 reads0_2 false false 2 stage0_2 sem0_2
    hrank0 hreads0_2 hinb0_2 nbuf0_2 (Memref.isWhole_whole _) hwx0_2 hstage0_2

abbrev win0_3 : Pipeline.Window sig grid0 :=
  Pipeline.Window.ofSpec (Memref.whole main_arg3) S256.size cc0_transform_3 reads0_3 false false 2 stage0_3 sem0_3
    hrank0 hreads0_3 hinb0_3 nbuf0_3 (Memref.isWhole_whole _) hwx0_3 hstage0_3

abbrev win0_4 : Pipeline.Window sig grid0 :=
  Pipeline.Window.ofSpec (Memref.whole main_arg4) S256.size cc0_transform_4 reads0_4 false false 2 stage0_4 sem0_4
    hrank0 hreads0_4 hinb0_4 nbuf0_4 (Memref.isWhole_whole _) hwx0_4 hstage0_4

abbrev win0_5 : Pipeline.Window sig grid0 :=
  Pipeline.Window.ofSpec (Memref.whole main_arg5) S101.size cc0_transform_5 reads0_5 false true 1 stage0_5 sem0_5
    hrank0 hreads0_5 hinb0_5 nbuf0_5 (Memref.isWhole_whole _) hwx0_5 hstage0_5

abbrev win0_6 : Pipeline.Window sig grid0 :=
  Pipeline.Window.ofSpec (Memref.whole main_v0) S60x1024.size cc0_transform_6 reads0_6 false true 1 stage0_6 sem0_6
    hrank0 hreads0_6 hinb0_6 nbuf0_6 (Memref.isWhole_whole _) hwx0_6 hstage0_6

abbrev win0_7 : Pipeline.Window sig grid0 :=
  Pipeline.Window.ofSpec (Memref.whole main_v4) S1x1024.size cc0_transform_7 reads0_7 false true 1 stage0_7 sem0_7
    hrank0 hreads0_7 hinb0_7 nbuf0_7 (Memref.isWhole_whole _) hwx0_7 hstage0_7

abbrev win0_8 : Pipeline.Window sig grid0 :=
  Pipeline.Window.ofSpec (Memref.whole main_v1) S1024x512.size cc0_transform_8 reads0_8 false true 1 stage0_8 sem0_8
    hrank0 hreads0_8 hinb0_8 nbuf0_8 (Memref.isWhole_whole _) hwx0_8 hstage0_8

abbrev win0_9 : Pipeline.Window sig grid0 :=
  Pipeline.Window.ofSpec (Memref.whole main_v5) S1x512.size cc0_transform_9 reads0_9 false true 1 stage0_9 sem0_9
    hrank0 hreads0_9 hinb0_9 nbuf0_9 (Memref.isWhole_whole _) hwx0_9 hstage0_9

abbrev win0_10 : Pipeline.Window sig grid0 :=
  Pipeline.Window.ofSpec (Memref.whole main_v2) S512x256.size cc0_transform_10 reads0_10 false true 1 stage0_10 sem0_10
    hrank0 hreads0_10 hinb0_10 nbuf0_10 (Memref.isWhole_whole _) hwx0_10 hstage0_10

abbrev win0_11 : Pipeline.Window sig grid0 :=
  Pipeline.Window.ofSpec (Memref.whole main_v6) S1x256.size cc0_transform_11 reads0_11 false true 1 stage0_11 sem0_11
    hrank0 hreads0_11 hinb0_11 nbuf0_11 (Memref.isWhole_whole _) hwx0_11 hstage0_11

abbrev win0_12 : Pipeline.Window sig grid0 :=
  Pipeline.Window.ofSpec (Memref.whole main_v3) S256x101.size cc0_transform_12 reads0_12 false true 1 stage0_12 sem0_12
    hrank0 hreads0_12 hinb0_12 nbuf0_12 (Memref.isWhole_whole _) hwx0_12 hstage0_12

abbrev win0_13 : Pipeline.Window sig grid0 :=
  Pipeline.Window.ofSpec (Memref.whole main_v7) S1x101.size cc0_transform_13 reads0_13 false true 1 stage0_13 sem0_13
    hrank0 hreads0_13 hinb0_13 nbuf0_13 (Memref.isWhole_whole _) hwx0_13 hstage0_13

abbrev win0_14 : Pipeline.Window sig grid0 :=
  Pipeline.Window.ofSpec (Memref.whole main_v8) S256x101.size cc0_transform_14 reads0_14 true false 2 stage0_14 sem0_14
    hrank0 hreads0_14 hinb0_14 nbuf0_14 (Memref.isWhole_whole _) hwx0_14 hstage0_14

abbrev win0 : Fin 15 → Pipeline.Window sig grid0 := fun | 0 => win0_0 | 1 => win0_1 | 2 => win0_2 | 3 => win0_3 | 4 => win0_4 | 5 => win0_5 | 6 => win0_6 | 7 => win0_7 | 8 => win0_8 | 9 => win0_9 | 10 => win0_10 | 11 => win0_11 | 12 => win0_12 | 13 => win0_13 | 14 => win0_14 | ⟨_ + 15, h⟩ => absurd h (Nat.not_lt.2 (Nat.le_add_left _ _))
abbrev spec0 : Fin 15 → Pipeline.WinSpec sig grid0.rank := fun w => (win0 w).toWinSpec

class Facts : Prop extends Facts₀ where

variable [Facts]
-- ==== ReferenceIdeal.lean ====
abbrev S65536x48 : Shape := ⟨2, ![65536, 48]⟩
abbrev S65536x12 : Shape := ⟨2, ![65536, 12]⟩
abbrev S65536 : Shape := ⟨1, ![65536]⟩
abbrev S101 : Shape := ⟨1, ![101]⟩
abbrev S60x1024 : Shape := ⟨2, ![60, 1024]⟩
abbrev S1024 : Shape := ⟨1, ![1024]⟩
abbrev S1024x512 : Shape := ⟨2, ![1024, 512]⟩
abbrev S512 : Shape := ⟨1, ![512]⟩
abbrev S512x256 : Shape := ⟨2, ![512, 256]⟩
abbrev S256 : Shape := ⟨1, ![256]⟩
abbrev S256x101 : Shape := ⟨2, ![256, 101]⟩
abbrev S65536x1 : Shape := ⟨2, ![65536, 1]⟩
abbrev S1x101 : Shape := ⟨2, ![1, 101]⟩
abbrev S65536x101 : Shape := ⟨2, ![65536, 101]⟩
abbrev S_ : Shape := ⟨0, ![]⟩
abbrev S65536x60 : Shape := ⟨2, ![65536, 60]⟩
abbrev S65536x1024 : Shape := ⟨2, ![65536, 1024]⟩
abbrev S1x1024 : Shape := ⟨2, ![1, 1024]⟩
abbrev S65536x512 : Shape := ⟨2, ![65536, 512]⟩
abbrev S1x512 : Shape := ⟨2, ![1, 512]⟩
abbrev S65536x256 : Shape := ⟨2, ![65536, 256]⟩
abbrev S1x256 : Shape := ⟨2, ![1, 256]⟩
abbrev S65536x101x1 : Shape := ⟨3, ![65536, 101, 1]⟩
abbrev S65536x101x2 : Shape := ⟨3, ![65536, 101, 2]⟩

abbrev nBuf : Space → Nat
  | .hbm => 148
  | .vmem => 0
  | .smem => 0
  | _ => 0

abbrev hbmTy0_0 (i : Nat) : BufTy := match i % 128 with
  | 0 => ⟨S65536x48, .f32⟩
  | 1 => ⟨S65536x12, .f32⟩
  | 2 => ⟨S65536, .f32⟩
  | 3 => ⟨S65536, .f32⟩
  | 4 => ⟨S65536, .f32⟩
  | 5 => ⟨S101, .f32⟩
  | 6 => ⟨S60x1024, .f32⟩
  | 7 => ⟨S1024, .f32⟩
  | 8 => ⟨S1024x512, .f32⟩
  | 9 => ⟨S512, .f32⟩
  | 10 => ⟨S512x256, .f32⟩
  | 11 => ⟨S256, .f32⟩
  | 12 => ⟨S256x101, .f32⟩
  | 13 => ⟨S101, .f32⟩
  | 14 => ⟨S65536x1, .f32⟩
  | 15 => ⟨S65536x1, .f32⟩
  | 16 => ⟨S65536x1, .f32⟩
  | 17 => ⟨S65536x1, .f32⟩
  | 18 => ⟨S1x101, .f32⟩
  | 19 => ⟨S65536x101, .f32⟩
  | 20 => ⟨S65536x101, .f32⟩
  | 21 => ⟨S65536x101, .f32⟩
  | 22 => ⟨S65536x101, .f32⟩
  | 23 => ⟨S65536x101, .f32⟩
  | 24 => ⟨S_, .f32⟩
  | 25 => ⟨S_, .f32⟩
  | 26 => ⟨S_, .f32⟩
  | 27 => ⟨S65536x101, .f32⟩
  | 28 => ⟨S65536x101, .f32⟩
  | 29 => ⟨S_, .f32⟩
  | 30 => ⟨S65536x101, .f32⟩
  | 31 => ⟨S65536x101, .f32⟩
  | 32 => ⟨S_, .f32⟩
  | 33 => ⟨S65536x101, .f32⟩
  | 34 => ⟨S65536x101, .f32⟩
  | 35 => ⟨S_, .f32⟩
  | 36 => ⟨S65536x101, .f32⟩
  | 37 => ⟨S65536x101, .f32⟩
  | 38 => ⟨S65536x101, .f32⟩
  | 39 => ⟨S65536x101, .i32⟩
  | 40 => ⟨S65536x101, .f32⟩
  | 41 => ⟨S65536x101, .i32⟩
  | 42 => ⟨S_, .i32⟩
  | 43 => ⟨S65536x101, .i32⟩
  | 44 => ⟨S65536x101, .i1⟩
  | 45 => ⟨S65536x101, .i1⟩
  | 46 => ⟨S65536x101, .i1⟩
  | 47 => ⟨S_, .i32⟩
  | 48 => ⟨S65536x101, .i32⟩
  | 49 => ⟨S65536x101, .i1⟩
  | 50 => ⟨S65536x101, .i1⟩
  | 51 => ⟨S65536x101, .i1⟩
  | 52 => ⟨S_, .i32⟩
  | 53 => ⟨S65536x101, .i32⟩
  | 54 => ⟨S65536x101, .i32⟩
  | 55 => ⟨S65536x101, .i32⟩
  | 56 => ⟨S_, .i32⟩
  | 57 => ⟨S65536x101, .i32⟩
  | 58 => ⟨S65536x101, .i32⟩
  | 59 => ⟨S65536x101, .i32⟩
  | 60 => ⟨S65536x60, .f32⟩
  | 61 => ⟨S65536x1024, .f32⟩
  | 62 => ⟨S1x1024, .f32⟩
  | 63 => ⟨S65536x1024, .f32⟩
  | 64 => ⟨S65536x1024, .f32⟩
  | 65 => ⟨S_, .f32⟩
  | 66 => ⟨S65536x1024, .f32⟩
  | 67 => ⟨S65536x1024, .f32⟩
  | 68 => ⟨S65536x512, .f32⟩
  | 69 => ⟨S1x512, .f32⟩
  | 70 => ⟨S65536x512, .f32⟩
  | 71 => ⟨S65536x512, .f32⟩
  | 72 => ⟨S_, .f32⟩
  | 73 => ⟨S65536x512, .f32⟩
  | 74 => ⟨S65536x512, .f32⟩
  | 75 => ⟨S65536x256, .f32⟩
  | 76 => ⟨S1x256, .f32⟩
  | 77 => ⟨S65536x256, .f32⟩
  | 78 => ⟨S65536x256, .f32⟩
  | 79 => ⟨S_, .f32⟩
  | 80 => ⟨S65536x256, .f32⟩
  | 81 => ⟨S65536x256, .f32⟩
  | 82 => ⟨S65536x101, .f32⟩
  | 83 => ⟨S1x101, .f32⟩
  | 84 => ⟨S65536x101, .f32⟩
  | 85 => ⟨S65536x101, .f32⟩
  | 86 => ⟨S_, .f32⟩
  | 87 => ⟨S65536, .f32⟩
  | 88 => ⟨S_, .f32⟩
  | 89 => ⟨S65536, .f32⟩
  | 90 => ⟨S65536, .f32⟩
  | 91 => ⟨S65536x1, .f32⟩
  | 92 => ⟨S65536x101, .f32⟩
  | 93 => ⟨S65536x101, .f32⟩
  | 94 => ⟨S65536x101, .f32⟩
  | 95 => ⟨S_, .f32⟩
  | 96 => ⟨S65536, .f32⟩
  | 97 => ⟨S65536x1, .f32⟩
  | 98 => ⟨S65536x101, .f32⟩
  | 99 => ⟨S65536x101, .f32⟩
  | 100 => ⟨S65536, .i32⟩
  | 101 => ⟨S65536x1, .i32⟩
  | 102 => ⟨S_, .f32⟩
  | 103 => ⟨S65536x101, .f32⟩
  | 104 => ⟨S65536x101, .f32⟩
  | 105 => ⟨S65536x101, .f32⟩
  | 106 => ⟨S65536x101, .f32⟩
  | 107 => ⟨S_, .i32⟩
  | 108 => ⟨S65536x1, .i32⟩
  | 109 => ⟨S65536x1, .i1⟩
  | 110 => ⟨S_, .i32⟩
  | 111 => ⟨S65536x1, .i32⟩
  | 112 => ⟨S65536x1, .i32⟩
  | 113 => ⟨S65536x1, .i32⟩
  | 114 => ⟨S_, .i32⟩
  | 115 => ⟨S65536x101, .i32⟩
  | 116 => ⟨S65536x101, .i1⟩
  | 117 => ⟨S_, .i32⟩
  | 118 => ⟨S65536x101, .i32⟩
  | 119 => ⟨S65536x101, .i32⟩
  | 120 => ⟨S65536x101, .i32⟩
  | 121 => ⟨S65536x101, .i32⟩
  | 122 => ⟨S65536x101x1, .i32⟩
  | 123 => ⟨S65536x101x1, .i32⟩
  | 124 => ⟨S65536x101x2, .i32⟩
  | 125 => ⟨S65536x101, .f32⟩
  | 126 => ⟨S65536x101, .f32⟩
  | 127 => ⟨S65536x101, .f32⟩
  | _ => ⟨S65536x48, .f32⟩

abbrev hbmTy0_1 (i : Nat) : BufTy := match i % 128 with
  | 0 => ⟨S65536x101, .f32⟩
  | 1 => ⟨S_, .i32⟩
  | 2 => ⟨S65536x1, .i32⟩
  | 3 => ⟨S65536x1, .i1⟩
  | 4 => ⟨S_, .i32⟩
  | 5 => ⟨S65536x1, .i32⟩
  | 6 => ⟨S65536x1, .i32⟩
  | 7 => ⟨S65536x1, .i32⟩
  | 8 => ⟨S_, .i32⟩
  | 9 => ⟨S65536x101, .i32⟩
  | 10 => ⟨S65536x101, .i1⟩
  | 11 => ⟨S_, .i32⟩
  | 12 => ⟨S65536x101, .i32⟩
  | 13 => ⟨S65536x101, .i32⟩
  | 14 => ⟨S65536x101, .i32⟩
  | 15 => ⟨S65536x101, .i32⟩
  | 16 => ⟨S65536x101x1, .i32⟩
  | 17 => ⟨S65536x101x1, .i32⟩
  | 18 => ⟨S65536x101x2, .i32⟩
  | 19 => ⟨S65536x101, .f32⟩
  | _ => ⟨S65536x48, .f32⟩

abbrev hbmTy (i : Nat) : BufTy := match i / 128 with
  | 0 => hbmTy0_0 i
  | 1 => hbmTy0_1 i
  | _ => ⟨S65536x48, .f32⟩

abbrev bufTy : (tb : Table) → Fin (tcTables nBuf tb) → BufTy
  | .hbm, ⟨i, _⟩ => hbmTy i
  | _, _ => ⟨S65536x48, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_v0 : Ref sig .tc := ⟨.hbm, 14, rfl⟩
abbrev main_v1 : Ref sig .tc := ⟨.hbm, 15, rfl⟩
abbrev main_v2 : Ref sig .tc := ⟨.hbm, 16, rfl⟩
abbrev main_v3 : Ref sig .tc := ⟨.hbm, 17, rfl⟩
abbrev main_v4 : Ref sig .tc := ⟨.hbm, 18, rfl⟩
abbrev main_v5 : Ref sig .tc := ⟨.hbm, 19, rfl⟩
abbrev main_v6 : Ref sig .tc := ⟨.hbm, 20, rfl⟩
abbrev main_v7 : Ref sig .tc := ⟨.hbm, 21, rfl⟩
abbrev main_v8 : Ref sig .tc := ⟨.hbm, 22, rfl⟩
abbrev main_v9 : Ref sig .tc := ⟨.hbm, 23, rfl⟩
abbrev main_cst : Ref sig .tc := ⟨.hbm, 24, rfl⟩
abbrev main_cst_0 : Ref sig .tc := ⟨.hbm, 25, rfl⟩
abbrev main_call0_v0 : Ref sig .tc := ⟨.hbm, 26, rfl⟩
abbrev main_call0_v1 : Ref sig .tc := ⟨.hbm, 27, rfl⟩
abbrev main_call0_v2 : Ref sig .tc := ⟨.hbm, 28, rfl⟩
abbrev main_call0_v3 : Ref sig .tc := ⟨.hbm, 29, rfl⟩
abbrev main_call0_v4 : Ref sig .tc := ⟨.hbm, 30, rfl⟩
abbrev main_v10 : Ref sig .tc := ⟨.hbm, 31, rfl⟩
abbrev main_cst_1 : Ref sig .tc := ⟨.hbm, 32, rfl⟩
abbrev main_v11 : Ref sig .tc := ⟨.hbm, 33, rfl⟩
abbrev main_v12 : Ref sig .tc := ⟨.hbm, 34, rfl⟩
abbrev main_cst_2 : Ref sig .tc := ⟨.hbm, 35, rfl⟩
abbrev main_v13 : Ref sig .tc := ⟨.hbm, 36, rfl⟩
abbrev main_v14 : Ref sig .tc := ⟨.hbm, 37, rfl⟩
abbrev main_v15 : Ref sig .tc := ⟨.hbm, 38, rfl⟩
abbrev main_v16 : Ref sig .tc := ⟨.hbm, 39, rfl⟩
abbrev main_v17 : Ref sig .tc := ⟨.hbm, 40, rfl⟩
abbrev main_v18 : Ref sig .tc := ⟨.hbm, 41, rfl⟩
abbrev main_c : Ref sig .tc := ⟨.hbm, 42, rfl⟩
abbrev main_v19 : Ref sig .tc := ⟨.hbm, 43, rfl⟩
abbrev main_v20 : Ref sig .tc := ⟨.hbm, 44, rfl⟩
abbrev main_v21 : Ref sig .tc := ⟨.hbm, 45, rfl⟩
abbrev main_v22 : Ref sig .tc := ⟨.hbm, 46, rfl⟩
abbrev main_c_3 : Ref sig .tc := ⟨.hbm, 47, rfl⟩
abbrev main_v23 : Ref sig .tc := ⟨.hbm, 48, rfl⟩
abbrev main_v24 : Ref sig .tc := ⟨.hbm, 49, rfl⟩
abbrev main_v25 : Ref sig .tc := ⟨.hbm, 50, rfl⟩
abbrev main_v26 : Ref sig .tc := ⟨.hbm, 51, rfl⟩
abbrev main_c_4 : Ref sig .tc := ⟨.hbm, 52, rfl⟩
abbrev main_v27 : Ref sig .tc := ⟨.hbm, 53, rfl⟩
abbrev main_v28 : Ref sig .tc := ⟨.hbm, 54, rfl⟩
abbrev main_v29 : Ref sig .tc := ⟨.hbm, 55, rfl⟩
abbrev main_c_5 : Ref sig .tc := ⟨.hbm, 56, rfl⟩
abbrev main_v30 : Ref sig .tc := ⟨.hbm, 57, rfl⟩
abbrev main_v31 : Ref sig .tc := ⟨.hbm, 58, rfl⟩
abbrev main_v32 : Ref sig .tc := ⟨.hbm, 59, rfl⟩
abbrev main_v33 : Ref sig .tc := ⟨.hbm, 60, rfl⟩
abbrev main_v34 : Ref sig .tc := ⟨.hbm, 61, rfl⟩
abbrev main_v35 : Ref sig .tc := ⟨.hbm, 62, rfl⟩
abbrev main_v36 : Ref sig .tc := ⟨.hbm, 63, rfl⟩
abbrev main_v37 : Ref sig .tc := ⟨.hbm, 64, rfl⟩
abbrev main_call3_cst : Ref sig .tc := ⟨.hbm, 65, rfl⟩
abbrev main_call3_v0 : Ref sig .tc := ⟨.hbm, 66, rfl⟩
abbrev main_v38 : Ref sig .tc := ⟨.hbm, 67, rfl⟩
abbrev main_v39 : Ref sig .tc := ⟨.hbm, 68, rfl⟩
abbrev main_v40 : Ref sig .tc := ⟨.hbm, 69, rfl⟩
abbrev main_v41 : Ref sig .tc := ⟨.hbm, 70, rfl⟩
abbrev main_v42 : Ref sig .tc := ⟨.hbm, 71, rfl⟩
abbrev main_call4_cst : Ref sig .tc := ⟨.hbm, 72, rfl⟩
abbrev main_call4_v0 : Ref sig .tc := ⟨.hbm, 73, rfl⟩
abbrev main_v43 : Ref sig .tc := ⟨.hbm, 74, rfl⟩
abbrev main_v44 : Ref sig .tc := ⟨.hbm, 75, rfl⟩
abbrev main_v45 : Ref sig .tc := ⟨.hbm, 76, rfl⟩
abbrev main_v46 : Ref sig .tc := ⟨.hbm, 77, rfl⟩
abbrev main_v47 : Ref sig .tc := ⟨.hbm, 78, rfl⟩
abbrev main_call5_cst : Ref sig .tc := ⟨.hbm, 79, rfl⟩
abbrev main_call5_v0 : Ref sig .tc := ⟨.hbm, 80, rfl⟩
abbrev main_v48 : Ref sig .tc := ⟨.hbm, 81, rfl⟩
abbrev main_v49 : Ref sig .tc := ⟨.hbm, 82, rfl⟩
abbrev main_v50 : Ref sig .tc := ⟨.hbm, 83, rfl⟩
abbrev main_v51 : Ref sig .tc := ⟨.hbm, 84, rfl⟩
abbrev main_v52 : Ref sig .tc := ⟨.hbm, 85, rfl⟩
abbrev main_cst_6 : Ref sig .tc := ⟨.hbm, 86, rfl⟩
abbrev main_v53 : Ref sig .tc := ⟨.hbm, 87, rfl⟩
abbrev main_cst_7 : Ref sig .tc := ⟨.hbm, 88, rfl⟩
abbrev main_v54 : Ref sig .tc := ⟨.hbm, 89, rfl⟩
abbrev main_v55 : Ref sig .tc := ⟨.hbm, 90, rfl⟩
abbrev main_v56 : Ref sig .tc := ⟨.hbm, 91, rfl⟩
abbrev main_v57 : Ref sig .tc := ⟨.hbm, 92, rfl⟩
abbrev main_v58 : Ref sig .tc := ⟨.hbm, 93, rfl⟩
abbrev main_v59 : Ref sig .tc := ⟨.hbm, 94, rfl⟩
abbrev main_cst_8 : Ref sig .tc := ⟨.hbm, 95, rfl⟩
abbrev main_v60 : Ref sig .tc := ⟨.hbm, 96, rfl⟩
abbrev main_v61 : Ref sig .tc := ⟨.hbm, 97, rfl⟩
abbrev main_v62 : Ref sig .tc := ⟨.hbm, 98, rfl⟩
abbrev main_v63 : Ref sig .tc := ⟨.hbm, 99, rfl⟩
abbrev main_v64 : Ref sig .tc := ⟨.hbm, 100, rfl⟩
abbrev main_v65 : Ref sig .tc := ⟨.hbm, 101, rfl⟩
abbrev main_cst_9 : Ref sig .tc := ⟨.hbm, 102, rfl⟩
abbrev main_v66 : Ref sig .tc := ⟨.hbm, 103, rfl⟩
abbrev main_v67 : Ref sig .tc := ⟨.hbm, 104, rfl⟩
abbrev main_v68 : Ref sig .tc := ⟨.hbm, 105, rfl⟩
abbrev main_v69 : Ref sig .tc := ⟨.hbm, 106, rfl⟩
abbrev main_c_10 : Ref sig .tc := ⟨.hbm, 107, rfl⟩
abbrev main_v70 : Ref sig .tc := ⟨.hbm, 108, rfl⟩
abbrev main_v71 : Ref sig .tc := ⟨.hbm, 109, rfl⟩
abbrev main_c_11 : Ref sig .tc := ⟨.hbm, 110, rfl⟩
abbrev main_v72 : Ref sig .tc := ⟨.hbm, 111, rfl⟩
abbrev main_v73 : Ref sig .tc := ⟨.hbm, 112, rfl⟩
abbrev main_v74 : Ref sig .tc := ⟨.hbm, 113, rfl⟩
abbrev main_c_12 : Ref sig .tc := ⟨.hbm, 114, rfl⟩
abbrev main_v75 : Ref sig .tc := ⟨.hbm, 115, rfl⟩
abbrev main_v76 : Ref sig .tc := ⟨.hbm, 116, rfl⟩
abbrev main_c_13 : Ref sig .tc := ⟨.hbm, 117, rfl⟩
abbrev main_v77 : Ref sig .tc := ⟨.hbm, 118, rfl⟩
abbrev main_v78 : Ref sig .tc := ⟨.hbm, 119, rfl⟩
abbrev main_v79 : Ref sig .tc := ⟨.hbm, 120, rfl⟩
abbrev main_v80 : Ref sig .tc := ⟨.hbm, 121, rfl⟩
abbrev main_v81 : Ref sig .tc := ⟨.hbm, 122, rfl⟩
abbrev main_v82 : Ref sig .tc := ⟨.hbm, 123, rfl⟩
abbrev main_v83 : Ref sig .tc := ⟨.hbm, 124, rfl⟩
abbrev main_v84 : Ref sig .tc := ⟨.hbm, 125, rfl⟩
abbrev main_v85 : Ref sig .tc := ⟨.hbm, 126, rfl⟩
abbrev main_v86 : Ref sig .tc := ⟨.hbm, 127, rfl⟩
abbrev main_v87 : Ref sig .tc := ⟨.hbm, 128, rfl⟩
abbrev main_c_14 : Ref sig .tc := ⟨.hbm, 129, rfl⟩
abbrev main_v88 : Ref sig .tc := ⟨.hbm, 130, rfl⟩
abbrev main_v89 : Ref sig .tc := ⟨.hbm, 131, rfl⟩
abbrev main_c_15 : Ref sig .tc := ⟨.hbm, 132, rfl⟩
abbrev main_v90 : Ref sig .tc := ⟨.hbm, 133, rfl⟩
abbrev main_v91 : Ref sig .tc := ⟨.hbm, 134, rfl⟩
abbrev main_v92 : Ref sig .tc := ⟨.hbm, 135, rfl⟩
abbrev main_c_16 : Ref sig .tc := ⟨.hbm, 136, rfl⟩
abbrev main_v93 : Ref sig .tc := ⟨.hbm, 137, rfl⟩
abbrev main_v94 : Ref sig .tc := ⟨.hbm, 138, rfl⟩
abbrev main_c_17 : Ref sig .tc := ⟨.hbm, 139, rfl⟩
abbrev main_v95 : Ref sig .tc := ⟨.hbm, 140, rfl⟩
abbrev main_v96 : Ref sig .tc := ⟨.hbm, 141, rfl⟩
abbrev main_v97 : Ref sig .tc := ⟨.hbm, 142, rfl⟩
abbrev main_v98 : Ref sig .tc := ⟨.hbm, 143, rfl⟩
abbrev main_v99 : Ref sig .tc := ⟨.hbm, 144, rfl⟩
abbrev main_v100 : Ref sig .tc := ⟨.hbm, 145, rfl⟩
abbrev main_v101 : Ref sig .tc := ⟨.hbm, 146, rfl⟩
abbrev main_v102 : Ref sig .tc := ⟨.hbm, 147, rfl⟩

abbrev nD : Nat := 1
abbrev τ : Topo := Topo.v7x

variable {F : FTy → Type} [FloatOps F]

class Facts₀ : Prop where
  bcast_S65536_S65536x1_0 : S65536.BroadcastsInDim S65536x1 (![0] : Fin 1 → Fin S65536x1.rank)
  bcast_S101_S1x101_1 : S101.BroadcastsInDim S1x101 (![1] : Fin 1 → Fin S1x101.rank)
  bcast_S65536x1_S65536x101_0_1 : S65536x1.BroadcastsInDim S65536x101 (![0, 1] : Fin 2 → Fin S65536x101.rank)
  bcast_S1x101_S65536x101_0_1 : S1x101.BroadcastsInDim S65536x101 (![0, 1] : Fin 2 → Fin S65536x101.rank)
  bcast_S_S65536x101 : S_.BroadcastsInDim S65536x101 (![] : Fin 0 → Fin S65536x101.rank)
  concatenates_S65536x48_S65536x12_S65536x60_d1 : Shape.Concatenates [S65536x48, S65536x12] S65536x60 1
  bcast_S1024_S1x1024_1 : S1024.BroadcastsInDim S1x1024 (![1] : Fin 1 → Fin S1x1024.rank)
  bcast_S1x1024_S65536x1024_0_1 : S1x1024.BroadcastsInDim S65536x1024 (![0, 1] : Fin 2 → Fin S65536x1024.rank)
  bcast_S_S65536x1024 : S_.BroadcastsInDim S65536x1024 (![] : Fin 0 → Fin S65536x1024.rank)
  bcast_S512_S1x512_1 : S512.BroadcastsInDim S1x512 (![1] : Fin 1 → Fin S1x512.rank)
  bcast_S1x512_S65536x512_0_1 : S1x512.BroadcastsInDim S65536x512 (![0, 1] : Fin 2 → Fin S65536x512.rank)
  bcast_S_S65536x512 : S_.BroadcastsInDim S65536x512 (![] : Fin 0 → Fin S65536x512.rank)
  bcast_S256_S1x256_1 : S256.BroadcastsInDim S1x256 (![1] : Fin 1 → Fin S1x256.rank)
  bcast_S1x256_S65536x256_0_1 : S1x256.BroadcastsInDim S65536x256 (![0, 1] : Fin 2 → Fin S65536x256.rank)
  bcast_S_S65536x256 : S_.BroadcastsInDim S65536x256 (![] : Fin 0 → Fin S65536x256.rank)
  reducesTo_S65536x101_S65536_d1 : S65536x101.ReducesTo [1] S65536
  h_S_ : 0 < S_.numel
  bcast_S_S65536 : S_.BroadcastsInDim S65536 (![] : Fin 0 → Fin S65536.rank)
  bcast_S_S65536x1 : S_.BroadcastsInDim S65536x1 (![] : Fin 0 → Fin S65536x1.rank)
  bcast_S65536x101_S65536x101x1_0_1 : S65536x101.BroadcastsInDim S65536x101x1 (![0, 1] : Fin 2 → Fin S65536x101x1.rank)
  concatenates_S65536x101x1_S65536x101x1_S65536x101x2_d2 : Shape.Concatenates [S65536x101x1, S65536x101x1] S65536x101x2 2
  dot_S65536x60_S60x1024_S65536x1024_1_0_0_1_n_n_wf : DotDims.WF S65536x60 S60x1024 S65536x1024 [1] [0] [0] [1] [] []
  dot_S65536x1024_S1024x512_S65536x512_1_0_0_1_n_n_wf : DotDims.WF S65536x1024 S1024x512 S65536x512 [1] [0] [0] [1] [] []
  dot_S65536x512_S512x256_S65536x256_1_0_0_1_n_n_wf : DotDims.WF S65536x512 S512x256 S65536x256 [1] [0] [0] [1] [] []
  dot_S65536x256_S256x101_S65536x101_1_0_0_1_n_n_wf : DotDims.WF S65536x256 S256x101 S65536x101 [1] [0] [0] [1] [] []
  scatter_S65536x101_S65536x101x2_S65536x101_n_01_01_2_wf : ScatterDims.WF S65536x101 S65536x101x2 S65536x101 [] [0, 1] [0, 1] 2

variable [Facts₀]

def dot_S65536x60_S60x1024_S65536x1024_1_0_0_1_n_n : DotDims S65536x60 S60x1024 S65536x1024 where
  lhsContracting := [1]
  rhsContracting := [0]
  lhsNonContracting := [0]
  rhsNonContracting := [1]
  lhsBatch := []
  rhsBatch := []
  wf := dot_S65536x60_S60x1024_S65536x1024_1_0_0_1_n_n_wf
def dot_S65536x1024_S1024x512_S65536x512_1_0_0_1_n_n : DotDims S65536x1024 S1024x512 S65536x512 where
  lhsContracting := [1]
  rhsContracting := [0]
  lhsNonContracting := [0]
  rhsNonContracting := [1]
  lhsBatch := []
  rhsBatch := []
  wf := dot_S65536x1024_S1024x512_S65536x512_1_0_0_1_n_n_wf
def dot_S65536x512_S512x256_S65536x256_1_0_0_1_n_n : DotDims S65536x512 S512x256 S65536x256 where
  lhsContracting := [1]
  rhsContracting := [0]
  lhsNonContracting := [0]
  rhsNonContracting := [1]
  lhsBatch := []
  rhsBatch := []
  wf := dot_S65536x512_S512x256_S65536x256_1_0_0_1_n_n_wf
def dot_S65536x256_S256x101_S65536x101_1_0_0_1_n_n : DotDims S65536x256 S256x101 S65536x101 where
  lhsContracting := [1]
  rhsContracting := [0]
  lhsNonContracting := [0]
  rhsNonContracting := [1]
  lhsBatch := []
  rhsBatch := []
  wf := dot_S65536x256_S256x101_S65536x101_1_0_0_1_n_n_wf
def scatter_S65536x101_S65536x101x2_S65536x101_n_01_01_2 : ScatterDims S65536x101 S65536x101x2 S65536x101 where
  updateWindowDims := []
  insertedWindowDims := [0, 1]
  scatterDimsToOperandDims := [0, 1]
  indexVectorDim := 2
  wf := scatter_S65536x101_S65536x101x2_S65536x101_n_01_01_2_wf

class Facts : Prop extends Facts₀ where

variable [Facts]
-- ==== Proof.Projection.lean ====
/-
  The categorical projection of a distributional value network, one batch row at a time, on the extended reals.

  A row's input is 48 observation entries and 12 action entries. Three dense layers with a rectifier
  (widths 1024, 512, 256) and a fourth dense layer give 101 logits; their softmax is the row's next-state
  distribution `p`. The row's reward `r`, bootstrap flag `g` and discount `d` move the support point `q j` to
  `r + g·d·q j`, clipped to [-10, 10]; its position on the grid of 101 atoms is `b j = (clip − (−10)) / δ` with `δ` the
  float nearest 0.2. The mass `p j` is split between the neighbouring atoms `⌊b j⌋` and `⌈b j⌉` (moved one apart when
  they coincide strictly inside the grid) in proportion to the distances, and the row's result at atom `a` is the
  total mass that lands on `a`.

  Everything is stated with literal index types, over the float words as both programs spell them; nothing here
  evaluates a word.
-/
import Idealize.ShloMosaic.PureOps.Ideal
import Idealize.ShloMosaic.PureOps.Ideal.Laws
import Idealize.ShloMosaic.Lib.ValueIdx

noncomputable section

namespace Cert.C51

open Idealize.ShloMosaic Idealize.ShloMosaic.ValueIdx

/-- The float words of the computation: 0, −∞, −10, 10 and the float nearest 0.2. -/
abbrev w0 : EReal := Ideal.ofBits .f32 0x00000000#32
abbrev wNInf : EReal := Ideal.ofBits .f32 0xFF800000#32
abbrev wLo : EReal := Ideal.ofBits .f32 0xC1200000#32
abbrev wHi : EReal := Ideal.ofBits .f32 0x41200000#32
abbrev wDz : EReal := Ideal.ofBits .f32 0x3E4CCCCD#32

/-- One output of a dense layer: `Σ_k x k · W k j + b j`. -/
def affine {K N : ℕ} (x : Fin K → EReal) (W : Fin K → Fin N → EReal) (b : Fin N → EReal) (j : Fin N) : EReal :=
  (∑ k : Fin K, x k * W k j) + b j

/-- The rectifier `max z 0`. -/
def relu (z : EReal) : EReal := max z w0

/-- The joined input row: the 48 observation entries, then the 12 action entries. -/
def joined (o : Fin 48 → EReal) (ac : Fin 12 → EReal) (k : Fin 60) : EReal :=
  if h : k.val < 48 then o ⟨k.val, h⟩ else ac ⟨k.val - 48, by omega⟩

/-- The 101 logits of a row. -/
def logits (o : Fin 48 → EReal) (ac : Fin 12 → EReal)
    (W0 : Fin 60 → Fin 1024 → EReal) (b0 : Fin 1024 → EReal) (W1 : Fin 1024 → Fin 512 → EReal) (b1 : Fin 512 → EReal)
    (W2 : Fin 512 → Fin 256 → EReal) (b2 : Fin 256 → EReal) (W3 : Fin 256 → Fin 101 → EReal) (b3 : Fin 101 → EReal) :
    Fin 101 → EReal :=
  affine (fun k2 => relu (affine (fun k1 => relu (affine (fun k0 => relu (affine (joined o ac) W0 b0 k0)) W1 b1 k1)) W2 b2 k2)) W3 b3

/-- The greatest logit of a row, folded from −∞. -/
def rowMax (z : Fin 101 → EReal) : EReal := (Finset.univ : Finset (Fin 101)).fold max wNInf z

/-- `exp (z j − max z)`. -/
def shifted (z : Fin 101 → EReal) (j : Fin 101) : EReal := Ideal.exp (z j - rowMax z)

/-- The softmax of a row of logits. -/
def dist (z : Fin 101 → EReal) (j : Fin 101) : EReal := Ideal.div (shifted z j) (∑ k : Fin 101, shifted z k)

/-- The position of the moved and clipped support point on the grid of atoms. -/
def bcoef (r g d q : EReal) : EReal := Ideal.div (min wHi (max wLo (r + g * d * q)) - wLo) wDz

/-- Floor and ceiling of a grid position, as 32-bit integers. -/
def lo0 (b : EReal) : BitVec 32 := Ideal.fptosi 32 (Ideal.liftRound Int.floor b)
def hi0 (b : EReal) : BitVec 32 := Ideal.fptosi 32 (Ideal.liftRound Int.ceil b)

/-- The lower atom: the floor, moved down by one when floor and ceiling coincide above atom 0. -/
def loIdx (b : EReal) : BitVec 32 :=
  Scalar.select (IntOp.andi (IntOp.cmpi .sgt (hi0 b) 0#32) (IntOp.cmpi .eq (lo0 b) (hi0 b))) (IntOp.subi (lo0 b) 1#32) (lo0 b)

/-- The upper atom: the ceiling, moved up by one when floor and ceiling coincide below atom 100. -/
def hiIdx (b : EReal) : BitVec 32 :=
  Scalar.select (IntOp.andi (IntOp.cmpi .slt (lo0 b) 100#32) (IntOp.cmpi .eq (lo0 b) (hi0 b))) (IntOp.addi (hi0 b) 1#32) (hi0 b)

/-- The mass sent to the lower atom, `p · (upper − b)`, and to the upper atom, `p · (b − lower)`. -/
def loW (p b : EReal) : EReal := p * ((((hiIdx b).toInt : ℝ) : EReal) - b)
def hiW (p b : EReal) : EReal := p * (b - (((loIdx b).toInt : ℝ) : EReal))

/-- `v` if the atom index `i` is `a`, else the zero word. -/
def hit (i a : BitVec 32) (v : EReal) : EReal := Scalar.select (IntOp.cmpi .eq i a) v w0

/-- An index below zero counted from the end of the 101 atoms (and any other index kept): how an array index is
    normalised before it is used. On an index in [0, 100] it does nothing. -/
def wrap101 (i : BitVec 32) : BitVec 32 := Scalar.select (IntOp.cmpi .slt i 0#32) (IntOp.addi i 101#32) i

/-- The mass landing on atom `a`, from lower-atom indices `L`, upper-atom indices `U` and the masses sent to each. -/
def landed (L U : Fin 101 → BitVec 32) (TL TH : Fin 101 → EReal) (a : Fin 101) : EReal :=
  ∑ j : Fin 101, (hit (L j) (BitVec.ofNat 32 a.val) (TL j) + hit (U j) (BitVec.ofNat 32 a.val) (TH j))

/-- A row's projected distribution at atom `a`. -/
def rowG (o : Fin 48 → EReal) (ac : Fin 12 → EReal) (r g d : EReal) (q : Fin 101 → EReal)
    (W0 : Fin 60 → Fin 1024 → EReal) (b0 : Fin 1024 → EReal) (W1 : Fin 1024 → Fin 512 → EReal) (b1 : Fin 512 → EReal)
    (W2 : Fin 512 → Fin 256 → EReal) (b2 : Fin 256 → EReal) (W3 : Fin 256 → Fin 101 → EReal) (b3 : Fin 101 → EReal)
    (a : Fin 101) : EReal :=
  landed (fun j => loIdx (bcoef r g d (q j))) (fun j => hiIdx (bcoef r g d (q j)))
    (fun j => loW (dist (logits o ac W0 b0 W1 b1 W2 b2 W3 b3) j) (bcoef r g d (q j)))
    (fun j => hiW (dist (logits o ac W0 b0 W1 b1 W2 b2 W3 b3) j) (bcoef r g d (q j))) a

/-- The whole result array as one function of the fourteen argument arrays. -/
def G (obs : (⟨2, ![65536, 48]⟩ : Shape).Idx → EReal) (act : (⟨2, ![65536, 12]⟩ : Shape).Idx → EReal)
    (rew boot disc : (⟨1, ![65536]⟩ : Shape).Idx → EReal) (q : (⟨1, ![101]⟩ : Shape).Idx → EReal)
    (W0 : (⟨2, ![60, 1024]⟩ : Shape).Idx → EReal) (b0 : (⟨1, ![1024]⟩ : Shape).Idx → EReal)
    (W1 : (⟨2, ![1024, 512]⟩ : Shape).Idx → EReal) (b1 : (⟨1, ![512]⟩ : Shape).Idx → EReal)
    (W2 : (⟨2, ![512, 256]⟩ : Shape).Idx → EReal) (b2 : (⟨1, ![256]⟩ : Shape).Idx → EReal)
    (W3 : (⟨2, ![256, 101]⟩ : Shape).Idx → EReal) (b3 : (⟨1, ![101]⟩ : Shape).Idx → EReal) :
    (⟨2, ![65536, 101]⟩ : Shape).Idx → EReal :=
  fun i => rowG (fun k => obs (ix2 (i 0) k)) (fun k => act (ix2 (i 0) k)) (rew (ix1 (i 0))) (boot (ix1 (i 0))) (disc (ix1 (i 0)))
    (fun j => q (ix1 j)) (fun k j => W0 (ix2 k j)) (fun j => b0 (ix1 j)) (fun k j => W1 (ix2 k j)) (fun j => b1 (ix1 j))
    (fun k j => W2 (ix2 k j)) (fun j => b2 (ix1 j)) (fun k j => W3 (ix2 k j)) (fun j => b3 (ix1 j)) (i 1)

/-- The specification at row `r` and atom `a`: the row's projection of the row's slices of the arrays. -/
theorem G_apply (obs : (⟨2, ![65536, 48]⟩ : Shape).Idx → EReal) (act : (⟨2, ![65536, 12]⟩ : Shape).Idx → EReal)
    (rew boot disc : (⟨1, ![65536]⟩ : Shape).Idx → EReal) (q : (⟨1, ![101]⟩ : Shape).Idx → EReal)
    (W0 : (⟨2, ![60, 1024]⟩ : Shape).Idx → EReal) (b0 : (⟨1, ![1024]⟩ : Shape).Idx → EReal)
    (W1 : (⟨2, ![1024, 512]⟩ : Shape).Idx → EReal) (b1 : (⟨1, ![512]⟩ : Shape).Idx → EReal)
    (W2 : (⟨2, ![512, 256]⟩ : Shape).Idx → EReal) (b2 : (⟨1, ![256]⟩ : Shape).Idx → EReal)
    (W3 : (⟨2, ![256, 101]⟩ : Shape).Idx → EReal) (b3 : (⟨1, ![101]⟩ : Shape).Idx → EReal) (r : Fin 65536) (a : Fin 101) :
    G obs act rew boot disc q W0 b0 W1 b1 W2 b2 W3 b3 (ix2 r a)
      = rowG (fun k => obs (ix2 r k)) (fun k => act (ix2 r k)) (rew (ix1 r)) (boot (ix1 r)) (disc (ix1 r))
          (fun j => q (ix1 j)) (fun k j => W0 (ix2 k j)) (fun j => b0 (ix1 j)) (fun k j => W1 (ix2 k j)) (fun j => b1 (ix1 j))
          (fun k j => W2 (ix2 k j)) (fun j => b2 (ix1 j)) (fun k j => W3 (ix2 k j)) (fun j => b3 (ix1 j)) a := rfl

end Cert.C51

end
-- ==== Proof.KernelArray.lean ====
/-
  The idealized kernel's result array as one function of its argument arrays.

  The grid has 256 points; point `t` handles rows 256·t … 256·t + 255. The five row-wise arguments (observations,
  actions, rewards, bootstrap flags, discounts) and the result are cut into blocks of 256 rows, block `t` at point
  `t`; the support and the four layers' weights and biases are whole at every point. The weights reach the kernel
  through a change of float format (the identity on extended reals) and the biases through a cast [n] → [1, n].
  So what point `t` writes back is block `t` of the row-by-row specification `C51.G`, and the 256 blocks tile the
  result array.
-/
import proofs.«141976_j712964571807_2_alg».proof.Proof.Gen.KernelIdeal.Value
import proofs.«141976_j712964571807_2_alg».proof.Proof.Projection
import Idealize.ShloMosaic.Lib.ValueIdx
import Idealize.ShloMosaic.Lib.ValueLayout
import Idealize.ShloMosaic.Lib.Pipeline.Value
import Idealize.ShloMosaic.Lib.StableHlo.Run

noncomputable section

namespace Cert.KernelIdeal.ArrayValue

open Cert.KernelIdeal Cert.KernelIdeal.Gen Idealize.ShloMosaic Idealize.ShloMosaic.TcCoe Idealize.SL.Sem
open Idealize.ShloMosaic.ValueIdx
open Idealize.ShloMosaic.Pipeline (Dat)

variable (m : (ℓ : Loc nD τ sig) → Buf (Elt Ideal) ℓ) (ρ : Dev nD → PrngReg)

theorem lt_N (t : Fin cfg0.N) : t.val < 256 := t.isLt.trans_eq (show cfg0.N = 256 from N_0)

/-- Row `p` of block `t` is row `256·t + p` of the array. -/
def row (t : Fin cfg0.N) (p : Fin 256) : Fin 65536 := ⟨256 * t.val + p.val, by have := lt_N t; omega⟩

/-- The block index of every window at every point, decided over the 256 points: the row-wise windows and the
    result move with the point, the others stay at block 0. -/
theorem idx_facts : ∀ t : Fin cfg0.N,
    win0_0.index t (0 : Fin 2) = t.val ∧ win0_0.index t (1 : Fin 2) = 0
    ∧ win0_1.index t (0 : Fin 2) = t.val ∧ win0_1.index t (1 : Fin 2) = 0
    ∧ win0_2.index t (0 : Fin 1) = t.val ∧ win0_3.index t (0 : Fin 1) = t.val ∧ win0_4.index t (0 : Fin 1) = t.val
    ∧ win0_5.index t (0 : Fin 1) = 0
    ∧ win0_6.index t (0 : Fin 2) = 0 ∧ win0_6.index t (1 : Fin 2) = 0
    ∧ win0_7.index t (0 : Fin 2) = 0 ∧ win0_7.index t (1 : Fin 2) = 0
    ∧ win0_8.index t (0 : Fin 2) = 0 ∧ win0_8.index t (1 : Fin 2) = 0
    ∧ win0_9.index t (0 : Fin 2) = 0 ∧ win0_9.index t (1 : Fin 2) = 0
    ∧ win0_10.index t (0 : Fin 2) = 0 ∧ win0_10.index t (1 : Fin 2) = 0
    ∧ win0_11.index t (0 : Fin 2) = 0 ∧ win0_11.index t (1 : Fin 2) = 0
    ∧ win0_12.index t (0 : Fin 2) = 0 ∧ win0_12.index t (1 : Fin 2) = 0
    ∧ win0_13.index t (0 : Fin 2) = 0 ∧ win0_13.index t (1 : Fin 2) = 0
    ∧ win0_14.index t (0 : Fin 2) = t.val ∧ win0_14.index t (1 : Fin 2) = 0 :=
  (by decide +kernel : ∀ t : Fin grid0.N, _)

/-- Block `t` of the observations: rows 256·t … 256·t + 255. -/
theorem blk0 (c : Dev nD) (t : Fin cfg0.N) (p : Fin 256) (k : Fin 48) :
    (iblk m c 0 t : Vec Ideal S256x48 .f32) (ix2 p k)
      = (m ((c : Thread nD τ).loc main_arg0) : S65536x48.Idx → EReal) (ix2 (row t p) k) := by
  have h0 := (idx_facts t).1
  have h1 := (idx_facts t).2.1
  unfold iblk
  rw [View.read_apply]
  show V m c main_arg0 _ = _
  rw [V_main_arg0]
  congr 1
  funext a
  apply Fin.ext
  match a with
  | ⟨0, _⟩ => show win0_0.index t (0 : Fin 2) * 256 + 1 * p.val = 256 * t.val + p.val; rw [h0]; omega
  | ⟨1, _⟩ => show win0_0.index t (1 : Fin 2) * 48 + 1 * k.val = k.val; rw [h1]; omega

/-- Block `t` of the actions. -/
theorem blk1 (c : Dev nD) (t : Fin cfg0.N) (p : Fin 256) (k : Fin 12) :
    (iblk m c 1 t : Vec Ideal S256x12 .f32) (ix2 p k)
      = (m ((c : Thread nD τ).loc main_arg1) : S65536x12.Idx → EReal) (ix2 (row t p) k) := by
  have h0 := (idx_facts t).2.2.1
  have h1 := (idx_facts t).2.2.2.1
  unfold iblk
  rw [View.read_apply]
  show V m c main_arg1 _ = _
  rw [V_main_arg1]
  congr 1
  funext a
  apply Fin.ext
  match a with
  | ⟨0, _⟩ => show win0_1.index t (0 : Fin 2) * 256 + 1 * p.val = 256 * t.val + p.val; rw [h0]; omega
  | ⟨1, _⟩ => show win0_1.index t (1 : Fin 2) * 12 + 1 * k.val = k.val; rw [h1]; omega

/-- Block `t` of the rewards. -/
theorem blk2 (c : Dev nD) (t : Fin cfg0.N) (p : Fin 256) :
    (iblk m c 2 t : Vec Ideal S256 .f32) (ix1 p)
      = (m ((c : Thread nD τ).loc main_arg2) : S65536.Idx → EReal) (ix1 (row t p)) := by
  have h0 := (idx_facts t).2.2.2.2.1
  unfold iblk
  rw [View.read_apply]
  show V m c main_arg2 _ = _
  rw [V_main_arg2]
  congr 1
  funext a
  apply Fin.ext
  match a with
  | ⟨0, _⟩ => show win0_2.index t (0 : Fin 1) * 256 + 1 * p.val = 256 * t.val + p.val; rw [h0]; omega

/-- Block `t` of the bootstrap flags. -/
theorem blk3 (c : Dev nD) (t : Fin cfg0.N) (p : Fin 256) :
    (iblk m c 3 t : Vec Ideal S256 .f32) (ix1 p)
      = (m ((c : Thread nD τ).loc main_arg3) : S65536.Idx → EReal) (ix1 (row t p)) := by
  have h0 := (idx_facts t).2.2.2.2.2.1
  unfold iblk
  rw [View.read_apply]
  show V m c main_arg3 _ = _
  rw [V_main_arg3]
  congr 1
  funext a
  apply Fin.ext
  match a with
  | ⟨0, _⟩ => show win0_3.index t (0 : Fin 1) * 256 + 1 * p.val = 256 * t.val + p.val; rw [h0]; omega

/-- Block `t` of the discounts. -/
theorem blk4 (c : Dev nD) (t : Fin cfg0.N) (p : Fin 256) :
    (iblk m c 4 t : Vec Ideal S256 .f32) (ix1 p)
      = (m ((c : Thread nD τ).loc main_arg4) : S65536.Idx → EReal) (ix1 (row t p)) := by
  have h0 := (idx_facts t).2.2.2.2.2.2.1
  unfold iblk
  rw [View.read_apply]
  show V m c main_arg4 _ = _
  rw [V_main_arg4]
  congr 1
  funext a
  apply Fin.ext
  match a with
  | ⟨0, _⟩ => show win0_4.index t (0 : Fin 1) * 256 + 1 * p.val = 256 * t.val + p.val; rw [h0]; omega

/-- The support, whole at every point. -/
theorem blk5 (c : Dev nD) (t : Fin cfg0.N) (j : Fin 101) :
    (iblk m c 5 t : Vec Ideal S101 .f32) (ix1 j)
      = (m ((c : Thread nD τ).loc main_arg5) : S101.Idx → EReal) (ix1 j) := by
  have h0 := (idx_facts t).2.2.2.2.2.2.2.1
  unfold iblk
  rw [View.read_apply]
  show V m c main_arg5 _ = _
  rw [V_main_arg5]
  congr 1
  funext a
  apply Fin.ext
  match a with
  | ⟨0, _⟩ => show win0_5.index t (0 : Fin 1) * 101 + 1 * j.val = j.val; rw [h0]; omega

/-! The weights reach the region through a change of float format, the identity on extended reals; the biases
    through a cast [n] → [1, n]. -/

/-- The first layer's weights as the region finds them. -/
theorem V_w0 (c : Dev nD) : (V m c main_v0 : S60x1024.Idx → EReal)
    = (m ((c : Thread nD τ).loc main_arg6) : S60x1024.Idx → EReal) := by
  dsimp only [Gen.V, hostOps0]
  after_results
  rfl

/-- The second layer's weights as the region finds them. -/
theorem V_w1 (c : Dev nD) : (V m c main_v1 : S1024x512.Idx → EReal)
    = (m ((c : Thread nD τ).loc main_arg8) : S1024x512.Idx → EReal) := by
  dsimp only [Gen.V, hostOps0]
  after_results
  rfl

/-- The third layer's weights as the region finds them. -/
theorem V_w2 (c : Dev nD) : (V m c main_v2 : S512x256.Idx → EReal)
    = (m ((c : Thread nD τ).loc main_arg10) : S512x256.Idx → EReal) := by
  dsimp only [Gen.V, hostOps0]
  after_results
  rfl

/-- The fourth layer's weights as the region finds them. -/
theorem V_w3 (c : Dev nD) : (V m c main_v3 : S256x101.Idx → EReal)
    = (m ((c : Thread nD τ).loc main_arg12) : S256x101.Idx → EReal) := by
  dsimp only [Gen.V, hostOps0]
  after_results
  rfl

/-- The first layer's bias as the region finds it. -/
theorem V_b0 (c : Dev nD) : (V m c main_v4 : S1x1024.Idx → EReal)
    = shapeCast S1x1024 (m ((c : Thread nD τ).loc main_arg7) : S1024.Idx → EReal) shapeCasts_S1024_S1x1024 := by
  dsimp only [Gen.V, hostOps0]
  after_results
  rfl

/-- The second layer's bias as the region finds it. -/
theorem V_b1 (c : Dev nD) : (V m c main_v5 : S1x512.Idx → EReal)
    = shapeCast S1x512 (m ((c : Thread nD τ).loc main_arg9) : S512.Idx → EReal) shapeCasts_S512_S1x512 := by
  dsimp only [Gen.V, hostOps0]
  after_results
  rfl

/-- The third layer's bias as the region finds it. -/
theorem V_b2 (c : Dev nD) : (V m c main_v6 : S1x256.Idx → EReal)
    = shapeCast S1x256 (m ((c : Thread nD τ).loc main_arg11) : S256.Idx → EReal) shapeCasts_S256_S1x256 := by
  dsimp only [Gen.V, hostOps0]
  after_results
  rfl

/-- The fourth layer's bias as the region finds it. -/
theorem V_b3 (c : Dev nD) : (V m c main_v7 : S1x101.Idx → EReal)
    = shapeCast S1x101 (m ((c : Thread nD τ).loc main_arg13) : S101.Idx → EReal) shapeCasts_S101_S1x101 := by
  dsimp only [Gen.V, hostOps0]
  after_results
  rfl

/-- The first layer's weights, whole at every point. -/
theorem blk6 (c : Dev nD) (t : Fin cfg0.N) (k : Fin 60) (n : Fin 1024) :
    (iblk m c 6 t : Vec Ideal S60x1024 .bf16) (ix2 k n)
      = (m ((c : Thread nD τ).loc main_arg6) : S60x1024.Idx → EReal) (ix2 k n) := by
  have h0 := (idx_facts t).2.2.2.2.2.2.2.2.1
  have h1 := (idx_facts t).2.2.2.2.2.2.2.2.2.1
  unfold iblk
  rw [View.read_apply]
  show V m c main_v0 _ = _
  rw [V_w0]
  congr 1
  funext a
  apply Fin.ext
  match a with
  | ⟨0, _⟩ => show win0_6.index t (0 : Fin 2) * 60 + 1 * k.val = k.val; rw [h0]; omega
  | ⟨1, _⟩ => show win0_6.index t (1 : Fin 2) * 1024 + 1 * n.val = n.val; rw [h1]; omega

/-- The first layer's bias, whole at every point. -/
theorem blk7 (c : Dev nD) (t : Fin cfg0.N) (n : Fin 1024) :
    (iblk m c 7 t : Vec Ideal S1x1024 .f32) (ix2 (0 : Fin 1) n)
      = (m ((c : Thread nD τ).loc main_arg7) : S1024.Idx → EReal) (ix1 n) := by
  have h0 := (idx_facts t).2.2.2.2.2.2.2.2.2.2.1
  have h1 := (idx_facts t).2.2.2.2.2.2.2.2.2.2.2.1
  have he : ((cfg0.win 7).blk t).view.emb (ix2 (0 : Fin 1) n) = ix2 (0 : Fin 1) n := by
    funext a
    apply Fin.ext
    match a with
    | ⟨0, _⟩ => show win0_7.index t (0 : Fin 2) * 1 + 1 * 0 = 0; rw [h0]
    | ⟨1, _⟩ => show win0_7.index t (1 : Fin 2) * 1024 + 1 * n.val = n.val; rw [h1]; omega
  unfold iblk
  rw [View.read_apply, he]
  show V m c main_v4 _ = _
  rw [V_b0]
  exact shapeCast_a_1a_apply _ _ (0 : Fin 1) n

/-- The second layer's weights, whole at every point. -/
theorem blk8 (c : Dev nD) (t : Fin cfg0.N) (k : Fin 1024) (n : Fin 512) :
    (iblk m c 8 t : Vec Ideal S1024x512 .bf16) (ix2 k n)
      = (m ((c : Thread nD τ).loc main_arg8) : S1024x512.Idx → EReal) (ix2 k n) := by
  have h0 := (idx_facts t).2.2.2.2.2.2.2.2.2.2.2.2.1
  have h1 := (idx_facts t).2.2.2.2.2.2.2.2.2.2.2.2.2.1
  unfold iblk
  rw [View.read_apply]
  show V m c main_v1 _ = _
  rw [V_w1]
  congr 1
  funext a
  apply Fin.ext
  match a with
  | ⟨0, _⟩ => show win0_8.index t (0 : Fin 2) * 1024 + 1 * k.val = k.val; rw [h0]; omega
  | ⟨1, _⟩ => show win0_8.index t (1 : Fin 2) * 512 + 1 * n.val = n.val; rw [h1]; omega

/-- The second layer's bias, whole at every point. -/
theorem blk9 (c : Dev nD) (t : Fin cfg0.N) (n : Fin 512) :
    (iblk m c 9 t : Vec Ideal S1x512 .f32) (ix2 (0 : Fin 1) n)
      = (m ((c : Thread nD τ).loc main_arg9) : S512.Idx → EReal) (ix1 n) := by
  have h0 := (idx_facts t).2.2.2.2.2.2.2.2.2.2.2.2.2.2.1
  have h1 := (idx_facts t).2.2.2.2.2.2.2.2.2.2.2.2.2.2.2.1
  have he : ((cfg0.win 9).blk t).view.emb (ix2 (0 : Fin 1) n) = ix2 (0 : Fin 1) n := by
    funext a
    apply Fin.ext
    match a with
    | ⟨0, _⟩ => show win0_9.index t (0 : Fin 2) * 1 + 1 * 0 = 0; rw [h0]
    | ⟨1, _⟩ => show win0_9.index t (1 : Fin 2) * 512 + 1 * n.val = n.val; rw [h1]; omega
  unfold iblk
  rw [View.read_apply, he]
  show V m c main_v5 _ = _
  rw [V_b1]
  exact shapeCast_a_1a_apply _ _ (0 : Fin 1) n

/-- The third layer's weights, whole at every point. -/
theorem blk10 (c : Dev nD) (t : Fin cfg0.N) (k : Fin 512) (n : Fin 256) :
    (iblk m c 10 t : Vec Ideal S512x256 .bf16) (ix2 k n)
      = (m ((c : Thread nD τ).loc main_arg10) : S512x256.Idx → EReal) (ix2 k n) := by
  have h0 := (idx_facts t).2.2.2.2.2.2.2.2.2.2.2.2.2.2.2.2.1
  have h1 := (idx_facts t).2.2.2.2.2.2.2.2.2.2.2.2.2.2.2.2.2.1
  unfold iblk
  rw [View.read_apply]
  show V m c main_v2 _ = _
  rw [V_w2]
  congr 1
  funext a
  apply Fin.ext
  match a with
  | ⟨0, _⟩ => show win0_10.index t (0 : Fin 2) * 512 + 1 * k.val = k.val; rw [h0]; omega
  | ⟨1, _⟩ => show win0_10.index t (1 : Fin 2) * 256 + 1 * n.val = n.val; rw [h1]; omega

/-- The third layer's bias, whole at every point. -/
theorem blk11 (c : Dev nD) (t : Fin cfg0.N) (n : Fin 256) :
    (iblk m c 11 t : Vec Ideal S1x256 .f32) (ix2 (0 : Fin 1) n)
      = (m ((c : Thread nD τ).loc main_arg11) : S256.Idx → EReal) (ix1 n) := by
  have h0 := (idx_facts t).2.2.2.2.2.2.2.2.2.2.2.2.2.2.2.2.2.2.1
  have h1 := (idx_facts t).2.2.2.2.2.2.2.2.2.2.2.2.2.2.2.2.2.2.2.1
  have he : ((cfg0.win 11).blk t).view.emb (ix2 (0 : Fin 1) n) = ix2 (0 : Fin 1) n := by
    funext a
    apply Fin.ext
    match a with
    | ⟨0, _⟩ => show win0_11.index t (0 : Fin 2) * 1 + 1 * 0 = 0; rw [h0]
    | ⟨1, _⟩ => show win0_11.index t (1 : Fin 2) * 256 + 1 * n.val = n.val; rw [h1]; omega
  unfold iblk
  rw [View.read_apply, he]
  show V m c main_v6 _ = _
  rw [V_b2]
  exact shapeCast_a_1a_apply _ _ (0 : Fin 1) n

/-- The fourth layer's weights, whole at every point. -/
theorem blk12 (c : Dev nD) (t : Fin cfg0.N) (k : Fin 256) (n : Fin 101) :
    (iblk m c 12 t : Vec Ideal S256x101 .bf16) (ix2 k n)
      = (m ((c : Thread nD τ).loc main_arg12) : S256x101.Idx → EReal) (ix2 k n) := by
  have h0 := (idx_facts t).2.2.2.2.2.2.2.2.2.2.2.2.2.2.2.2.2.2.2.2.1
  have h1 := (idx_facts t).2.2.2.2.2.2.2.2.2.2.2.2.2.2.2.2.2.2.2.2.2.1
  unfold iblk
  rw [View.read_apply]
  show V m c main_v3 _ = _
  rw [V_w3]
  congr 1
  funext a
  apply Fin.ext
  match a with
  | ⟨0, _⟩ => show win0_12.index t (0 : Fin 2) * 256 + 1 * k.val = k.val; rw [h0]; omega
  | ⟨1, _⟩ => show win0_12.index t (1 : Fin 2) * 101 + 1 * n.val = n.val; rw [h1]; omega

/-- The fourth layer's bias, whole at every point. -/
theorem blk13 (c : Dev nD) (t : Fin cfg0.N) (n : Fin 101) :
    (iblk m c 13 t : Vec Ideal S1x101 .f32) (ix2 (0 : Fin 1) n)
      = (m ((c : Thread nD τ).loc main_arg13) : S101.Idx → EReal) (ix1 n) := by
  have h0 := (idx_facts t).2.2.2.2.2.2.2.2.2.2.2.2.2.2.2.2.2.2.2.2.2.2.1
  have h1 := (idx_facts t).2.2.2.2.2.2.2.2.2.2.2.2.2.2.2.2.2.2.2.2.2.2.2.1
  have he : ((cfg0.win 13).blk t).view.emb (ix2 (0 : Fin 1) n) = ix2 (0 : Fin 1) n := by
    funext a
    apply Fin.ext
    match a with
    | ⟨0, _⟩ => show win0_13.index t (0 : Fin 2) * 1 + 1 * 0 = 0; rw [h0]
    | ⟨1, _⟩ => show win0_13.index t (1 : Fin 2) * 101 + 1 * n.val = n.val; rw [h1]; omega
  unfold iblk
  rw [View.read_apply, he]
  show V m c main_v7 _ = _
  rw [V_b3]
  exact shapeCast_a_1a_apply _ _ (0 : Fin 1) n

end Cert.KernelIdeal.ArrayValue

end
-- ==== Proof.KernelRow.lean ====
/-
  The per-row arithmetic of the categorical projection, as the program's body computes it, read at an index.

  The body works on a block of 256 rows at once. Read at row `p` and atom `j`, each of its array-valued steps is the
  row-level function of the specification: the concatenated input is the joined row, a matrix product into the zero
  array followed by the bias row and the rectifier is a dense layer, the two lane reductions kept as columns are the
  row's greatest logit and the row's sum of shifted exponentials, and the quotient is the softmax; the grid position,
  the lower and upper atoms and the two masses sent to them are pointwise.
-/
import proofs.«141976_j712964571807_2_alg».proof.Proof.Gen.KernelIdeal.Skeleton
import proofs.«141976_j712964571807_2_alg».proof.Proof.Projection
import Idealize.ShloMosaic.Lib.ValueIdx
import Idealize.ShloMosaic.Lib.ValueLayout
import Idealize.ShloMosaic.Lib.Pipeline.Value
import Idealize.ShloMosaic.PureOps.Ideal.Laws

noncomputable section

namespace Cert.KernelIdeal.RowValue

open Cert.KernelIdeal Cert.KernelIdeal.Gen Idealize.ShloMosaic Idealize.ShloMosaic.ValueIdx

/-! ## Columns kept by a reduction: the two layout steps -/

section Columns

variable {α : Type}

/-- An `[a]` array cast to `[a, 1]` reads, at `(i, u)`, the operand at `i`. -/
private theorem shapeCast_a_a1_apply {a : ℕ} (x : (⟨1, ![a]⟩ : Shape).Idx → α) (h : (⟨1, ![a]⟩ : Shape).ShapeCasts ⟨2, ![a, 1]⟩)
    (i : Fin a) (u : Fin 1) : shapeCast ⟨2, ![a, 1]⟩ x h (ix2 i u) = x (ix1 i) :=
  shapeCast_apply x h _ _ (by
    have hu : u.val = 0 := by omega
    rw [Shape.rowMajor_val_two, Shape.rowMajor_val_one]
    show i.val = i.val * 1 + u.val
    rw [hu, Nat.mul_one, Nat.add_zero])

/-- An `[a, 1]` column broadcast to `[a, b]` reads, at `(p, c)`, the column's entry of row `p`. -/
private theorem broadcastTo_a1_ab_apply {a b : ℕ} (v : (⟨2, ![a, 1]⟩ : Shape).Idx → α) (h : (⟨2, ![a, 1]⟩ : Shape).Broadcasts ⟨2, ![a, b]⟩)
    (p : Fin a) (c : Fin b) : broadcastTo ⟨2, ![a, b]⟩ v h (ix2 p c) = v (ix2 p (0 : Fin 1)) := by
  refine broadcastTo_apply v h (ix2 p c) (ix2 p (0 : Fin 1)) fun ax => ?_
  match ax with
  | ⟨0, _⟩ =>
    show p.val = if a = 1 then 0 else p.val
    split
    · have := p.isLt; omega
    · rfl
  | ⟨1, _⟩ => rfl

end Columns

/-! ## The softmax of a row -/

/-- The index of row `p` with column `k` put back on the reduced axis is `(p, k)`. -/
theorem lift_row (p : Fin 256) (k : Fin 101) :
    (reduces_S256x101_S256).lift (ix1 p) k = ix2 p k := funext fun c => Fin.ext (by
  match c with
  | ⟨0, _⟩ => rfl
  | ⟨1, _⟩ => rfl)

/-- A row's greatest entry, folded from the −∞ word, kept as a column and spread back over the row. -/
def maxCol (Z : FVec Ideal S256x101 .f32) : FVec Ideal S256x101 .f32 :=
  broadcastTo S256x101 (shapeCast S256x1 (multiReduction (F := Ideal) .maximumf [1] S256 Z 0xFF800000#32 reduces_S256x101_S256 (.inl rfl) rfl) shapeCasts_S256_S256x1) broadcasts_S256x1_S256x101

/-- A row's sum, kept as a column and spread back over the row. -/
def sumCol (Z : FVec Ideal S256x101 .f32) : FVec Ideal S256x101 .f32 :=
  broadcastTo S256x101 (shapeCast S256x1 (multiReduction (F := Ideal) .add [1] S256 Z 0x00000000#32 reduces_S256x101_S256 (.inl rfl) rfl) shapeCasts_S256_S256x1) broadcasts_S256x1_S256x101

theorem maxCol_apply (Z : FVec Ideal S256x101 .f32) (p : Fin 256) (j : Fin 101) :
    maxCol Z (ix2 p j) = C51.rowMax (fun k => Z (ix2 p k)) := by
  unfold maxCol
  rw [broadcastTo_a1_ab_apply, shapeCast_a_a1_apply]
  refine (Ideal.multiReduction_maximumf_single (a := (1 : Fin S256x101.rank)) Z 0xFF800000#32 reduces_S256x101_S256 (.inl rfl) rfl (ix1 p)).trans ?_
  unfold C51.rowMax
  have e : (Z ∘ (reduces_S256x101_S256).lift (ix1 p)) = fun k : Fin 101 => Z (ix2 p k) :=
    funext fun k => congrArg Z (lift_row p k)
  rw [e]
  rfl

theorem sumCol_apply (Z : FVec Ideal S256x101 .f32) (p : Fin 256) (j : Fin 101) :
    sumCol Z (ix2 p j) = ∑ k : Fin 101, Z (ix2 p k) := by
  unfold sumCol
  rw [broadcastTo_a1_ab_apply, shapeCast_a_a1_apply]
  refine (Ideal.multiReduction_add_single (a := (1 : Fin S256x101.rank)) Z 0x00000000#32 reduces_S256x101_S256 (.inl rfl) rfl (ix1 p)).trans ?_
  exact Finset.sum_congr rfl fun k _ => congrArg Z (lift_row p k)

/-- The softmax of the rows of a [256, 101] array, read at `(p, j)`. -/
theorem softmax_apply (Z : FVec Ideal S256x101 .f32) (p : Fin 256) (j : Fin 101) :
    divf (exp (subf Z (maxCol Z))) (sumCol (exp (subf Z (maxCol Z)))) (ix2 p j) = C51.dist (fun k => Z (ix2 p k)) j := by
  have hs : ∀ k : Fin 101, exp (subf Z (maxCol Z)) (ix2 p k) = C51.shifted (fun k => Z (ix2 p k)) k := fun k => by
    show Ideal.exp (Z (ix2 p k) - maxCol Z (ix2 p k)) = _
    rw [maxCol_apply]
    rfl
  show Ideal.div (exp (subf Z (maxCol Z)) (ix2 p j)) (sumCol (exp (subf Z (maxCol Z))) (ix2 p j)) = _
  rw [sumCol_apply, hs j]
  unfold C51.dist
  exact congrArg (Ideal.div _) (Finset.sum_congr rfl fun k _ => hs k)

/-! ## The matrix products, one per layer -/

theorem matmul1_apply_lhs0 (i : S256x1024.Idx) (q : dot_S256x60_S60x1024_S256x1024_1_0_0_1_n_n.contr.Idx) : (dot_S256x60_S60x1024_S256x1024_1_0_0_1_n_n.lhsIdx i q 0).val = (i 0).val := by
  unfold DotDims.lhsIdx
  rw [dif_neg (show ¬(0 : Fin S256x60.rank) ∈ dot_S256x60_S60x1024_S256x1024_1_0_0_1_n_n.lhsBatch by decide), dif_pos (show (0 : Fin S256x60.rank) ∈ dot_S256x60_S60x1024_S256x1024_1_0_0_1_n_n.lhsNonContracting by decide)]
  rfl
theorem matmul1_apply_lhs1 (i : S256x1024.Idx) (q : dot_S256x60_S60x1024_S256x1024_1_0_0_1_n_n.contr.Idx) : (dot_S256x60_S60x1024_S256x1024_1_0_0_1_n_n.lhsIdx i q 1).val = (q ⟨0, by decide⟩).val :=
  dot_S256x60_S60x1024_S256x1024_1_0_0_1_n_n.lhsIdx_val_of_single rfl i q
theorem matmul1_apply_rhs0 (i : S256x1024.Idx) (q : dot_S256x60_S60x1024_S256x1024_1_0_0_1_n_n.contr.Idx) : (dot_S256x60_S60x1024_S256x1024_1_0_0_1_n_n.rhsIdx i q 0).val = (q ⟨0, by decide⟩).val :=
  dot_S256x60_S60x1024_S256x1024_1_0_0_1_n_n.rhsIdx_val_of_single rfl i q
theorem matmul1_apply_rhs1 (i : S256x1024.Idx) (q : dot_S256x60_S60x1024_S256x1024_1_0_0_1_n_n.contr.Idx) : (dot_S256x60_S60x1024_S256x1024_1_0_0_1_n_n.rhsIdx i q 1).val = (i 1).val := by
  unfold DotDims.rhsIdx
  rw [dif_neg (show ¬(1 : Fin S60x1024.rank) ∈ dot_S256x60_S60x1024_S256x1024_1_0_0_1_n_n.rhsBatch by decide), dif_pos (show (1 : Fin S60x1024.rank) ∈ dot_S256x60_S60x1024_S256x1024_1_0_0_1_n_n.rhsNonContracting by decide)]
  rfl

/-- The [256, 60] by [60, 1024] product into the zero array, read at `(p, n)`: the sum over the 60 contracted positions. -/
theorem matmul1_apply (X : FVec Ideal S256x60 .bf16) (W : FVec Ideal S60x1024 .bf16) (p : Fin 256) (n : Fin 1024) :
    matmul dot_S256x60_S60x1024_S256x1024_1_0_0_1_n_n none X W (constant (F := Ideal) S256x1024 .f32 0x00000000#32) (ix2 p n)
      = ∑ k : Fin 60, X (ix2 p k) * W (ix2 k n) := by
  simp only [matmul]
  rw [Ideal.matmul_constant_zero_apply, ← Equiv.sum_comp (contrEquiv1 dot_S256x60_S60x1024_S256x1024_1_0_0_1_n_n 60 rfl rfl).symm]
  refine Finset.sum_congr rfl fun k _ => ?_
  have hk := contrEquiv1_symm_val dot_S256x60_S60x1024_S256x1024_1_0_0_1_n_n 60 rfl rfl k
  have el : dot_S256x60_S60x1024_S256x1024_1_0_0_1_n_n.lhsIdx (ix2 p n) ((contrEquiv1 dot_S256x60_S60x1024_S256x1024_1_0_0_1_n_n 60 rfl rfl).symm k) = ix2 p k := funext fun a => Fin.ext (by
    match a with
    | ⟨0, _⟩ => exact matmul1_apply_lhs0 _ _
    | ⟨1, _⟩ => exact (matmul1_apply_lhs1 _ _).trans hk)
  have er : dot_S256x60_S60x1024_S256x1024_1_0_0_1_n_n.rhsIdx (ix2 p n) ((contrEquiv1 dot_S256x60_S60x1024_S256x1024_1_0_0_1_n_n 60 rfl rfl).symm k) = ix2 k n := funext fun a => Fin.ext (by
    match a with
    | ⟨0, _⟩ => exact (matmul1_apply_rhs0 _ _).trans hk
    | ⟨1, _⟩ => exact matmul1_apply_rhs1 _ _)
  rw [el, er]

theorem matmul2_apply_lhs0 (i : S256x512.Idx) (q : dot_S256x1024_S1024x512_S256x512_1_0_0_1_n_n.contr.Idx) : (dot_S256x1024_S1024x512_S256x512_1_0_0_1_n_n.lhsIdx i q 0).val = (i 0).val := by
  unfold DotDims.lhsIdx
  rw [dif_neg (show ¬(0 : Fin S256x1024.rank) ∈ dot_S256x1024_S1024x512_S256x512_1_0_0_1_n_n.lhsBatch by decide), dif_pos (show (0 : Fin S256x1024.rank) ∈ dot_S256x1024_S1024x512_S256x512_1_0_0_1_n_n.lhsNonContracting by decide)]
  rfl
theorem matmul2_apply_lhs1 (i : S256x512.Idx) (q : dot_S256x1024_S1024x512_S256x512_1_0_0_1_n_n.contr.Idx) : (dot_S256x1024_S1024x512_S256x512_1_0_0_1_n_n.lhsIdx i q 1).val = (q ⟨0, by decide⟩).val :=
  dot_S256x1024_S1024x512_S256x512_1_0_0_1_n_n.lhsIdx_val_of_single rfl i q
theorem matmul2_apply_rhs0 (i : S256x512.Idx) (q : dot_S256x1024_S1024x512_S256x512_1_0_0_1_n_n.contr.Idx) : (dot_S256x1024_S1024x512_S256x512_1_0_0_1_n_n.rhsIdx i q 0).val = (q ⟨0, by decide⟩).val :=
  dot_S256x1024_S1024x512_S256x512_1_0_0_1_n_n.rhsIdx_val_of_single rfl i q
theorem matmul2_apply_rhs1 (i : S256x512.Idx) (q : dot_S256x1024_S1024x512_S256x512_1_0_0_1_n_n.contr.Idx) : (dot_S256x1024_S1024x512_S256x512_1_0_0_1_n_n.rhsIdx i q 1).val = (i 1).val := by
  unfold DotDims.rhsIdx
  rw [dif_neg (show ¬(1 : Fin S1024x512.rank) ∈ dot_S256x1024_S1024x512_S256x512_1_0_0_1_n_n.rhsBatch by decide), dif_pos (show (1 : Fin S1024x512.rank) ∈ dot_S256x1024_S1024x512_S256x512_1_0_0_1_n_n.rhsNonContracting by decide)]
  rfl

/-- The [256, 1024] by [1024, 512] product into the zero array, read at `(p, n)`: the sum over the 1024 contracted positions. -/
theorem matmul2_apply (X : FVec Ideal S256x1024 .bf16) (W : FVec Ideal S1024x512 .bf16) (p : Fin 256) (n : Fin 512) :
    matmul dot_S256x1024_S1024x512_S256x512_1_0_0_1_n_n none X W (constant (F := Ideal) S256x512 .f32 0x00000000#32) (ix2 p n)
      = ∑ k : Fin 1024, X (ix2 p k) * W (ix2 k n) := by
  simp only [matmul]
  rw [Ideal.matmul_constant_zero_apply, ← Equiv.sum_comp (contrEquiv1 dot_S256x1024_S1024x512_S256x512_1_0_0_1_n_n 1024 rfl rfl).symm]
  refine Finset.sum_congr rfl fun k _ => ?_
  have hk := contrEquiv1_symm_val dot_S256x1024_S1024x512_S256x512_1_0_0_1_n_n 1024 rfl rfl k
  have el : dot_S256x1024_S1024x512_S256x512_1_0_0_1_n_n.lhsIdx (ix2 p n) ((contrEquiv1 dot_S256x1024_S1024x512_S256x512_1_0_0_1_n_n 1024 rfl rfl).symm k) = ix2 p k := funext fun a => Fin.ext (by
    match a with
    | ⟨0, _⟩ => exact matmul2_apply_lhs0 _ _
    | ⟨1, _⟩ => exact (matmul2_apply_lhs1 _ _).trans hk)
  have er : dot_S256x1024_S1024x512_S256x512_1_0_0_1_n_n.rhsIdx (ix2 p n) ((contrEquiv1 dot_S256x1024_S1024x512_S256x512_1_0_0_1_n_n 1024 rfl rfl).symm k) = ix2 k n := funext fun a => Fin.ext (by
    match a with
    | ⟨0, _⟩ => exact (matmul2_apply_rhs0 _ _).trans hk
    | ⟨1, _⟩ => exact matmul2_apply_rhs1 _ _)
  rw [el, er]

theorem matmul3_apply_lhs0 (i : S256x256.Idx) (q : dot_S256x512_S512x256_S256x256_1_0_0_1_n_n.contr.Idx) : (dot_S256x512_S512x256_S256x256_1_0_0_1_n_n.lhsIdx i q 0).val = (i 0).val := by
  unfold DotDims.lhsIdx
  rw [dif_neg (show ¬(0 : Fin S256x512.rank) ∈ dot_S256x512_S512x256_S256x256_1_0_0_1_n_n.lhsBatch by decide), dif_pos (show (0 : Fin S256x512.rank) ∈ dot_S256x512_S512x256_S256x256_1_0_0_1_n_n.lhsNonContracting by decide)]
  rfl
theorem matmul3_apply_lhs1 (i : S256x256.Idx) (q : dot_S256x512_S512x256_S256x256_1_0_0_1_n_n.contr.Idx) : (dot_S256x512_S512x256_S256x256_1_0_0_1_n_n.lhsIdx i q 1).val = (q ⟨0, by decide⟩).val :=
  dot_S256x512_S512x256_S256x256_1_0_0_1_n_n.lhsIdx_val_of_single rfl i q
theorem matmul3_apply_rhs0 (i : S256x256.Idx) (q : dot_S256x512_S512x256_S256x256_1_0_0_1_n_n.contr.Idx) : (dot_S256x512_S512x256_S256x256_1_0_0_1_n_n.rhsIdx i q 0).val = (q ⟨0, by decide⟩).val :=
  dot_S256x512_S512x256_S256x256_1_0_0_1_n_n.rhsIdx_val_of_single rfl i q
theorem matmul3_apply_rhs1 (i : S256x256.Idx) (q : dot_S256x512_S512x256_S256x256_1_0_0_1_n_n.contr.Idx) : (dot_S256x512_S512x256_S256x256_1_0_0_1_n_n.rhsIdx i q 1).val = (i 1).val := by
  unfold DotDims.rhsIdx
  rw [dif_neg (show ¬(1 : Fin S512x256.rank) ∈ dot_S256x512_S512x256_S256x256_1_0_0_1_n_n.rhsBatch by decide), dif_pos (show (1 : Fin S512x256.rank) ∈ dot_S256x512_S512x256_S256x256_1_0_0_1_n_n.rhsNonContracting by decide)]
  rfl

/-- The [256, 512] by [512, 256] product into the zero array, read at `(p, n)`: the sum over the 512 contracted positions. -/
theorem matmul3_apply (X : FVec Ideal S256x512 .bf16) (W : FVec Ideal S512x256 .bf16) (p : Fin 256) (n : Fin 256) :
    matmul dot_S256x512_S512x256_S256x256_1_0_0_1_n_n none X W (constant (F := Ideal) S256x256 .f32 0x00000000#32) (ix2 p n)
      = ∑ k : Fin 512, X (ix2 p k) * W (ix2 k n) := by
  simp only [matmul]
  rw [Ideal.matmul_constant_zero_apply, ← Equiv.sum_comp (contrEquiv1 dot_S256x512_S512x256_S256x256_1_0_0_1_n_n 512 rfl rfl).symm]
  refine Finset.sum_congr rfl fun k _ => ?_
  have hk := contrEquiv1_symm_val dot_S256x512_S512x256_S256x256_1_0_0_1_n_n 512 rfl rfl k
  have el : dot_S256x512_S512x256_S256x256_1_0_0_1_n_n.lhsIdx (ix2 p n) ((contrEquiv1 dot_S256x512_S512x256_S256x256_1_0_0_1_n_n 512 rfl rfl).symm k) = ix2 p k := funext fun a => Fin.ext (by
    match a with
    | ⟨0, _⟩ => exact matmul3_apply_lhs0 _ _
    | ⟨1, _⟩ => exact (matmul3_apply_lhs1 _ _).trans hk)
  have er : dot_S256x512_S512x256_S256x256_1_0_0_1_n_n.rhsIdx (ix2 p n) ((contrEquiv1 dot_S256x512_S512x256_S256x256_1_0_0_1_n_n 512 rfl rfl).symm k) = ix2 k n := funext fun a => Fin.ext (by
    match a with
    | ⟨0, _⟩ => exact (matmul3_apply_rhs0 _ _).trans hk
    | ⟨1, _⟩ => exact matmul3_apply_rhs1 _ _)
  rw [el, er]

theorem matmul4_apply_lhs0 (i : S256x101.Idx) (q : dot_S256x256_S256x101_S256x101_1_0_0_1_n_n.contr.Idx) : (dot_S256x256_S256x101_S256x101_1_0_0_1_n_n.lhsIdx i q 0).val = (i 0).val := by
  unfold DotDims.lhsIdx
  rw [dif_neg (show ¬(0 : Fin S256x256.rank) ∈ dot_S256x256_S256x101_S256x101_1_0_0_1_n_n.lhsBatch by decide), dif_pos (show (0 : Fin S256x256.rank) ∈ dot_S256x256_S256x101_S256x101_1_0_0_1_n_n.lhsNonContracting by decide)]
  rfl
theorem matmul4_apply_lhs1 (i : S256x101.Idx) (q : dot_S256x256_S256x101_S256x101_1_0_0_1_n_n.contr.Idx) : (dot_S256x256_S256x101_S256x101_1_0_0_1_n_n.lhsIdx i q 1).val = (q ⟨0, by decide⟩).val :=
  dot_S256x256_S256x101_S256x101_1_0_0_1_n_n.lhsIdx_val_of_single rfl i q
theorem matmul4_apply_rhs0 (i : S256x101.Idx) (q : dot_S256x256_S256x101_S256x101_1_0_0_1_n_n.contr.Idx) : (dot_S256x256_S256x101_S256x101_1_0_0_1_n_n.rhsIdx i q 0).val = (q ⟨0, by decide⟩).val :=
  dot_S256x256_S256x101_S256x101_1_0_0_1_n_n.rhsIdx_val_of_single rfl i q
theorem matmul4_apply_rhs1 (i : S256x101.Idx) (q : dot_S256x256_S256x101_S256x101_1_0_0_1_n_n.contr.Idx) : (dot_S256x256_S256x101_S256x101_1_0_0_1_n_n.rhsIdx i q 1).val = (i 1).val := by
  unfold DotDims.rhsIdx
  rw [dif_neg (show ¬(1 : Fin S256x101.rank) ∈ dot_S256x256_S256x101_S256x101_1_0_0_1_n_n.rhsBatch by decide), dif_pos (show (1 : Fin S256x101.rank) ∈ dot_S256x256_S256x101_S256x101_1_0_0_1_n_n.rhsNonContracting by decide)]
  rfl

/-- The [256, 256] by [256, 101] product into the zero array, read at `(p, n)`: the sum over the 256 contracted positions. -/
theorem matmul4_apply (X : FVec Ideal S256x256 .bf16) (W : FVec Ideal S256x101 .bf16) (p : Fin 256) (n : Fin 101) :
    matmul dot_S256x256_S256x101_S256x101_1_0_0_1_n_n none X W (constant (F := Ideal) S256x101 .f32 0x00000000#32) (ix2 p n)
      = ∑ k : Fin 256, X (ix2 p k) * W (ix2 k n) := by
  simp only [matmul]
  rw [Ideal.matmul_constant_zero_apply, ← Equiv.sum_comp (contrEquiv1 dot_S256x256_S256x101_S256x101_1_0_0_1_n_n 256 rfl rfl).symm]
  refine Finset.sum_congr rfl fun k _ => ?_
  have hk := contrEquiv1_symm_val dot_S256x256_S256x101_S256x101_1_0_0_1_n_n 256 rfl rfl k
  have el : dot_S256x256_S256x101_S256x101_1_0_0_1_n_n.lhsIdx (ix2 p n) ((contrEquiv1 dot_S256x256_S256x101_S256x101_1_0_0_1_n_n 256 rfl rfl).symm k) = ix2 p k := funext fun a => Fin.ext (by
    match a with
    | ⟨0, _⟩ => exact matmul4_apply_lhs0 _ _
    | ⟨1, _⟩ => exact (matmul4_apply_lhs1 _ _).trans hk)
  have er : dot_S256x256_S256x101_S256x101_1_0_0_1_n_n.rhsIdx (ix2 p n) ((contrEquiv1 dot_S256x256_S256x101_S256x101_1_0_0_1_n_n 256 rfl rfl).symm k) = ix2 k n := funext fun a => Fin.ext (by
    match a with
    | ⟨0, _⟩ => exact (matmul4_apply_rhs0 _ _).trans hk
    | ⟨1, _⟩ => exact matmul4_apply_rhs1 _ _)
  rw [el, er]

/-! ## The dense layers and the joined input -/

/-- A dense layer of width 1024 on 60 inputs, read at `(p, n)`: the product's sum plus the bias row's entry. -/
theorem dense1_apply (X : FVec Ideal S256x60 .bf16) (W : FVec Ideal S60x1024 .bf16) (b : FVec Ideal S1x1024 .f32) (p : Fin 256) (n : Fin 1024) :
    (addf (matmul dot_S256x60_S60x1024_S256x1024_1_0_0_1_n_n none X (shapeCast S60x1024 W shapeCasts_S60x1024_S60x1024) (constant (F := Ideal) S256x1024 .f32 0x00000000#32))
        (broadcastTo S256x1024 (shapeCast S1x1024 b shapeCasts_S1x1024_S1x1024) broadcasts_S1x1024_S256x1024)) (ix2 p n)
      = C51.affine (fun k => X (ix2 p k)) (fun k n => W (ix2 k n)) (fun n => b (ix2 (0 : Fin 1) n)) n := by
  rw [addf_apply, shapeCast_self, shapeCast_self, broadcastTo_1b_ab_apply, matmul1_apply]
  rfl

/-- The same layer followed by the rectifier. -/
theorem layer1_apply (X : FVec Ideal S256x60 .bf16) (W : FVec Ideal S60x1024 .bf16) (b : FVec Ideal S1x1024 .f32) (p : Fin 256) (n : Fin 1024) :
    (truncf .bf16 (maximumf (addf (matmul dot_S256x60_S60x1024_S256x1024_1_0_0_1_n_n none X (shapeCast S60x1024 W shapeCasts_S60x1024_S60x1024) (constant (F := Ideal) S256x1024 .f32 0x00000000#32))
        (broadcastTo S256x1024 (shapeCast S1x1024 b shapeCasts_S1x1024_S1x1024) broadcasts_S1x1024_S256x1024))
        (broadcast S256x1024 (Scalar.ofBits (F := Ideal) .f32 0x00000000#32))) bitsLt_bf16_f32 : FVec Ideal S256x1024 .bf16) (ix2 p n)
      = C51.relu (C51.affine (fun k => X (ix2 p k)) (fun k n => W (ix2 k n)) (fun n => b (ix2 (0 : Fin 1) n)) n) := by
  rw [truncf_apply, maximumf_apply, broadcast_apply, dense1_apply]
  rfl

/-- A dense layer of width 512 on 1024 inputs, read at `(p, n)`: the product's sum plus the bias row's entry. -/
theorem dense2_apply (X : FVec Ideal S256x1024 .bf16) (W : FVec Ideal S1024x512 .bf16) (b : FVec Ideal S1x512 .f32) (p : Fin 256) (n : Fin 512) :
    (addf (matmul dot_S256x1024_S1024x512_S256x512_1_0_0_1_n_n none X (shapeCast S1024x512 W shapeCasts_S1024x512_S1024x512) (constant (F := Ideal) S256x512 .f32 0x00000000#32))
        (broadcastTo S256x512 (shapeCast S1x512 b shapeCasts_S1x512_S1x512) broadcasts_S1x512_S256x512)) (ix2 p n)
      = C51.affine (fun k => X (ix2 p k)) (fun k n => W (ix2 k n)) (fun n => b (ix2 (0 : Fin 1) n)) n := by
  rw [addf_apply, shapeCast_self, shapeCast_self, broadcastTo_1b_ab_apply, matmul2_apply]
  rfl

/-- The same layer followed by the rectifier. -/
theorem layer2_apply (X : FVec Ideal S256x1024 .bf16) (W : FVec Ideal S1024x512 .bf16) (b : FVec Ideal S1x512 .f32) (p : Fin 256) (n : Fin 512) :
    (truncf .bf16 (maximumf (addf (matmul dot_S256x1024_S1024x512_S256x512_1_0_0_1_n_n none X (shapeCast S1024x512 W shapeCasts_S1024x512_S1024x512) (constant (F := Ideal) S256x512 .f32 0x00000000#32))
        (broadcastTo S256x512 (shapeCast S1x512 b shapeCasts_S1x512_S1x512) broadcasts_S1x512_S256x512))
        (broadcast S256x512 (Scalar.ofBits (F := Ideal) .f32 0x00000000#32))) bitsLt_bf16_f32 : FVec Ideal S256x512 .bf16) (ix2 p n)
      = C51.relu (C51.affine (fun k => X (ix2 p k)) (fun k n => W (ix2 k n)) (fun n => b (ix2 (0 : Fin 1) n)) n) := by
  rw [truncf_apply, maximumf_apply, broadcast_apply, dense2_apply]
  rfl

/-- A dense layer of width 256 on 512 inputs, read at `(p, n)`: the product's sum plus the bias row's entry. -/
theorem dense3_apply (X : FVec Ideal S256x512 .bf16) (W : FVec Ideal S512x256 .bf16) (b : FVec Ideal S1x256 .f32) (p : Fin 256) (n : Fin 256) :
    (addf (matmul dot_S256x512_S512x256_S256x256_1_0_0_1_n_n none X (shapeCast S512x256 W shapeCasts_S512x256_S512x256) (constant (F := Ideal) S256x256 .f32 0x00000000#32))
        (broadcastTo S256x256 (shapeCast S1x256 b shapeCasts_S1x256_S1x256) broadcasts_S1x256_S256x256)) (ix2 p n)
      = C51.affine (fun k => X (ix2 p k)) (fun k n => W (ix2 k n)) (fun n => b (ix2 (0 : Fin 1) n)) n := by
  rw [addf_apply, shapeCast_self, shapeCast_self, broadcastTo_1b_ab_apply, matmul3_apply]
  rfl

/-- The same layer followed by the rectifier. -/
theorem layer3_apply (X : FVec Ideal S256x512 .bf16) (W : FVec Ideal S512x256 .bf16) (b : FVec Ideal S1x256 .f32) (p : Fin 256) (n : Fin 256) :
    (truncf .bf16 (maximumf (addf (matmul dot_S256x512_S512x256_S256x256_1_0_0_1_n_n none X (shapeCast S512x256 W shapeCasts_S512x256_S512x256) (constant (F := Ideal) S256x256 .f32 0x00000000#32))
        (broadcastTo S256x256 (shapeCast S1x256 b shapeCasts_S1x256_S1x256) broadcasts_S1x256_S256x256))
        (broadcast S256x256 (Scalar.ofBits (F := Ideal) .f32 0x00000000#32))) bitsLt_bf16_f32 : FVec Ideal S256x256 .bf16) (ix2 p n)
      = C51.relu (C51.affine (fun k => X (ix2 p k)) (fun k n => W (ix2 k n)) (fun n => b (ix2 (0 : Fin 1) n)) n) := by
  rw [truncf_apply, maximumf_apply, broadcast_apply, dense3_apply]
  rfl

/-- A dense layer of width 101 on 256 inputs, read at `(p, n)`: the product's sum plus the bias row's entry. -/
theorem dense4_apply (X : FVec Ideal S256x256 .bf16) (W : FVec Ideal S256x101 .bf16) (b : FVec Ideal S1x101 .f32) (p : Fin 256) (n : Fin 101) :
    (addf (matmul dot_S256x256_S256x101_S256x101_1_0_0_1_n_n none X (shapeCast S256x101 W shapeCasts_S256x101_S256x101) (constant (F := Ideal) S256x101 .f32 0x00000000#32))
        (broadcastTo S256x101 (shapeCast S1x101 b shapeCasts_S1x101_S1x101) broadcasts_S1x101_S256x101)) (ix2 p n)
      = C51.affine (fun k => X (ix2 p k)) (fun k n => W (ix2 k n)) (fun n => b (ix2 (0 : Fin 1) n)) n := by
  rw [addf_apply, shapeCast_self, shapeCast_self, broadcastTo_1b_ab_apply, matmul4_apply]
  rfl
/-- The two input blocks joined along the columns, read at `(p, k)`. -/
theorem joined_apply (v0 : Vec Ideal S256x48 .f32) (v1 : Vec Ideal S256x12 .f32) (p : Fin 256) (k : Fin 60) :
    concatenate S256x60 1 [⟨S256x48, v0⟩, ⟨S256x12, v1⟩] concatenates_S256x48_S256x12_S256x60_d1 (ix2 p k)
      = C51.joined (fun k => v0 (ix2 p k)) (fun k => v1 (ix2 p k)) k := by
  unfold C51.joined
  by_cases hk : k.val < 48
  · rw [dif_pos hk]
    exact concatenate_pair_apply_left (1 : Fin S256x60.rank) v0 v1 concatenates_S256x48_S256x12_S256x60_d1 (ix2 p k) rfl
      (ix2 p (⟨k.val, hk⟩ : Fin 48)) (fun b => match b with | ⟨0, _⟩ => rfl | ⟨1, _⟩ => rfl)
  · rw [dif_neg hk]
    exact concatenate_pair_apply_right (1 : Fin S256x60.rank) v0 v1 concatenates_S256x48_S256x12_S256x60_d1 (ix2 p k) rfl rfl
      (ix2 p (⟨k.val - 48, by omega⟩ : Fin 12)) (fun b hb => match b, hb with | ⟨0, _⟩, _ => rfl | ⟨1, _⟩, hb => absurd rfl hb)
      (by show k.val - 48 + 48 = k.val; omega)

/-! ## The network of a row -/

section Network

variable (v0 : Vec Ideal S256x48 .f32) (v1 : Vec Ideal S256x12 .f32) (v4 : Vec Ideal S60x1024 .bf16) (v7 : Vec Ideal S1x1024 .f32)
  (v14 : Vec Ideal S1024x512 .bf16) (v17 : Vec Ideal S1x512 .f32) (v24 : Vec Ideal S512x256 .bf16) (v27 : Vec Ideal S1x256 .f32)
  (v34 : Vec Ideal S256x101 .bf16) (v37 : Vec Ideal S1x101 .f32)

/-- The three hidden layers of a row, read at `(p, n)`. -/
theorem hidden_apply (p : Fin 256) (n : Fin 256) :
    k0_pay2 (F := Ideal) v0 v1 v4 v7 v14 v17 v24 v27 (ix2 p n)
      = C51.relu (C51.affine (fun k1 => C51.relu (C51.affine (fun k0 => C51.relu (C51.affine
          (C51.joined (fun k => v0 (ix2 p k)) (fun k => v1 (ix2 p k)))
          (fun k n => v4 (ix2 k n)) (fun n => v7 (ix2 (0 : Fin 1) n)) k0))
          (fun k n => v14 (ix2 k n)) (fun n => v17 (ix2 (0 : Fin 1) n)) k1))
          (fun k n => v24 (ix2 k n)) (fun n => v27 (ix2 (0 : Fin 1) n)) n) := by
  unfold k0_pay2
  refine (layer3_apply _ _ _ p n).trans ?_
  refine congrArg (fun x => C51.relu (C51.affine x (fun k n => v24 (ix2 k n)) (fun n => v27 (ix2 (0 : Fin 1) n)) n)) (funext fun k1 => ?_)
  refine (layer2_apply _ _ _ p k1).trans ?_
  refine congrArg (fun x => C51.relu (C51.affine x (fun k n => v14 (ix2 k n)) (fun n => v17 (ix2 (0 : Fin 1) n)) k1)) (funext fun k0 => ?_)
  refine (layer1_apply _ _ _ p k0).trans ?_
  refine congrArg (fun x => C51.relu (C51.affine x (fun k n => v4 (ix2 k n)) (fun n => v7 (ix2 (0 : Fin 1) n)) k0)) (funext fun k => ?_)
  rw [truncf_apply]
  exact joined_apply v0 v1 p k

/-- The 101 logits of a row, read at `(p, j)`: the fourth dense layer over the three hidden ones. -/
theorem logits_apply (p : Fin 256) (j : Fin 101) :
    (addf (matmul dot_S256x256_S256x101_S256x101_1_0_0_1_n_n none (k0_pay2 (F := Ideal) v0 v1 v4 v7 v14 v17 v24 v27)
          (shapeCast S256x101 v34 shapeCasts_S256x101_S256x101 : FVec Ideal S256x101 .bf16) (constant (F := Ideal) S256x101 .f32 0x00000000#32))
        (broadcastTo S256x101 (shapeCast S1x101 v37 shapeCasts_S1x101_S1x101 : FVec Ideal S1x101 .f32) broadcasts_S1x101_S256x101)) (ix2 p j)
      = C51.logits (fun k => v0 (ix2 p k)) (fun k => v1 (ix2 p k)) (fun k n => v4 (ix2 k n)) (fun n => v7 (ix2 (0 : Fin 1) n))
          (fun k n => v14 (ix2 k n)) (fun n => v17 (ix2 (0 : Fin 1) n)) (fun k n => v24 (ix2 k n)) (fun n => v27 (ix2 (0 : Fin 1) n))
          (fun k n => v34 (ix2 k n)) (fun n => v37 (ix2 (0 : Fin 1) n)) j := by
  refine (dense4_apply _ _ _ p j).trans ?_
  unfold C51.logits
  exact congrArg (fun x => C51.affine x (fun k n => v34 (ix2 k n)) (fun n => v37 (ix2 (0 : Fin 1) n)) j)
    (funext fun k2 => hidden_apply v0 v1 v4 v7 v14 v17 v24 v27 p k2)

end Network

/-! ## The body's values at row `p` and atom `j` -/

variable (v0 : Vec Ideal S256x48 .f32) (v1 : Vec Ideal S256x12 .f32) (v4 : Vec Ideal S60x1024 .bf16) (v7 : Vec Ideal S1x1024 .f32)
  (v14 : Vec Ideal S1024x512 .bf16) (v17 : Vec Ideal S1x512 .f32) (v24 : Vec Ideal S512x256 .bf16) (v27 : Vec Ideal S1x256 .f32)
  (v34 : Vec Ideal S256x101 .bf16) (v37 : Vec Ideal S1x101 .f32) (v50 v51 v52 : Vec Ideal S256 .f32) (v53 : Vec Ideal S101 .f32)
  (P : FVec Ideal S256x101 .f32) (p : Fin 256) (j : Fin 101)
/-- The row's next-state distribution: the softmax of the logits. -/
theorem dist_apply : k0_pay3 (F := Ideal) (k0_pay2 v0 v1 v4 v7 v14 v17 v24 v27) v34 v37 (ix2 p j) = C51.dist (C51.logits (fun k => v0 (ix2 p k)) (fun k => v1 (ix2 p k)) (fun k n => v4 (ix2 k n)) (fun n => v7 (ix2 (0 : Fin 1) n)) (fun k n => v14 (ix2 k n)) (fun n => v17 (ix2 (0 : Fin 1) n)) (fun k n => v24 (ix2 k n)) (fun n => v27 (ix2 (0 : Fin 1) n)) (fun k n => v34 (ix2 k n)) (fun n => v37 (ix2 (0 : Fin 1) n))) j := by
  unfold k0_pay3
  refine (softmax_apply _ p j).trans ?_
  exact congrArg (fun z => C51.dist z j) (funext fun k => logits_apply v0 v1 v4 v7 v14 v17 v24 v27 v34 v37 p k)

theorem pos_apply : k0_pay4 (F := Ideal) v50 v51 v52 v53 (ix2 p j) = C51.bcoef (v50 (ix1 p)) (v51 (ix1 p)) (v52 (ix1 p)) (v53 (ix1 j)) := by
  unfold k0_pay4 C51.bcoef
  simp only [divf_apply, subf_apply, minimumf_apply, maximumf_apply, addf_apply, mulf_apply, broadcast_apply]
  rw [broadcastTo_a1_ab_apply, broadcastTo_a1_ab_apply, broadcastTo_1b_ab_apply]
  simp only [mulf_apply]
  rw [shapeCast_a_a1_apply, shapeCast_a_a1_apply, shapeCast_a_a1_apply, shapeCast_a_1a_apply]
  rfl

theorem floor_apply : k0_pay5 (F := Ideal) v50 v51 v52 v53 (ix2 p j) = C51.lo0 (C51.bcoef (v50 (ix1 p)) (v51 (ix1 p)) (v52 (ix1 p)) (v53 (ix1 j))) := by
  show Ideal.fptosi 32 (Ideal.liftRound Int.floor (k0_pay4 (F := Ideal) v50 v51 v52 v53 (ix2 p j))) = _
  rw [pos_apply]
  rfl

theorem ceil_apply : k0_pay6 (F := Ideal) v50 v51 v52 v53 (ix2 p j) = C51.hi0 (C51.bcoef (v50 (ix1 p)) (v51 (ix1 p)) (v52 (ix1 p)) (v53 (ix1 j))) := by
  show Ideal.fptosi 32 (Ideal.liftRound Int.ceil (k0_pay4 (F := Ideal) v50 v51 v52 v53 (ix2 p j))) = _
  rw [pos_apply]
  rfl

theorem mask_apply : k0_pay7 (F := Ideal) v50 v51 v52 v53 (ix2 p j)
    = IntOp.andi (IntOp.cmpi .sgt (C51.hi0 (C51.bcoef (v50 (ix1 p)) (v51 (ix1 p)) (v52 (ix1 p)) (v53 (ix1 j)))) 0#32)
        (IntOp.cmpi .eq (C51.lo0 (C51.bcoef (v50 (ix1 p)) (v51 (ix1 p)) (v52 (ix1 p)) (v53 (ix1 j))))
          (C51.hi0 (C51.bcoef (v50 (ix1 p)) (v51 (ix1 p)) (v52 (ix1 p)) (v53 (ix1 j))))) := by
  show IntOp.andi (IntOp.cmpi .sgt (k0_pay6 (F := Ideal) v50 v51 v52 v53 (ix2 p j)) 0#32)
      (IntOp.cmpi .eq (k0_pay5 (F := Ideal) v50 v51 v52 v53 (ix2 p j)) (k0_pay6 (F := Ideal) v50 v51 v52 v53 (ix2 p j))) = _
  rw [floor_apply, ceil_apply]

theorem lower_apply : k0_pay8 (k0_pay5 (F := Ideal) v50 v51 v52 v53) (k0_pay7 (F := Ideal) v50 v51 v52 v53) (ix2 p j) = C51.loIdx (C51.bcoef (v50 (ix1 p)) (v51 (ix1 p)) (v52 (ix1 p)) (v53 (ix1 j))) := by
  show Scalar.select (k0_pay7 (F := Ideal) v50 v51 v52 v53 (ix2 p j))
      (IntOp.subi (k0_pay5 (F := Ideal) v50 v51 v52 v53 (ix2 p j)) 1#32) (k0_pay5 (F := Ideal) v50 v51 v52 v53 (ix2 p j)) = _
  rw [mask_apply, floor_apply]
  rfl

theorem upper_apply : k0_pay9 (k0_pay5 (F := Ideal) v50 v51 v52 v53) (k0_pay6 (F := Ideal) v50 v51 v52 v53) 100#32 (ix2 p j) = C51.hiIdx (C51.bcoef (v50 (ix1 p)) (v51 (ix1 p)) (v52 (ix1 p)) (v53 (ix1 j))) := by
  show Scalar.select (IntOp.andi (IntOp.cmpi .slt (k0_pay5 (F := Ideal) v50 v51 v52 v53 (ix2 p j)) 100#32)
        (IntOp.cmpi .eq (k0_pay5 (F := Ideal) v50 v51 v52 v53 (ix2 p j)) (k0_pay6 (F := Ideal) v50 v51 v52 v53 (ix2 p j))))
      (IntOp.addi (k0_pay6 (F := Ideal) v50 v51 v52 v53 (ix2 p j)) 1#32) (k0_pay6 (F := Ideal) v50 v51 v52 v53 (ix2 p j)) = _
  rw [floor_apply, ceil_apply]
  rfl

theorem lowMass_apply : k0_pay10 (F := Ideal) P (k0_pay4 v50 v51 v52 v53) (k0_pay5 v50 v51 v52 v53) (k0_pay6 v50 v51 v52 v53) 100#32 (ix2 p j) = C51.loW (P (ix2 p j)) (C51.bcoef (v50 (ix1 p)) (v51 (ix1 p)) (v52 (ix1 p)) (v53 (ix1 j))) := by
  show P (ix2 p j) * ((((k0_pay9 (k0_pay5 (F := Ideal) v50 v51 v52 v53) (k0_pay6 (F := Ideal) v50 v51 v52 v53) 100#32 (ix2 p j)).toInt : ℝ) : EReal)
      - k0_pay4 (F := Ideal) v50 v51 v52 v53 (ix2 p j)) = _
  rw [upper_apply, pos_apply]
  rfl

theorem highMass_apply : k0_pay11 (F := Ideal) P (k0_pay4 v50 v51 v52 v53) (k0_pay5 v50 v51 v52 v53) (k0_pay7 v50 v51 v52 v53) (ix2 p j) = C51.hiW (P (ix2 p j)) (C51.bcoef (v50 (ix1 p)) (v51 (ix1 p)) (v52 (ix1 p)) (v53 (ix1 j))) := by
  show P (ix2 p j) * (k0_pay4 (F := Ideal) v50 v51 v52 v53 (ix2 p j)
      - (((k0_pay8 (k0_pay5 (F := Ideal) v50 v51 v52 v53) (k0_pay7 (F := Ideal) v50 v51 v52 v53) (ix2 p j)).toInt : ℝ) : EReal)) = _
  rw [lower_apply, pos_apply]
  rfl

end Cert.KernelIdeal.RowValue

end
-- ==== Proof.KernelLanded.lean ====
/-
  The landing sums of the idealized kernel, row by row.

  For a block of 256 rows the kernel holds, per source atom `j`, a lower and an upper target atom `L[p,j]`, `U[p,j]` and the
  masses `TL[p,j]`, `TH[p,j]` sent to them. It adds up, in twelve chunks of eight source atoms and one of five, for every target
  atom `a`, the masses whose lower or upper atom is `a`, each chunk by a sum over the middle axis of a [256, w, 101] array, into an
  accumulator that starts at the zero word. This module reads that accumulated array at (p, a): it is the sum over all 101
  source atoms of `hit (L j) a (TL j) + hit (U j) a (TH j)`, the row's `C51.landed`.
-/
import proofs.«141976_j712964571807_2_alg».proof.Proof.Gen.KernelIdeal.Skeleton
import proofs.«141976_j712964571807_2_alg».proof.Proof.Projection
import Idealize.ShloMosaic.Lib.ValueIdx
import Idealize.ShloMosaic.Lib.ValueLayout
import Idealize.ShloMosaic.Lib.Pipeline.Value
import Idealize.ShloMosaic.PureOps.Ideal.Laws

noncomputable section

namespace Cert.KernelIdeal.Landed

open Cert.KernelIdeal Cert.KernelIdeal.Gen Idealize.ShloMosaic Idealize.ShloMosaic.ValueIdx

/-! ## The layout operations of one chunk, read at an index -/

/-- The source index over (p, a) with coordinate k on the summed axis is (p, k, a). -/
theorem lift8 (p : Fin 256) (a : Fin 101) (k : Fin 8) :
    reduces_S256x8x101_S256x101.lift (ix2 p a) k = ix3 p k a := by
  funext c; match c with | ⟨0, _⟩ => exact Fin.ext rfl | ⟨1, _⟩ => exact Fin.ext rfl | ⟨2, _⟩ => exact Fin.ext rfl

/-- The same for a chunk of five. -/
theorem lift5 (p : Fin 256) (a : Fin 101) (k : Fin 5) :
    reduces_S256x5x101_S256x101.lift (ix2 p a) k = ix3 p k a := by
  funext c; match c with | ⟨0, _⟩ => exact Fin.ext rfl | ⟨1, _⟩ => exact Fin.ext rfl | ⟨2, _⟩ => exact Fin.ext rfl

/-- The sum over the middle axis of a [256, 8, 101] array at (p, a) is the sum over `k` of the array at (p, k, a). -/
theorem red8_apply (v : FVec Ideal S256x8x101 .f32) (hφ : FTy.f32 = FTy.f32 ∨ FTy.f32 = FTy.bf16)
    (hacc : (0x00000000#32 : BitVec 32) = 0x00000000#32) (p : Fin 256) (a : Fin 101) :
    multiReduction (F := Ideal) .add [1] S256x101 v 0x00000000#32 reduces_S256x8x101_S256x101 hφ hacc (ix2 p a)
      = ∑ k : Fin 8, v (ix3 p k a) :=
  (Ideal.multiReduction_add_single v _ reduces_S256x8x101_S256x101 hφ hacc (ix2 p a)).trans
    (Finset.sum_congr rfl fun k _ => congrArg v (lift8 p a k))

/-- The sum over the middle axis of a [256, 5, 101] array at (p, a) is the sum over `k` of the array at (p, k, a). -/
theorem red5_apply (v : FVec Ideal S256x5x101 .f32) (hφ : FTy.f32 = FTy.f32 ∨ FTy.f32 = FTy.bf16)
    (hacc : (0x00000000#32 : BitVec 32) = 0x00000000#32) (p : Fin 256) (a : Fin 101) :
    multiReduction (F := Ideal) .add [1] S256x101 v 0x00000000#32 reduces_S256x5x101_S256x101 hφ hacc (ix2 p a)
      = ∑ k : Fin 5, v (ix3 p k a) :=
  (Ideal.multiReduction_add_single v _ reduces_S256x5x101_S256x101 hφ hacc (ix2 p a)).trans
    (Finset.sum_congr rfl fun k _ => congrArg v (lift5 p a k))

/-- The atom numbering along the last axis reads `a` at (p, k, a). -/
theorem iota8_apply (h : S256x8x101.Iotas .tc 32 [2]) (p : Fin 256) (k : Fin 8) (a : Fin 101) :
    iota .tc S256x8x101 32 [2] h (ix3 p k a) = BitVec.ofNat 32 a.val :=
  iota_single_apply .tc S256x8x101 32 2 h (ix3 p k a)

/-- The same for a chunk of five. -/
theorem iota5_apply (h : S256x5x101.Iotas .tc 32 [2]) (p : Fin 256) (k : Fin 5) (a : Fin 101) :
    iota .tc S256x5x101 32 [2] h (ix3 p k a) = BitVec.ofNat 32 a.val :=
  iota_single_apply .tc S256x5x101 32 2 h (ix3 p k a)

/-- Columns `o … o + 7` of a [256, 101] array: at (p, k) the array at (p, o + k). -/
theorem slice8_apply {α : Type} (o : ℕ) (x : S256x101.Idx → α) (h : S256x101.Slices ![0, o] S256x8)
    (p : Fin 256) (k : Fin 8) :
    extractStridedSlice S256x8 ![0, o] x h (ix2 p k)
      = x (ix2 p (⟨o + k.val, by have h1 : o + 8 ≤ 101 := h.2 1; have := k.isLt; omega⟩ : Fin 101)) := by
  refine extractStridedSlice_apply _ x h _ _ fun a => ?_
  match a with
  | ⟨0, _⟩ => exact (Nat.zero_add _).symm
  | ⟨1, _⟩ => rfl

/-- Columns `o … o + 4` of a [256, 101] array: at (p, k) the array at (p, o + k). -/
theorem slice5_apply {α : Type} (o : ℕ) (x : S256x101.Idx → α) (h : S256x101.Slices ![0, o] S256x5)
    (p : Fin 256) (k : Fin 5) :
    extractStridedSlice S256x5 ![0, o] x h (ix2 p k)
      = x (ix2 p (⟨o + k.val, by have h1 : o + 5 ≤ 101 := h.2 1; have := k.isLt; omega⟩ : Fin 101)) := by
  refine extractStridedSlice_apply _ x h _ _ fun a => ?_
  match a with
  | ⟨0, _⟩ => exact (Nat.zero_add _).symm
  | ⟨1, _⟩ => rfl

/-- A [256, 8] array viewed as [256, 8, 1] and repeated along the last axis reads (p, k) at (p, k, a). -/
theorem bcast8_apply {α : Type} (x : S256x8.Idx → α) (p : Fin 256) (k : Fin 8) (a : Fin 101) :
    broadcastTo S256x8x101 (shapeCast S256x8x1 x shapeCasts_S256x8_S256x8x1) broadcasts_S256x8x1_S256x8x101 (ix3 p k a)
      = x (ix2 p k) := by
  rw [broadcastTo_apply _ broadcasts_S256x8x1_S256x8x101 (ix3 p k a) (ix3 p k (0 : Fin 1))
    (fun c => by match c with | ⟨0, _⟩ => rfl | ⟨1, _⟩ => rfl | ⟨2, _⟩ => rfl)]
  exact shapeCast_apply x shapeCasts_S256x8_S256x8x1 (ix3 p k (0 : Fin 1)) (ix2 p k) (by
    rw [Shape.rowMajor_val_three, Shape.rowMajor_val_two]
    show p.val * 8 + k.val = (p.val * 8 + k.val) * 1 + 0
    omega)

/-- A [256, 5] array viewed as [256, 5, 1] and repeated along the last axis reads (p, k) at (p, k, a). -/
theorem bcast5_apply {α : Type} (x : S256x5.Idx → α) (p : Fin 256) (k : Fin 5) (a : Fin 101) :
    broadcastTo S256x5x101 (shapeCast S256x5x1 x shapeCasts_S256x5_S256x5x1) broadcasts_S256x5x1_S256x5x101 (ix3 p k a)
      = x (ix2 p k) := by
  rw [broadcastTo_apply _ broadcasts_S256x5x1_S256x5x101 (ix3 p k a) (ix3 p k (0 : Fin 1))
    (fun c => by match c with | ⟨0, _⟩ => rfl | ⟨1, _⟩ => rfl | ⟨2, _⟩ => rfl)]
  exact shapeCast_apply x shapeCasts_S256x5_S256x5x1 (ix3 p k (0 : Fin 1)) (ix2 p k) (by
    rw [Shape.rowMajor_val_three, Shape.rowMajor_val_two]
    show p.val * 5 + k.val = (p.val * 5 + k.val) * 1 + 0
    omega)

/-- An integer comparison of two arrays is taken element by element. -/
theorem cmpi_apply {s : Shape} {w : ℕ} (pr : CmpIPredicate) (x y : IVec s w) (i : s.Idx) :
    cmpi pr x y i = IntOp.cmpi pr (x i) (y i) := rfl

/-- The stored value, as the payloads compose it from the lower and upper atom indices `L`, `U` and the masses `TL`, `TH`. -/
def landingOf (L U : IVec S256x101 32) (TL TH : FVec Ideal S256x101 .f32) (P B : FVec Ideal S256x101 .f32) (L0 U0 : IVec S256x101 32) (M : IVec S256x101 1) : FVec Ideal S256x101 .f32 :=
  k0_pay1 (k0_pay34 L U TL TH (k0_pay29 L U TL TH (k0_pay24 L U TL TH (k0_pay22 L U TL TH (k0_pay18 L U TL TH (k0_pay12 P B L0 U0 M 100#32) (k0_pay13 L0 U0 100#32) (k0_pay14 P B L0 M) (iota .tc S256x8x101 32 [2] iota_S256x8x101_d2_w32) (k0_pay15 L0 M) (k0_pay16 P B L0 U0 100#32) (k0_pay17 (F := Ideal))) (k0_pay19 L TL) (k0_pay20 U) (k0_pay21 TH) (Scalar.ofBits .f32 0x00000000#32)) (k0_pay23 L U TL TH)) (k0_pay25 L) (k0_pay26 U) (k0_pay27 TL) (k0_pay28 TH)) (k0_pay30 U) (k0_pay31 TH) (iota .tc S256x8x101 32 [2] iota_S256x8x101_d2_w32) (k0_pay32 L) (k0_pay33 TL) (Scalar.ofBits .f32 0x00000000#32)) (k0_pay35 TH) (iota .tc S256x5x101 32 [2] iota_S256x5x101_d2_w32) (k0_pay36 L TL) (k0_pay37 U)

/-- The stored value from the raw arrays: the atom indices and masses are the payloads `k0_pay8 … k0_pay11` of them. -/
def landing (P B : FVec Ideal S256x101 .f32) (L0 U0 : IVec S256x101 32) (M : IVec S256x101 1) : FVec Ideal S256x101 .f32 :=
  landingOf (k0_pay8 L0 M) (k0_pay9 L0 U0 100#32) (k0_pay10 (F := Ideal) P B L0 U0 100#32) (k0_pay11 (F := Ideal) P B L0 M) P B L0 U0 M

/-! ## One chunk's sum -/

/-- One chunk of 8 source atoms from column `o`: the sum over the chunk of the masses whose lower or upper atom is `a`. -/
theorem chunk8 (o : ℕ) (L U : IVec S256x101 32) (TL TH : FVec Ideal S256x101 .f32)
    (hs : S256x101.Slices ![0, o] S256x8) (hi : S256x8x101.Iotas .tc 32 [2])
    (hφ : FTy.f32 = FTy.f32 ∨ FTy.f32 = FTy.bf16) (hacc : (0x00000000#32 : BitVec 32) = 0x00000000#32)
    (p : Fin 256) (a : Fin 101) :
    multiReduction (F := Ideal) .add [1] S256x101
        (addf
          (select (cmpi .eq (broadcastTo S256x8x101 (shapeCast S256x8x1 (extractStridedSlice S256x8 ![0, o] L hs) shapeCasts_S256x8_S256x8x1) broadcasts_S256x8x1_S256x8x101) (iota .tc S256x8x101 32 [2] hi)) (broadcastTo S256x8x101 (shapeCast S256x8x1 (extractStridedSlice S256x8 ![0, o] TL hs) shapeCasts_S256x8_S256x8x1) broadcasts_S256x8x1_S256x8x101)
            (broadcast S256x8x101 (Scalar.ofBits .f32 0x00000000#32)))
          (select (cmpi .eq (broadcastTo S256x8x101 (shapeCast S256x8x1 (extractStridedSlice S256x8 ![0, o] U hs) shapeCasts_S256x8_S256x8x1) broadcasts_S256x8x1_S256x8x101) (iota .tc S256x8x101 32 [2] hi)) (broadcastTo S256x8x101 (shapeCast S256x8x1 (extractStridedSlice S256x8 ![0, o] TH hs) shapeCasts_S256x8_S256x8x1) broadcasts_S256x8x1_S256x8x101)
            (broadcast S256x8x101 (Scalar.ofBits .f32 0x00000000#32))))
        0x00000000#32 reduces_S256x8x101_S256x101 hφ hacc (ix2 p a)
      = ∑ k : Fin 8, (C51.hit (L (ix2 p (⟨o + k.val, by have h1 : o + 8 ≤ 101 := hs.2 1; have := k.isLt; omega⟩ : Fin 101))) (BitVec.ofNat 32 a.val) (TL (ix2 p (⟨o + k.val, by have h1 : o + 8 ≤ 101 := hs.2 1; have := k.isLt; omega⟩ : Fin 101)))
          + C51.hit (U (ix2 p (⟨o + k.val, by have h1 : o + 8 ≤ 101 := hs.2 1; have := k.isLt; omega⟩ : Fin 101))) (BitVec.ofNat 32 a.val) (TH (ix2 p (⟨o + k.val, by have h1 : o + 8 ≤ 101 := hs.2 1; have := k.isLt; omega⟩ : Fin 101)))) := by
  rw [red8_apply]
  refine Finset.sum_congr rfl fun k _ => ?_
  rw [addf_apply, select_apply, select_apply, cmpi_apply, cmpi_apply, bcast8_apply, bcast8_apply, bcast8_apply,
    bcast8_apply, iota8_apply, slice8_apply, slice8_apply, slice8_apply, slice8_apply, broadcast_apply]
  rfl

/-- One chunk of 5 source atoms from column `o`: the sum over the chunk of the masses whose lower or upper atom is `a`. -/
theorem chunk5 (o : ℕ) (L U : IVec S256x101 32) (TL TH : FVec Ideal S256x101 .f32)
    (hs : S256x101.Slices ![0, o] S256x5) (hi : S256x5x101.Iotas .tc 32 [2])
    (hφ : FTy.f32 = FTy.f32 ∨ FTy.f32 = FTy.bf16) (hacc : (0x00000000#32 : BitVec 32) = 0x00000000#32)
    (p : Fin 256) (a : Fin 101) :
    multiReduction (F := Ideal) .add [1] S256x101
        (addf
          (select (cmpi .eq (broadcastTo S256x5x101 (shapeCast S256x5x1 (extractStridedSlice S256x5 ![0, o] L hs) shapeCasts_S256x5_S256x5x1) broadcasts_S256x5x1_S256x5x101) (iota .tc S256x5x101 32 [2] hi)) (broadcastTo S256x5x101 (shapeCast S256x5x1 (extractStridedSlice S256x5 ![0, o] TL hs) shapeCasts_S256x5_S256x5x1) broadcasts_S256x5x1_S256x5x101)
            (broadcast S256x5x101 (Scalar.ofBits .f32 0x00000000#32)))
          (select (cmpi .eq (broadcastTo S256x5x101 (shapeCast S256x5x1 (extractStridedSlice S256x5 ![0, o] U hs) shapeCasts_S256x5_S256x5x1) broadcasts_S256x5x1_S256x5x101) (iota .tc S256x5x101 32 [2] hi)) (broadcastTo S256x5x101 (shapeCast S256x5x1 (extractStridedSlice S256x5 ![0, o] TH hs) shapeCasts_S256x5_S256x5x1) broadcasts_S256x5x1_S256x5x101)
            (broadcast S256x5x101 (Scalar.ofBits .f32 0x00000000#32))))
        0x00000000#32 reduces_S256x5x101_S256x101 hφ hacc (ix2 p a)
      = ∑ k : Fin 5, (C51.hit (L (ix2 p (⟨o + k.val, by have h1 : o + 5 ≤ 101 := hs.2 1; have := k.isLt; omega⟩ : Fin 101))) (BitVec.ofNat 32 a.val) (TL (ix2 p (⟨o + k.val, by have h1 : o + 5 ≤ 101 := hs.2 1; have := k.isLt; omega⟩ : Fin 101)))
          + C51.hit (U (ix2 p (⟨o + k.val, by have h1 : o + 5 ≤ 101 := hs.2 1; have := k.isLt; omega⟩ : Fin 101))) (BitVec.ofNat 32 a.val) (TH (ix2 p (⟨o + k.val, by have h1 : o + 5 ≤ 101 := hs.2 1; have := k.isLt; omega⟩ : Fin 101)))) := by
  rw [red5_apply]
  refine Finset.sum_congr rfl fun k _ => ?_
  rw [addf_apply, select_apply, select_apply, cmpi_apply, cmpi_apply, bcast5_apply, bcast5_apply, bcast5_apply,
    bcast5_apply, iota5_apply, slice5_apply, slice5_apply, slice5_apply, slice5_apply, broadcast_apply]
  rfl

/-! ## The 101 atoms in thirteen chunks -/

/-- A sum over `Fin (n + m)` is the sum over the first `n` indices plus the sum over the last `m`. -/
theorem sum_split {n m : ℕ} (g : Fin (n + m) → EReal) :
    ∑ j, g j = ∑ i : Fin n, g ⟨i.val, by omega⟩ + ∑ k : Fin m, g ⟨n + k.val, by omega⟩ :=
  Fin.sum_univ_add g

/-- The sum over the 101 atoms, cut into twelve chunks of eight and one of five. -/
theorem sum101 (g : Fin 101 → EReal) :
    ∑ j, g j = (∑ k : Fin 8, g ⟨0 + k.val, by omega⟩)
      + (∑ k : Fin 8, g ⟨8 + k.val, by omega⟩)
      + (∑ k : Fin 8, g ⟨16 + k.val, by omega⟩)
      + (∑ k : Fin 8, g ⟨24 + k.val, by omega⟩)
      + (∑ k : Fin 8, g ⟨32 + k.val, by omega⟩)
      + (∑ k : Fin 8, g ⟨40 + k.val, by omega⟩)
      + (∑ k : Fin 8, g ⟨48 + k.val, by omega⟩)
      + (∑ k : Fin 8, g ⟨56 + k.val, by omega⟩)
      + (∑ k : Fin 8, g ⟨64 + k.val, by omega⟩)
      + (∑ k : Fin 8, g ⟨72 + k.val, by omega⟩)
      + (∑ k : Fin 8, g ⟨80 + k.val, by omega⟩)
      + (∑ k : Fin 8, g ⟨88 + k.val, by omega⟩)
      + (∑ k : Fin 5, g ⟨96 + k.val, by omega⟩) := by
  have e96 : ∑ j, g j = ∑ i : Fin 96, g ⟨i.val, by omega⟩ + ∑ k : Fin 5, g ⟨96 + k.val, by omega⟩ :=
    sum_split (n := 96) (m := 5) g
  have e88 : ∑ i : Fin 96, g ⟨i.val, by omega⟩ = ∑ i : Fin 88, g ⟨i.val, by omega⟩ + ∑ k : Fin 8, g ⟨88 + k.val, by omega⟩ :=
    sum_split (n := 88) (m := 8) (fun i => g ⟨i.val, by omega⟩)
  have e80 : ∑ i : Fin 88, g ⟨i.val, by omega⟩ = ∑ i : Fin 80, g ⟨i.val, by omega⟩ + ∑ k : Fin 8, g ⟨80 + k.val, by omega⟩ :=
    sum_split (n := 80) (m := 8) (fun i => g ⟨i.val, by omega⟩)
  have e72 : ∑ i : Fin 80, g ⟨i.val, by omega⟩ = ∑ i : Fin 72, g ⟨i.val, by omega⟩ + ∑ k : Fin 8, g ⟨72 + k.val, by omega⟩ :=
    sum_split (n := 72) (m := 8) (fun i => g ⟨i.val, by omega⟩)
  have e64 : ∑ i : Fin 72, g ⟨i.val, by omega⟩ = ∑ i : Fin 64, g ⟨i.val, by omega⟩ + ∑ k : Fin 8, g ⟨64 + k.val, by omega⟩ :=
    sum_split (n := 64) (m := 8) (fun i => g ⟨i.val, by omega⟩)
  have e56 : ∑ i : Fin 64, g ⟨i.val, by omega⟩ = ∑ i : Fin 56, g ⟨i.val, by omega⟩ + ∑ k : Fin 8, g ⟨56 + k.val, by omega⟩ :=
    sum_split (n := 56) (m := 8) (fun i => g ⟨i.val, by omega⟩)
  have e48 : ∑ i : Fin 56, g ⟨i.val, by omega⟩ = ∑ i : Fin 48, g ⟨i.val, by omega⟩ + ∑ k : Fin 8, g ⟨48 + k.val, by omega⟩ :=
    sum_split (n := 48) (m := 8) (fun i => g ⟨i.val, by omega⟩)
  have e40 : ∑ i : Fin 48, g ⟨i.val, by omega⟩ = ∑ i : Fin 40, g ⟨i.val, by omega⟩ + ∑ k : Fin 8, g ⟨40 + k.val, by omega⟩ :=
    sum_split (n := 40) (m := 8) (fun i => g ⟨i.val, by omega⟩)
  have e32 : ∑ i : Fin 40, g ⟨i.val, by omega⟩ = ∑ i : Fin 32, g ⟨i.val, by omega⟩ + ∑ k : Fin 8, g ⟨32 + k.val, by omega⟩ :=
    sum_split (n := 32) (m := 8) (fun i => g ⟨i.val, by omega⟩)
  have e24 : ∑ i : Fin 32, g ⟨i.val, by omega⟩ = ∑ i : Fin 24, g ⟨i.val, by omega⟩ + ∑ k : Fin 8, g ⟨24 + k.val, by omega⟩ :=
    sum_split (n := 24) (m := 8) (fun i => g ⟨i.val, by omega⟩)
  have e16 : ∑ i : Fin 24, g ⟨i.val, by omega⟩ = ∑ i : Fin 16, g ⟨i.val, by omega⟩ + ∑ k : Fin 8, g ⟨16 + k.val, by omega⟩ :=
    sum_split (n := 16) (m := 8) (fun i => g ⟨i.val, by omega⟩)
  have e8 : ∑ i : Fin 16, g ⟨i.val, by omega⟩ = ∑ i : Fin 8, g ⟨i.val, by omega⟩ + ∑ k : Fin 8, g ⟨8 + k.val, by omega⟩ :=
    sum_split (n := 8) (m := 8) (fun i => g ⟨i.val, by omega⟩)
  have e0 : ∑ i : Fin 8, g ⟨i.val, by omega⟩ = ∑ k : Fin 8, g ⟨0 + k.val, by omega⟩ :=
    Finset.sum_congr rfl fun k _ => congrArg g (Fin.ext (Nat.zero_add _).symm)
  rw [e96, e88, e80, e72, e64, e56, e48, e40, e32, e24, e16, e8, e0]

/-! ## The accumulated array at (p, a) -/

/-- The stored value at (p, a) is the mass landing on atom `a` in row `p`: the start value is the zero word, each of the thirteen
    accumulation steps adds one chunk's sum, and the thirteen chunk sums together are the sum over all 101 source atoms. -/
theorem landing_apply (P B : FVec Ideal S256x101 .f32) (L0 U0 : IVec S256x101 32) (M : IVec S256x101 1) (p : Fin 256) (a : Fin 101) :
    landing P B L0 U0 M (ix2 p a) = C51.landed (fun j => k0_pay8 L0 M (ix2 p j)) (fun j => k0_pay9 L0 U0 100#32 (ix2 p j)) (fun j => k0_pay10 (F := Ideal) P B L0 U0 100#32 (ix2 p j)) (fun j => k0_pay11 (F := Ideal) P B L0 M (ix2 p j)) a := by
  unfold landing landingOf
  unfold k0_pay1 k0_pay12 k0_pay13 k0_pay14 k0_pay15 k0_pay16 k0_pay17 k0_pay18 k0_pay19 k0_pay20 k0_pay21 k0_pay22 k0_pay23
    k0_pay24 k0_pay25 k0_pay26 k0_pay27 k0_pay28 k0_pay29 k0_pay30 k0_pay31 k0_pay32 k0_pay33 k0_pay34 k0_pay35 k0_pay36 k0_pay37
  simp only [addf_apply, shapeCast_self, broadcast_apply]
  rw [chunk8, chunk8, chunk8, chunk8, chunk8, chunk8, chunk8, chunk8, chunk8, chunk8, chunk8, chunk8, chunk5]
  have hz : (FloatOps.ofBits (F := Ideal) FTy.f32 0x00000000#32) = (0 : EReal) := Ideal.ofBits_zero_f32
  rw [hz, zero_add]
  unfold C51.landed
  refine Eq.trans ?_ (sum101 _).symm
  rfl

end Cert.KernelIdeal.Landed

end
-- ==== Proof.KernelBody.lean ====
/-
  The value the idealized kernel's body leaves in its output block, row by row.

  The body stores one [256, 101] array: the landing sums over the 101 source atoms of the masses sent to each target
  atom, computed from the block's softmax distribution, grid positions and atom indices. Read at row `p` and atom
  `a` it is the row-level projection of row `p` of the blocks the body loads.
-/
import proofs.«141976_j712964571807_2_alg».proof.Proof.Gen.KernelIdeal.Frame
import proofs.«141976_j712964571807_2_alg».proof.Proof.KernelRow
import proofs.«141976_j712964571807_2_alg».proof.Proof.KernelLanded

noncomputable section

namespace Cert.KernelIdeal.BodyValue

open Cert.KernelIdeal Cert.KernelIdeal.Gen Idealize.ShloMosaic Idealize.ShloMosaic.ValueIdx

theorem hz2 : (![0, 0] : Fin 2 → Nat) = fun _ => 0 := funext fun a => by fin_cases a <;> rfl
theorem hz1 : (![0] : Fin 1 → Nat) = fun _ => 0 := funext fun a => by fin_cases a <;> rfl

/-- The one stored array is the landing chain of the block's distribution, positions, floors, ceilings and mask. -/
theorem out_eq_landing (x0 : Vec Ideal S256x48 .f32) (x1 : Vec Ideal S256x12 .f32) (x2 x3 x4 : Vec Ideal S256 .f32) (x5 : Vec Ideal S101 .f32)
    (x6 : Vec Ideal S60x1024 .bf16) (x7 : Vec Ideal S1x1024 .f32) (x8 : Vec Ideal S1024x512 .bf16) (x9 : Vec Ideal S1x512 .f32)
    (x10 : Vec Ideal S512x256 .bf16) (x11 : Vec Ideal S1x256 .f32) (x12 : Vec Ideal S256x101 .bf16) (x13 : Vec Ideal S1x101 .f32) :
    out0_14 (F := Ideal) x0 x1 x2 x3 x4 x5 x6 x7 x8 x9 x10 x11 x12 x13
      = Landed.landing (k0_pay3 (F := Ideal) (k0_pay2 x0 x1 x6 x7 x8 x9 x10 x11) x12 x13) (k0_pay4 x2 x3 x4 x5)
          (k0_pay5 x2 x3 x4 x5) (k0_pay6 x2 x3 x4 x5) (k0_pay7 x2 x3 x4 x5) := by
  unfold out0_14
  rw [View.canon_unit_zero hz2]
  simp only [View.ld_unit_zero (S := S256x48) hz2, View.ld_unit_zero (S := S256x12) hz2, View.ld_unit_zero (S := S60x1024) hz2,
    View.ld_unit_zero (S := S1x1024) hz2, View.ld_unit_zero (S := S1024x512) hz2, View.ld_unit_zero (S := S1x512) hz2,
    View.ld_unit_zero (S := S512x256) hz2, View.ld_unit_zero (S := S1x256) hz2, View.ld_unit_zero (S := S256x101) hz2,
    View.ld_unit_zero (S := S1x101) hz2, View.ld_unit_zero (S := S256) hz1, View.ld_unit_zero (S := S101) hz1]
  rfl

/-- The stored array at row `p` and atom `a`: the projection of row `p` of the loaded blocks. -/
theorem out_apply (x0 : Vec Ideal S256x48 .f32) (x1 : Vec Ideal S256x12 .f32) (x2 x3 x4 : Vec Ideal S256 .f32) (x5 : Vec Ideal S101 .f32)
    (x6 : Vec Ideal S60x1024 .bf16) (x7 : Vec Ideal S1x1024 .f32) (x8 : Vec Ideal S1024x512 .bf16) (x9 : Vec Ideal S1x512 .f32)
    (x10 : Vec Ideal S512x256 .bf16) (x11 : Vec Ideal S1x256 .f32) (x12 : Vec Ideal S256x101 .bf16) (x13 : Vec Ideal S1x101 .f32)
    (p : Fin 256) (a : Fin 101) :
    out0_14 (F := Ideal) x0 x1 x2 x3 x4 x5 x6 x7 x8 x9 x10 x11 x12 x13 (ix2 p a)
      = C51.rowG (fun k => x0 (ix2 p k)) (fun k => x1 (ix2 p k)) (x2 (ix1 p)) (x3 (ix1 p)) (x4 (ix1 p)) (fun j => x5 (ix1 j))
          (fun k n => x6 (ix2 k n)) (fun n => x7 (ix2 (0 : Fin 1) n)) (fun k n => x8 (ix2 k n)) (fun n => x9 (ix2 (0 : Fin 1) n))
          (fun k n => x10 (ix2 k n)) (fun n => x11 (ix2 (0 : Fin 1) n)) (fun k n => x12 (ix2 k n)) (fun n => x13 (ix2 (0 : Fin 1) n)) a := by
  rw [out_eq_landing, Landed.landing_apply]
  unfold C51.rowG
  simp only [RowValue.lower_apply, RowValue.upper_apply, RowValue.lowMass_apply, RowValue.highMass_apply, RowValue.dist_apply]

end Cert.KernelIdeal.BodyValue

end
-- ==== Proof.KernelValue.lean ====
/-
  The idealized kernel's run, read: the result array ends holding the row-by-row specification of the argument
  arrays. Point `t` of the grid writes back block `t` of it (the body's value on the blocks at `t`, each block read
  where the argument arrays hold it), and the 256 blocks of 256 rows tile the 65536 rows.
-/
import proofs.«141976_j712964571807_2_alg».proof.Proof.KernelArray
import proofs.«141976_j712964571807_2_alg».proof.Proof.KernelBody

noncomputable section

namespace Cert.KernelIdeal.ArrayValue

open Cert.KernelIdeal Cert.KernelIdeal.Gen Idealize.ShloMosaic Idealize.ShloMosaic.TcCoe Idealize.SL.Sem
open Idealize.ShloMosaic.ValueIdx
open Idealize.ShloMosaic.Pipeline (Dat)

variable (m : (ℓ : Loc nD τ sig) → Buf (Elt Ideal) ℓ) (ρ : Dev nD → PrngReg)

/-- The specification at the argument arrays as launched. -/
abbrev spec (c : Dev nD) : S65536x101.Idx → EReal :=
  C51.G (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) (m ((c : Thread nD τ).loc main_arg9)) (m ((c : Thread nD τ).loc main_arg10)) (m ((c : Thread nD τ).loc main_arg11)) (m ((c : Thread nD τ).loc main_arg12)) (m ((c : Thread nD τ).loc main_arg13))

/-- What point `t` writes back is block `t` of the specification. -/
theorem flushed_eq (c : Dev nD) (t : Fin cfg0.N) :
    (dats m 0 c).flushed 14 t = ((cfg0.win 14).blk t).view.read (Elt Ideal) (spec m c) := by
  rw [Value.flushed14]
  funext (y : S256x101.Idx)
  obtain ⟨p, a, rfl⟩ : ∃ (p : Fin 256) (a : Fin 101), y = ix2 p a := ⟨y 0, y 1, eq_ix2 y⟩
  have h0 := (idx_facts t).2.2.2.2.2.2.2.2.2.2.2.2.2.2.2.2.2.2.2.2.2.2.2.2.1
  have h1 := (idx_facts t).2.2.2.2.2.2.2.2.2.2.2.2.2.2.2.2.2.2.2.2.2.2.2.2.2
  have he : ((cfg0.win 14).blk t).view.emb (ix2 p a) = ix2 (row t p) a := by
    funext b
    apply Fin.ext
    match b with
    | ⟨0, _⟩ => show win0_14.index t (0 : Fin 2) * 256 + 1 * p.val = 256 * t.val + p.val; rw [h0]; omega
    | ⟨1, _⟩ => show win0_14.index t (1 : Fin 2) * 101 + 1 * a.val = a.val; rw [h1]; omega
  rw [View.read_apply, he]
  show out0_14 (F := Ideal) (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t) (iblk m c 13 t) (ix2 p a) = spec m c (ix2 (row t p) a)
  rw [BodyValue.out_apply]
  refine Eq.trans ?_ (C51.G_apply _ _ _ _ _ _ _ _ _ _ _ _ _ _ (row t p) a).symm
  simp only [blk0, blk1, blk2, blk3, blk4, blk5, blk6, blk7, blk8, blk9, blk10, blk11, blk12, blk13]

/-- Every row lies in the block of the point `row / 256`. -/
theorem cover (i : S65536x101.Idx) : ∃ t : Fin cfg0.N, (cfg0.win 14).flush t = true ∧ i ∈ ((cfg0.win 14).blk t).view.set := by
  have hi0 : (i 0).val < 65536 := (i 0).isLt
  have hi1 : (i 1).val < 101 := (i 1).isLt
  let t : Fin cfg0.N := ⟨(i 0).val / 256, by rw [show cfg0.N = 256 from N_0]; omega⟩
  have h0 := (idx_facts t).2.2.2.2.2.2.2.2.2.2.2.2.2.2.2.2.2.2.2.2.2.2.2.2.1
  have h1 := (idx_facts t).2.2.2.2.2.2.2.2.2.2.2.2.2.2.2.2.2.2.2.2.2.2.2.2.2
  refine ⟨t, flush0_14 t, ?_⟩
  show i ∈ ((View.whole main_v8).slice (win0_14.rect t)).set
  rw [View.set_slice_whole, Rect.mem_set_unit]
  intro b
  match b with
  | ⟨0, _⟩ => show win0_14.index t (0 : Fin 2) * 256 ≤ (i 0).val ∧ (i 0).val < win0_14.index t (0 : Fin 2) * 256 + 256
              rw [h0]; show (i 0).val / 256 * 256 ≤ (i 0).val ∧ (i 0).val < (i 0).val / 256 * 256 + 256; omega
  | ⟨1, _⟩ => show win0_14.index t (1 : Fin 2) * 101 ≤ (i 1).val ∧ (i 1).val < win0_14.index t (1 : Fin 2) * 101 + 101
              rw [h1]; omega

/-- The result array after the run is the specification. -/
theorem final (c : Dev nD) : (dats m 0 c).arrAt 14 cfg0.N = spec m c :=
  (dats m 0 c).arrAt_eq_of_cover 14 (spec m c) (fun t _ => flushed_eq m c t) (cover)

/-- The run, read: the result array at the specification of the arguments, the arguments unchanged. -/
theorem run : θ_run defs (onTc (τ := τ) (main (F := Ideal))) ⟨m, fun _ => 0, ρ⟩ fun r => ∀ c : Dev nD,
      r.2.mem ((c : Thread nD τ).loc main_v8) = spec m c
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3)
      ∧ r.2.mem ((c : Thread nD τ).loc main_arg4) = m ((c : Thread nD τ).loc main_arg4)
      ∧ r.2.mem ((c : Thread nD τ).loc main_arg5) = m ((c : Thread nD τ).loc main_arg5)
      ∧ r.2.mem ((c : Thread nD τ).loc main_arg6) = m ((c : Thread nD τ).loc main_arg6)
      ∧ r.2.mem ((c : Thread nD τ).loc main_arg7) = m ((c : Thread nD τ).loc main_arg7)
      ∧ r.2.mem ((c : Thread nD τ).loc main_arg8) = m ((c : Thread nD τ).loc main_arg8)
      ∧ r.2.mem ((c : Thread nD τ).loc main_arg9) = m ((c : Thread nD τ).loc main_arg9)
      ∧ r.2.mem ((c : Thread nD τ).loc main_arg10) = m ((c : Thread nD τ).loc main_arg10)
      ∧ r.2.mem ((c : Thread nD τ).loc main_arg11) = m ((c : Thread nD τ).loc main_arg11)
      ∧ r.2.mem ((c : Thread nD τ).loc main_arg12) = m ((c : Thread nD τ).loc main_arg12)
      ∧ r.2.mem ((c : Thread nD τ).loc main_arg13) = m ((c : Thread nD τ).loc main_arg13) :=
  (θ_run defs _ _).mono (fun r h c => ⟨(h c).1.trans (final m c), (h c).2⟩) (Value.run_blocks m ρ)

end Cert.KernelIdeal.ArrayValue

end
-- ==== Proof.RefRow.lean ====
/-
  The idealized reference program read one batch row at a time.

  Each stage of the straight-line reference that feeds its two scatter-adds is evaluated at an index built from a
  row `r` and an atom `j` and identified with the row-level function of `Cert.C51` that it computes: the zero-filled
  start array, the two row-index columns (the row's own number), the two atom-index columns (the lower and the
  upper neighbouring atom of the moved support point, an index below zero counted from the end), and the two mass
  arrays (the row's softmax mass at `j` split in proportion to the distances to the two atoms). On the way: the
  joined input row, the three rectified dense layers, the logits, their greatest element, the shifted exponentials,
  the softmax denominator and the softmax itself.
-/
import proofs.«141976_j712964571807_2_alg».proof.Proof.Gen.ReferenceIdeal.Read
import proofs.«141976_j712964571807_2_alg».proof.Proof.Projection
import Idealize.ShloMosaic.Lib.ValueIdx
import Idealize.ShloMosaic.PureOps.Ideal.Laws

noncomputable section

namespace Cert.ReferenceIdeal.RowValue

open Cert.ReferenceIdeal Cert.ReferenceIdeal.Read Idealize.ShloMosaic Idealize.ShloMosaic.ValueIdx

/-- The zero-filled array the scatters start from holds the zero word everywhere. -/
theorem zero_apply (i : S65536x101.Idx) : val_main_v66 (F := Ideal) i = C51.w0 := by
  rw [val_main_v66_apply, val_main_cst_9_apply]
  rfl

/-- A row number below 65536, as a 32-bit word read signed, is not negative, so counting a negative index from the
    end of the rows leaves it as it is. -/
theorem wrap_row (r : Fin 65536) :
    Scalar.select (IntOp.cmpi .slt (BitVec.ofNat 32 r.val) 0#32) (IntOp.addi (BitVec.ofNat 32 r.val) 65536#32) (BitVec.ofNat 32 r.val)
      = BitVec.ofNat 32 r.val := by
  have hn : (BitVec.ofNat 32 r.val).toNat = r.val := by
    rw [BitVec.toNat_ofNat]; exact Nat.mod_eq_of_lt (by omega)
  have hlt : (BitVec.ofNat 32 r.val).slt 0#32 = false := by
    simp only [BitVec.slt, BitVec.toInt_zero, decide_eq_false_iff_not, Int.not_lt]
    rw [BitVec.toInt_eq_toNat_cond, hn]
    split <;> omega
  show (if BitVec.ofBool ((BitVec.ofNat 32 r.val).slt 0#32) = 1 then _ else _) = _
  rw [hlt]
  rfl

variable (x0 : (⟨S65536x48, .f32⟩ : BufTy).Contents (Elt Ideal)) (x1 : (⟨S65536x12, .f32⟩ : BufTy).Contents (Elt Ideal))
  (x2 x3 x4 : (⟨S65536, .f32⟩ : BufTy).Contents (Elt Ideal)) (x5 : (⟨S101, .f32⟩ : BufTy).Contents (Elt Ideal))
  (x6 : (⟨S60x1024, .f32⟩ : BufTy).Contents (Elt Ideal)) (x7 : (⟨S1024, .f32⟩ : BufTy).Contents (Elt Ideal))
  (x8 : (⟨S1024x512, .f32⟩ : BufTy).Contents (Elt Ideal)) (x9 : (⟨S512, .f32⟩ : BufTy).Contents (Elt Ideal))
  (x10 : (⟨S512x256, .f32⟩ : BufTy).Contents (Elt Ideal)) (x11 : (⟨S256, .f32⟩ : BufTy).Contents (Elt Ideal))
  (x12 : (⟨S256x101, .f32⟩ : BufTy).Contents (Elt Ideal)) (x13 : (⟨S101, .f32⟩ : BufTy).Contents (Elt Ideal))
  (r : Fin 65536) (j : Fin 101)

/-- The row-index column of the first scatter: the row's own number. -/
theorem rowIdx_apply : val_main_v81 (F := Ideal) (ix3 r j (0 : Fin 1)) = BitVec.ofNat 32 r.val := by
  rw [val_main_v81_apply, val_main_v80_apply, val_main_v74_apply, val_main_v71_apply, val_main_v73_apply,
    val_main_v65_apply, val_main_v70_apply, val_main_v72_apply, val_main_v64_apply, val_main_c_10_apply, val_main_c_11_apply]
  exact wrap_row r

/-- The row-index column of the second scatter: the row's own number. -/
theorem rowIdx'_apply : val_main_v99 (F := Ideal) (ix3 r j (0 : Fin 1)) = BitVec.ofNat 32 r.val := by
  rw [val_main_v99_apply, val_main_v98_apply, val_main_v92_apply, val_main_v89_apply, val_main_v91_apply,
    val_main_v65_apply, val_main_v88_apply, val_main_v90_apply, val_main_v64_apply, val_main_c_14_apply, val_main_c_15_apply]
  exact wrap_row r

/-- The grid position of the row's moved and clipped support point `j`. -/
theorem bcoef_apply : val_main_v14 (F := Ideal) x2 x3 x4 x5 (ix2 r j)
    = C51.bcoef (x2 (ix1 r)) (x3 (ix1 r)) (x4 (ix1 r)) (x5 (ix1 j)) := by
  have e2 : idx_main_v0 (idx_main_v8 (ix2 r j)) = ix1 r := funext fun a => match a with | ⟨0, _⟩ => rfl
  have e3 : idx_main_v1 (idx_main_v5 (ix2 r j)) = ix1 r := funext fun a => match a with | ⟨0, _⟩ => rfl
  have e4 : idx_main_v2 (idx_main_v5 (ix2 r j)) = ix1 r := funext fun a => match a with | ⟨0, _⟩ => rfl
  have e5 : idx_main_v4 (idx_main_v6 (ix2 r j)) = ix1 j := funext fun a => match a with | ⟨0, _⟩ => rfl
  rw [val_main_v14_apply, val_main_v12_apply, val_main_v13_apply, val_main_cst_2_apply, val_main_v10_apply,
    val_main_v11_apply, val_main_cst_1_apply, val_main_call0_v4_apply, val_main_call0_v3_apply, val_main_cst_0_apply,
    val_main_call0_v2_apply, val_main_call0_v1_apply, val_main_call0_v0_apply, val_main_cst_apply, val_main_v9_apply,
    val_main_v8_apply, val_main_v0_apply, val_main_v7_apply, val_main_v5_apply, val_main_v3_apply, val_main_v1_apply,
    val_main_v2_apply, val_main_v6_apply, val_main_v4_apply, e2, e3, e4, e5]
  rfl

/-- The floor of the grid position as a 32-bit integer. -/
theorem lo0_apply : val_main_v16 (F := Ideal) x2 x3 x4 x5 (ix2 r j) = C51.lo0 (C51.bcoef (x2 (ix1 r)) (x3 (ix1 r)) (x4 (ix1 r)) (x5 (ix1 j))) := by
  rw [val_main_v16_apply, val_main_v15_apply, bcoef_apply]
  rfl

/-- The ceiling of the grid position as a 32-bit integer. -/
theorem hi0_apply : val_main_v18 (F := Ideal) x2 x3 x4 x5 (ix2 r j) = C51.hi0 (C51.bcoef (x2 (ix1 r)) (x3 (ix1 r)) (x4 (ix1 r)) (x5 (ix1 j))) := by
  rw [val_main_v18_apply, val_main_v17_apply, bcoef_apply]
  rfl

/-- The lower atom, before an index below zero is counted from the end. -/
theorem loIdx_apply : val_main_v29 (F := Ideal) x2 x3 x4 x5 (ix2 r j) = C51.loIdx (C51.bcoef (x2 (ix1 r)) (x3 (ix1 r)) (x4 (ix1 r)) (x5 (ix1 j))) := by
  rw [val_main_v29_apply, val_main_v22_apply, val_main_v20_apply, val_main_v21_apply, val_main_v28_apply,
    val_main_v19_apply, val_main_c_apply, val_main_v27_apply, val_main_c_4_apply, lo0_apply, hi0_apply]
  rfl

/-- The upper atom, before an index below zero is counted from the end. -/
theorem hiIdx_apply : val_main_v32 (F := Ideal) x2 x3 x4 x5 (ix2 r j) = C51.hiIdx (C51.bcoef (x2 (ix1 r)) (x3 (ix1 r)) (x4 (ix1 r)) (x5 (ix1 j))) := by
  rw [val_main_v32_apply, val_main_v26_apply, val_main_v24_apply, val_main_v25_apply, val_main_v31_apply,
    val_main_v23_apply, val_main_c_3_apply, val_main_v30_apply, val_main_c_5_apply, lo0_apply, hi0_apply]
  rfl

/-- The atom-index column of the first scatter: the lower atom, an index below zero counted from the end. -/
theorem lowerIdx_apply : val_main_v82 (F := Ideal) x2 x3 x4 x5 (ix3 r j (0 : Fin 1)) = C51.wrap101 (C51.loIdx (C51.bcoef (x2 (ix1 r)) (x3 (ix1 r)) (x4 (ix1 r)) (x5 (ix1 j)))) := by
  have e : idx_main_v82 (ix3 r j (0 : Fin 1)) = ix2 r j :=
    funext fun a => match a with | ⟨0, _⟩ => rfl | ⟨1, _⟩ => rfl
  rw [val_main_v82_apply, e, val_main_v79_apply, val_main_v76_apply, val_main_v78_apply, val_main_v75_apply,
    val_main_c_12_apply, val_main_v77_apply, val_main_c_13_apply, loIdx_apply]
  rfl

/-- The atom-index column of the second scatter: the upper atom, an index below zero counted from the end. -/
theorem upperIdx_apply : val_main_v100 (F := Ideal) x2 x3 x4 x5 (ix3 r j (0 : Fin 1)) = C51.wrap101 (C51.hiIdx (C51.bcoef (x2 (ix1 r)) (x3 (ix1 r)) (x4 (ix1 r)) (x5 (ix1 j)))) := by
  have e : idx_main_v100 (ix3 r j (0 : Fin 1)) = ix2 r j :=
    funext fun a => match a with | ⟨0, _⟩ => rfl | ⟨1, _⟩ => rfl
  rw [val_main_v100_apply, e, val_main_v97_apply, val_main_v94_apply, val_main_v96_apply, val_main_v93_apply,
    val_main_c_16_apply, val_main_v95_apply, val_main_c_17_apply, hiIdx_apply]
  rfl

/-- The joined input row: an observation entry below position 48, an action entry from there on. -/
theorem joined_apply (k : Fin 60) : val_main_v33 (F := Ideal) x0 x1 (ix2 r k) = C51.joined (fun k => x0 (ix2 r k)) (fun k => x1 (ix2 r k)) k := by
  unfold val_main_v33 C51.joined
  by_cases h : k.val < 48
  · rw [dif_pos h]
    exact concatenate_pair_apply_left _ x0 x1 _ (ix2 r k) rfl (ix2 r ⟨k.val, h⟩)
      (fun b => match b with | ⟨0, _⟩ => rfl | ⟨1, _⟩ => rfl)
  · rw [dif_neg h]
    exact concatenate_pair_apply_right _ x0 x1 _ (ix2 r k) rfl rfl (ix2 r ⟨k.val - 48, by omega⟩)
      (fun b hb => match b, hb with | ⟨0, _⟩, _ => rfl | ⟨1, _⟩, hb => absurd rfl hb)
      (by show (k.val - 48) + 48 = k.val; omega)

/-- The first hidden layer at unit `n`. -/
theorem layer1_apply (n : Fin 1024) : val_main_v38 (F := Ideal) x0 x1 x6 x7 (ix2 r n) = C51.relu (C51.affine (C51.joined (fun k => x0 (ix2 r k)) (fun k => x1 (ix2 r k))) (fun k n => x6 (ix2 k n)) (fun n => x7 (ix1 n)) n) := by
  have el : ∀ k : Fin 60, lidx_main_v34 (ix2 r n) k = ix2 r k := fun k => funext fun a => match a with | ⟨0, _⟩ => rfl | ⟨1, _⟩ => rfl
  have er : ∀ k : Fin 60, ridx_main_v34 (ix2 r n) k = ix2 k n := fun k => funext fun a => match a with | ⟨0, _⟩ => rfl | ⟨1, _⟩ => rfl
  have eb : idx_main_v35 (idx_main_v36 (ix2 r n)) = ix1 n := funext fun a => match a with | ⟨0, _⟩ => rfl
  rw [val_main_v38_apply, val_main_v37_apply, val_main_v34_apply, val_main_v36_apply, val_main_v35_apply,
    val_main_call3_v0_apply, val_main_call3_cst_apply, eb]
  simp only [el, er, joined_apply]
  rfl

/-- The second hidden layer at unit `n`. -/
theorem layer2_apply (n : Fin 512) : val_main_v43 (F := Ideal) x0 x1 x6 x7 x8 x9 (ix2 r n) = C51.relu (C51.affine (fun k0 => C51.relu (C51.affine (C51.joined (fun k => x0 (ix2 r k)) (fun k => x1 (ix2 r k))) (fun k n => x6 (ix2 k n)) (fun n => x7 (ix1 n)) k0)) (fun k n => x8 (ix2 k n)) (fun n => x9 (ix1 n)) n) := by
  have el : ∀ k : Fin 1024, lidx_main_v39 (ix2 r n) k = ix2 r k := fun k => funext fun a => match a with | ⟨0, _⟩ => rfl | ⟨1, _⟩ => rfl
  have er : ∀ k : Fin 1024, ridx_main_v39 (ix2 r n) k = ix2 k n := fun k => funext fun a => match a with | ⟨0, _⟩ => rfl | ⟨1, _⟩ => rfl
  have eb : idx_main_v40 (idx_main_v41 (ix2 r n)) = ix1 n := funext fun a => match a with | ⟨0, _⟩ => rfl
  rw [val_main_v43_apply, val_main_v42_apply, val_main_v39_apply, val_main_v41_apply, val_main_v40_apply,
    val_main_call4_v0_apply, val_main_call4_cst_apply, eb]
  simp only [el, er, layer1_apply]
  rfl

/-- The third hidden layer at unit `n`. -/
theorem layer3_apply (n : Fin 256) : val_main_v48 (F := Ideal) x0 x1 x6 x7 x8 x9 x10 x11 (ix2 r n) = C51.relu (C51.affine (fun k1 => C51.relu (C51.affine (fun k0 => C51.relu (C51.affine (C51.joined (fun k => x0 (ix2 r k)) (fun k => x1 (ix2 r k))) (fun k n => x6 (ix2 k n)) (fun n => x7 (ix1 n)) k0)) (fun k n => x8 (ix2 k n)) (fun n => x9 (ix1 n)) k1)) (fun k n => x10 (ix2 k n)) (fun n => x11 (ix1 n)) n) := by
  have el : ∀ k : Fin 512, lidx_main_v44 (ix2 r n) k = ix2 r k := fun k => funext fun a => match a with | ⟨0, _⟩ => rfl | ⟨1, _⟩ => rfl
  have er : ∀ k : Fin 512, ridx_main_v44 (ix2 r n) k = ix2 k n := fun k => funext fun a => match a with | ⟨0, _⟩ => rfl | ⟨1, _⟩ => rfl
  have eb : idx_main_v45 (idx_main_v46 (ix2 r n)) = ix1 n := funext fun a => match a with | ⟨0, _⟩ => rfl
  rw [val_main_v48_apply, val_main_v47_apply, val_main_v44_apply, val_main_v46_apply, val_main_v45_apply,
    val_main_call5_v0_apply, val_main_call5_cst_apply, eb]
  simp only [el, er, layer2_apply]
  rfl

/-- The row's logit `j`. -/
theorem logits_apply : val_main_v52 (F := Ideal) x0 x1 x6 x7 x8 x9 x10 x11 x12 x13 (ix2 r j) = (C51.logits (fun k => x0 (ix2 r k)) (fun k => x1 (ix2 r k)) (fun k n => x6 (ix2 k n)) (fun n => x7 (ix1 n)) (fun k n => x8 (ix2 k n)) (fun n => x9 (ix1 n)) (fun k n => x10 (ix2 k n)) (fun n => x11 (ix1 n)) (fun k n => x12 (ix2 k n)) (fun n => x13 (ix1 n))) j := by
  have el : ∀ k : Fin 256, lidx_main_v49 (ix2 r j) k = ix2 r k := fun k => funext fun a => match a with | ⟨0, _⟩ => rfl | ⟨1, _⟩ => rfl
  have er : ∀ k : Fin 256, ridx_main_v49 (ix2 r j) k = ix2 k j := fun k => funext fun a => match a with | ⟨0, _⟩ => rfl | ⟨1, _⟩ => rfl
  have eb : idx_main_v50 (idx_main_v51 (ix2 r j)) = ix1 j := funext fun a => match a with | ⟨0, _⟩ => rfl
  rw [val_main_v52_apply, val_main_v49_apply, val_main_v51_apply, val_main_v50_apply, eb]
  simp only [el, er, layer3_apply]
  rfl

/-- The row's greatest logit: the fold of `max` from −∞ over the 101 logits; taking the maximum with −∞ once more
    changes nothing, because −∞ is already below the fold that starts from it. -/
theorem rowMax_apply : val_main_v55 (F := Ideal) x0 x1 x6 x7 x8 x9 x10 x11 x12 x13 (ix1 r) = C51.rowMax (C51.logits (fun k => x0 (ix2 r k)) (fun k => x1 (ix2 r k)) (fun k n => x6 (ix2 k n)) (fun n => x7 (ix1 n)) (fun k n => x8 (ix2 k n)) (fun n => x9 (ix1 n)) (fun k n => x10 (ix2 k n)) (fun n => x11 (ix1 n)) (fun k n => x12 (ix2 k n)) (fun n => x13 (ix1 n))) := by
  have hy : ∀ k : Fin 101, val_main_v52 (F := Ideal) x0 x1 x6 x7 x8 x9 x10 x11 x12 x13 (ix2 r k) = (C51.logits (fun k => x0 (ix2 r k)) (fun k => x1 (ix2 r k)) (fun k n => x6 (ix2 k n)) (fun n => x7 (ix1 n)) (fun k n => x8 (ix2 k n)) (fun n => x9 (ix1 n)) (fun k n => x10 (ix2 k n)) (fun n => x11 (ix1 n)) (fun k n => x12 (ix2 k n)) (fun n => x13 (ix1 n))) k :=
    fun k => logits_apply x0 x1 x6 x7 x8 x9 x10 x11 x12 x13 r k
  rw [val_main_v55_apply, val_main_v54_apply, val_main_cst_7_apply]
  unfold val_main_v53
  generalize val_main_v52 (F := Ideal) x0 x1 x6 x7 x8 x9 x10 x11 x12 x13 = y at hy ⊢
  have h : S65536x101.Reduces [1] S65536 := by decide
  rw [Host.reduce_eq_fold_single (FloatOps.maximumf (F := Ideal) (φ := .f32)) y (val_main_cst_6 (F := Ideal))
    Gen.reducesTo_S65536x101_S65536_d1 h Gen.h_S_ (ix1 r)]
  have hf : (y ∘ h.lift (ix1 r)) = fun k : Fin 101 => (C51.logits (fun k => x0 (ix2 r k)) (fun k => x1 (ix2 r k)) (fun k n => x6 (ix2 k n)) (fun n => x7 (ix1 n)) (fun k n => x8 (ix2 k n)) (fun n => x9 (ix1 n)) (fun k n => x10 (ix2 k n)) (fun n => x11 (ix1 n)) (fun k n => x12 (ix2 k n)) (fun n => x13 (ix1 n))) k := funext fun k => by
    show y (h.lift (ix1 r) k) = _
    rw [← hy k]
    exact congrArg y (funext fun c => Fin.ext (by match c with | ⟨0, _⟩ => rfl | ⟨1, _⟩ => rfl))
  rw [hf]
  exact max_eq_right ((Finset.le_fold_max _).2 (Or.inl le_rfl))

/-- `exp (logit j − greatest logit)`. -/
theorem shifted_apply : val_main_v59 (F := Ideal) x0 x1 x6 x7 x8 x9 x10 x11 x12 x13 (ix2 r j) = C51.shifted (C51.logits (fun k => x0 (ix2 r k)) (fun k => x1 (ix2 r k)) (fun k n => x6 (ix2 k n)) (fun n => x7 (ix1 n)) (fun k n => x8 (ix2 k n)) (fun n => x9 (ix1 n)) (fun k n => x10 (ix2 k n)) (fun n => x11 (ix1 n)) (fun k n => x12 (ix2 k n)) (fun n => x13 (ix1 n))) j := by
  have e : idx_main_v56 (idx_main_v57 (ix2 r j)) = ix1 r := funext fun a => match a with | ⟨0, _⟩ => rfl
  rw [val_main_v59_apply, val_main_v58_apply, val_main_v57_apply, val_main_v56_apply, e, rowMax_apply, logits_apply]
  rfl

/-- The softmax denominator of the row; the zero word the sum starts from is 0. -/
theorem denom_apply : val_main_v60 (F := Ideal) x0 x1 x6 x7 x8 x9 x10 x11 x12 x13 (ix1 r) = ∑ k : Fin 101, C51.shifted (C51.logits (fun k => x0 (ix2 r k)) (fun k => x1 (ix2 r k)) (fun k n => x6 (ix2 k n)) (fun n => x7 (ix1 n)) (fun k n => x8 (ix2 k n)) (fun n => x9 (ix1 n)) (fun k n => x10 (ix2 k n)) (fun n => x11 (ix1 n)) (fun k n => x12 (ix2 k n)) (fun n => x13 (ix1 n))) k := by
  have e : ∀ k : Fin 101, idx_main_v60 (ix1 r) k = ix2 r k := fun k => funext fun a => match a with | ⟨0, _⟩ => rfl | ⟨1, _⟩ => rfl
  rw [val_main_v60_apply, val_main_cst_8_apply]
  simp only [e, shifted_apply]
  show Ideal.ofBits .f32 0x00000000#32 + _ = _
  rw [Ideal.ofBits_zero_f32, zero_add]

/-- The row's next-state distribution at atom `j`. -/
theorem dist_apply : val_main_v63 (F := Ideal) x0 x1 x6 x7 x8 x9 x10 x11 x12 x13 (ix2 r j) = C51.dist (C51.logits (fun k => x0 (ix2 r k)) (fun k => x1 (ix2 r k)) (fun k n => x6 (ix2 k n)) (fun n => x7 (ix1 n)) (fun k n => x8 (ix2 k n)) (fun n => x9 (ix1 n)) (fun k n => x10 (ix2 k n)) (fun n => x11 (ix1 n)) (fun k n => x12 (ix2 k n)) (fun n => x13 (ix1 n))) j := by
  have e : idx_main_v61 (idx_main_v62 (ix2 r j)) = ix1 r := funext fun a => match a with | ⟨0, _⟩ => rfl
  rw [val_main_v63_apply, val_main_v62_apply, val_main_v61_apply, e, denom_apply, shifted_apply]
  rfl

/-- The mass sent to the lower atom. -/
theorem lowMass_apply : val_main_v69 (F := Ideal) x0 x1 x2 x3 x4 x5 x6 x7 x8 x9 x10 x11 x12 x13 (ix2 r j)
    = C51.loW (C51.dist (C51.logits (fun k => x0 (ix2 r k)) (fun k => x1 (ix2 r k)) (fun k n => x6 (ix2 k n)) (fun n => x7 (ix1 n)) (fun k n => x8 (ix2 k n)) (fun n => x9 (ix1 n)) (fun k n => x10 (ix2 k n)) (fun n => x11 (ix1 n)) (fun k n => x12 (ix2 k n)) (fun n => x13 (ix1 n))) j) (C51.bcoef (x2 (ix1 r)) (x3 (ix1 r)) (x4 (ix1 r)) (x5 (ix1 j))) := by
  rw [val_main_v69_apply, val_main_v68_apply, val_main_v67_apply, dist_apply, hiIdx_apply, bcoef_apply]
  rfl

/-- The mass sent to the upper atom. -/
theorem highMass_apply : val_main_v87 (F := Ideal) x0 x1 x2 x3 x4 x5 x6 x7 x8 x9 x10 x11 x12 x13 (ix2 r j)
    = C51.hiW (C51.dist (C51.logits (fun k => x0 (ix2 r k)) (fun k => x1 (ix2 r k)) (fun k n => x6 (ix2 k n)) (fun n => x7 (ix1 n)) (fun k n => x8 (ix2 k n)) (fun n => x9 (ix1 n)) (fun k n => x10 (ix2 k n)) (fun n => x11 (ix1 n)) (fun k n => x12 (ix2 k n)) (fun n => x13 (ix1 n))) j) (C51.bcoef (x2 (ix1 r)) (x3 (ix1 r)) (x4 (ix1 r)) (x5 (ix1 j))) := by
  rw [val_main_v87_apply, val_main_v86_apply, val_main_v85_apply, dist_apply, loIdx_apply, bcoef_apply]
  rfl

end Cert.ReferenceIdeal.RowValue

end
-- ==== Proof.RefLanded.lean ====
/-
  The reference's accumulating scatter, read at one element.

  The operand and the updates are [65536, 101] arrays; update position (r', j) carries the index vector
  (R[r', j], I[r', j]), the two [65536, 101, 1] pieces joined on the last axis. When R[r', j] is the row r' itself and
  I[r', j] is an atom below 101, both components are in range read as signed integers, so the update lands on the
  operand element (r', I[r', j]). The element (r, a) therefore receives exactly the updates (r, j) with I[r, j] = a:
  its value is the operand there plus the sum over the row's 101 positions of the update where the atom index is a,
  and zero elsewhere.
-/
import proofs.«141976_j712964571807_2_alg».proof.ReferenceIdeal
import proofs.«141976_j712964571807_2_alg».proof.Proof.Projection
import Idealize.ShloMosaic.PureOps.Ideal
import Idealize.ShloMosaic.PureOps.Ideal.Laws
import Idealize.ShloMosaic.Lib.ValueIdx
import Idealize.ShloMosaic.Lib.Pipeline.Value

noncomputable section

namespace Cert.ReferenceIdeal.Landed

open Cert.ReferenceIdeal Idealize.ShloMosaic Idealize.ShloMosaic.ValueIdx

variable [Facts₀]
open Facts₀

/-- The scatter-index position at which update position (r', j) reads component c of its index vector. -/
theorem siIdx_eq (r' : Fin 65536) (j : Fin 101) (c : Fin 2) :
    scatter_S65536x101_S65536x101x2_S65536x101_n_01_01_2.siIdx (ix2 r' j) ⟨c.val, c.isLt⟩ = ix3 r' j c := by
  funext b
  match b with
  | ⟨0, _⟩ => rfl
  | ⟨1, _⟩ => rfl
  | ⟨2, _⟩ => rfl

/-- The window start on the row axis is component 0 of the index vector, read signed. -/
theorem start_zero (idx : IVec S65536x101x2 32) (r' : Fin 65536) (j : Fin 101) :
    scatter_S65536x101_S65536x101x2_S65536x101_n_01_01_2.start (ix2 r' j) idx (0 : Fin 2) = (idx (ix3 r' j (0 : Fin 2))).toInt := by
  rw [← siIdx_eq r' j 0]; rfl

/-- The window start on the atom axis is component 1 of the index vector, read signed. -/
theorem start_one (idx : IVec S65536x101x2 32) (r' : Fin 65536) (j : Fin 101) :
    scatter_S65536x101_S65536x101x2_S65536x101_n_01_01_2.start (ix2 r' j) idx (1 : Fin 2) = (idx (ix3 r' j (1 : Fin 2))).toInt := by
  rw [← siIdx_eq r' j 1]; rfl

/-- Both operand axes are inserted, so the window coordinate is zero on each. -/
theorem window_eq (u : S65536x101.Idx) (a : Fin 2) : scatter_S65536x101_S65536x101x2_S65536x101_n_01_01_2.window u a = 0 := by
  match a with
  | ⟨0, _⟩ => rfl
  | ⟨1, _⟩ => rfl

/-- An update position whose index vector is (n0, n1), both in range, lands on the operand element (n0, n1). -/
theorem resultIdx_eq (idx : IVec S65536x101x2 32) (r' : Fin 65536) (j : Fin 101) (n0 : Fin 65536) (n1 : Fin 101)
    (h0 : (idx (ix3 r' j (0 : Fin 2))).toInt = (n0.val : Int))
    (h1 : (idx (ix3 r' j (1 : Fin 2))).toInt = (n1.val : Int)) :
    scatter_S65536x101_S65536x101x2_S65536x101_n_01_01_2.resultIdx? (ix2 r' j) idx = some (ix2 n0 n1) := by
  have hs0 : scatter_S65536x101_S65536x101x2_S65536x101_n_01_01_2.start (ix2 r' j) idx (0 : Fin 2) + (scatter_S65536x101_S65536x101x2_S65536x101_n_01_01_2.window (ix2 r' j) (0 : Fin 2) : Int) = (n0.val : Int) := by
    rw [start_zero, window_eq, h0]; simp
  have hs1 : scatter_S65536x101_S65536x101x2_S65536x101_n_01_01_2.start (ix2 r' j) idx (1 : Fin 2) + (scatter_S65536x101_S65536x101x2_S65536x101_n_01_01_2.window (ix2 r' j) (1 : Fin 2) : Int) = (n1.val : Int) := by
    rw [start_one, window_eq, h1]; simp
  have z0 : S65536x101.size (0 : Fin 2) = 65536 := rfl
  have z1 : S65536x101.size (1 : Fin 2) = 101 := rfl
  have H : ∀ a : Fin S65536x101.rank, 0 ≤ scatter_S65536x101_S65536x101x2_S65536x101_n_01_01_2.start (ix2 r' j) idx a + (scatter_S65536x101_S65536x101x2_S65536x101_n_01_01_2.window (ix2 r' j) a : Int) ∧
      scatter_S65536x101_S65536x101x2_S65536x101_n_01_01_2.start (ix2 r' j) idx a + (scatter_S65536x101_S65536x101x2_S65536x101_n_01_01_2.window (ix2 r' j) a : Int) < S65536x101.size a := by
    intro a
    match a with
    | ⟨0, _⟩ =>
      have e : (⟨0, by decide⟩ : Fin S65536x101.rank) = (0 : Fin 2) := rfl
      rw [e, hs0, z0]; have := n0.isLt; omega
    | ⟨1, _⟩ =>
      have e : (⟨1, by decide⟩ : Fin S65536x101.rank) = (1 : Fin 2) := rfl
      rw [e, hs1, z1]; have := n1.isLt; omega
  rw [ScatterDims.resultIdx?, dif_pos H]
  congr 1
  funext a
  match a with
  | ⟨0, _⟩ =>
    apply Fin.ext
    have e : (⟨0, by decide⟩ : Fin S65536x101.rank) = (0 : Fin 2) := rfl
    show (scatter_S65536x101_S65536x101x2_S65536x101_n_01_01_2.start (ix2 r' j) idx (⟨0, by decide⟩ : Fin S65536x101.rank) + (scatter_S65536x101_S65536x101x2_S65536x101_n_01_01_2.window (ix2 r' j) (⟨0, by decide⟩ : Fin S65536x101.rank) : Int)).toNat = n0.val
    rw [e, hs0]; simp
  | ⟨1, _⟩ =>
    apply Fin.ext
    have e : (⟨1, by decide⟩ : Fin S65536x101.rank) = (1 : Fin 2) := rfl
    show (scatter_S65536x101_S65536x101x2_S65536x101_n_01_01_2.start (ix2 r' j) idx (⟨1, by decide⟩ : Fin S65536x101.rank) + (scatter_S65536x101_S65536x101x2_S65536x101_n_01_01_2.window (ix2 r' j) (⟨1, by decide⟩ : Fin S65536x101.rank) : Int)).toNat = n1.val
    rw [e, hs1]; simp

/-- Component 0 of the index vector at (r', j) is the first piece there. -/
theorem cat_zero (R I : IVec S65536x101x1 32) (r' : Fin 65536) (j : Fin 101) :
    (concatenate S65536x101x2 2 [⟨S65536x101x1, R⟩, ⟨S65536x101x1, I⟩] concatenates_S65536x101x1_S65536x101x1_S65536x101x2_d2) (ix3 r' j (0 : Fin 2)) = R (ix3 r' j (0 : Fin 1)) := by
  refine concatenate_pair_apply_left (t := S65536x101x2) (s₁ := S65536x101x1) (s₂ := S65536x101x1) 2 R I _ _ rfl _ ?_
  intro b
  match b with
  | ⟨0, _⟩ => rfl
  | ⟨1, _⟩ => rfl
  | ⟨2, _⟩ => rfl

/-- Component 1 of the index vector at (r', j) is the second piece there. -/
theorem cat_one (R I : IVec S65536x101x1 32) (r' : Fin 65536) (j : Fin 101) :
    (concatenate S65536x101x2 2 [⟨S65536x101x1, R⟩, ⟨S65536x101x1, I⟩] concatenates_S65536x101x1_S65536x101x1_S65536x101x2_d2) (ix3 r' j (1 : Fin 2)) = I (ix3 r' j (0 : Fin 1)) := by
  refine concatenate_pair_apply_right (t := S65536x101x2) (s₁ := S65536x101x1) (s₂ := S65536x101x1) 2 R I _ _ rfl rfl _ ?_ ?_
  · intro b hb
    match b, hb with
    | ⟨0, _⟩, _ => rfl
    | ⟨1, _⟩, _ => rfl
    | ⟨2, _⟩, hb => exact absurd rfl hb
  · rfl

/-- A natural number below 65536, as a 32-bit word read signed, is itself. -/
theorem toInt_ofNat_small (n : Nat) (h : n < 65536) : (BitVec.ofNat 32 n).toInt = (n : Int) := by
  rw [BitVec.toInt_eq_toNat_cond, BitVec.toNat_ofNat]
  have e : n % 2 ^ 32 = n := Nat.mod_eq_of_lt (by omega)
  rw [e, if_pos (by omega)]

/-- Two natural numbers below 65536 with the same 32-bit word are equal. -/
theorem ofNat_inj_small (n m : Nat) (hn : n < 65536) (hm : m < 65536) (h : BitVec.ofNat 32 n = BitVec.ofNat 32 m) : n = m := by
  have := congrArg BitVec.toNat h
  rw [BitVec.toNat_ofNat, BitVec.toNat_ofNat, Nat.mod_eq_of_lt (by omega), Nat.mod_eq_of_lt (by omega)] at this
  exact this

/-- A hit is the value when the two indices agree and zero otherwise. -/
theorem hit_eq (i a : BitVec 32) (v : EReal) : C51.hit i a v = if i = a then v else 0 := by
  unfold C51.hit
  by_cases h : i = a
  · rw [if_pos h, h]
    have : IntOp.cmpi .eq a a = 1#1 := by simp [IntOp.cmpi]
    rw [this, select_one]
  · rw [if_neg h]
    have hb : (i == a) = false := by simpa using h
    have : IntOp.cmpi .eq i a = 0#1 := by simp [IntOp.cmpi, hb]
    rw [this, select_zero]
    exact Ideal.ofBits_zero_f32

/-- The reference's accumulating scatter read at one element: the operand there plus the updates of the same row whose
    atom index is that element's atom. Update position (r', j) carries the index vector (r', n) with n < 101, in range
    on both axes, so it lands on (r', n); the updates that reach (r, a) are therefore the (r, j) with I(r, j) = a. -/
theorem scatter_apply (X T : FVec Ideal S65536x101 .f32) (R I : IVec S65536x101x1 32)
    (hR : ∀ (r : Fin 65536) (j : Fin 101), R (ix3 r j (0 : Fin 1)) = BitVec.ofNat 32 r.val)
    (hI : ∀ (r : Fin 65536) (j : Fin 101), ∃ n : Fin 101, I (ix3 r j (0 : Fin 1)) = BitVec.ofNat 32 n.val)
    (r : Fin 65536) (a : Fin 101) :
    Host.scatterAdd (F := Ideal) scatter_S65536x101_S65536x101x2_S65536x101_n_01_01_2 X
        (concatenate S65536x101x2 2 [⟨S65536x101x1, R⟩, ⟨S65536x101x1, I⟩] concatenates_S65536x101x1_S65536x101x1_S65536x101x2_d2) T (ix2 r a)
      = X (ix2 r a) + ∑ j : Fin 101, C51.hit (I (ix3 r j (0 : Fin 1))) (BitVec.ofNat 32 a.val) (T (ix2 r j)) := by
  have c0 : ∀ (r' : Fin 65536) (j : Fin 101), (concatenate S65536x101x2 2 [⟨S65536x101x1, R⟩, ⟨S65536x101x1, I⟩] concatenates_S65536x101x1_S65536x101x1_S65536x101x2_d2) (ix3 r' j (0 : Fin 2)) = R (ix3 r' j (0 : Fin 1)) := cat_zero R I
  have c1 : ∀ (r' : Fin 65536) (j : Fin 101), (concatenate S65536x101x2 2 [⟨S65536x101x1, R⟩, ⟨S65536x101x1, I⟩] concatenates_S65536x101x1_S65536x101x1_S65536x101x2_d2) (ix3 r' j (1 : Fin 2)) = I (ix3 r' j (0 : Fin 1)) := cat_one R I
  generalize (concatenate S65536x101x2 2 [⟨S65536x101x1, R⟩, ⟨S65536x101x1, I⟩] concatenates_S65536x101x1_S65536x101x1_S65536x101x2_d2) = idx at c0 c1 ⊢
  -- which update positions land on (r, a)
  have key : ∀ (r' : Fin 65536) (j : Fin 101),
      (scatter_S65536x101_S65536x101x2_S65536x101_n_01_01_2.resultIdx? (ix2 r' j) idx = some (ix2 r a)) ↔ (r' = r ∧ I (ix3 r' j (0 : Fin 1)) = BitVec.ofNat 32 a.val) := by
    intro r' j
    obtain ⟨n, hn⟩ := hI r' j
    have hr' := r'.isLt
    have hn' := n.isLt
    have ha' := a.isLt
    rw [resultIdx_eq idx r' j r' n (by rw [c0, hR, toInt_ofNat_small _ hr']) (by rw [c1, hn, toInt_ofNat_small _ (by omega)]), hn]
    constructor
    · intro h
      have h' := Option.some.inj h
      have e0 : r' = r := congrFun h' (0 : Fin 2)
      have e1 : n = a := congrFun h' (1 : Fin 2)
      exact ⟨e0, by rw [e1]⟩
    · rintro ⟨e0, h⟩
      have e1 : n = a := Fin.ext (ofNat_inj_small _ _ (by omega) (by omega) h)
      rw [e0, e1]
  show Ideal.hostScatterAdd scatter_S65536x101_S65536x101x2_S65536x101_n_01_01_2 X idx T (ix2 r a) = _
  unfold Ideal.hostScatterAdd
  refine congrArg (fun s => X (ix2 r a) + s) ?_
  rw [Finset.sum_filter, sum_idx2]
  rw [Finset.sum_eq_single r]
  · refine Finset.sum_congr rfl fun j _ => ?_
    rw [hit_eq]
    by_cases h : I (ix3 r j (0 : Fin 1)) = BitVec.ofNat 32 a.val
    · rw [if_pos h, if_pos ((key r j).2 ⟨rfl, h⟩)]
    · rw [if_neg h, if_neg (fun hh => h ((key r j).1 hh).2)]
  · intro r' _ hne
    refine Finset.sum_eq_zero fun j _ => ?_
    rw [if_neg (fun hh => hne ((key r' j).1 hh).1)]
  · intro h; exact absurd (Finset.mem_univ r) h

end Cert.ReferenceIdeal.Landed

end
-- ==== Proof.AtomRange.lean ====
/-
  The atom indices stay on the grid.

  The moved support point is clipped to [-10, 10] whatever the row's data (an infinite value is clipped too), so the
  grid position `b = (clip + 10) / δ` is a real number in [0, 20/δ], and 20/δ < 100 for `δ` the float nearest 0.2
  (δ = 13421773 / 2^26 > 0.2). Hence `⌊b⌋ ∈ [0, 99]` and `⌈b⌉ ∈ [0, 100]`; the lower atom is `⌊b⌋`, or `⌊b⌋ − 1` only
  when `⌈b⌉ > 0` and `⌊b⌋ = ⌈b⌉` (so `⌊b⌋ ≥ 1`); the upper atom is `⌈b⌉`, or `⌈b⌉ + 1` only when `⌊b⌋ = ⌈b⌉ ≤ 99`.
  Both are therefore the 32-bit words of natural numbers at most 100, which are not negative as signed integers:
  counting a negative index from the end of the 101 atoms leaves them as they are.
-/
import Idealize.ShloMosaic.Lib.Affine
import Idealize.ShloMosaic.Lib.ValueIdx
import proofs.«141976_j712964571807_2_alg».proof.Proof.Projection

noncomputable section

namespace Cert.C51

open Idealize.ShloMosaic

/-- The words −10, 10 and the float nearest 0.2, as the reals they denote. -/
theorem wLo_eq : wLo = ((-10 : ℝ) : EReal) := by
  simp [wLo, Ideal.ofBits, Ideal.ieee, -EReal.coe_mul]; norm_num

theorem wHi_eq : wHi = ((10 : ℝ) : EReal) := by
  simp [wHi, Ideal.ofBits, Ideal.ieee, -EReal.coe_mul]; norm_num

theorem wDz_eq : wDz = ((13421773 / 67108864 : ℝ) : EReal) := by
  simp [wDz, Ideal.ofBits, Ideal.ieee, -EReal.coe_mul]; norm_num

/-- Clipping any extended real to [-10, 10] gives a real number in that interval. -/
theorem clip_real (z : EReal) : ∃ c : ℝ, min ((10 : ℝ) : EReal) (max ((-10 : ℝ) : EReal) z) = (c : EReal) ∧ -10 ≤ c ∧ c ≤ 10 := by
  induction z using EReal.rec with
  | bot => exact ⟨-10, by rw [max_eq_left bot_le, min_eq_right (by exact_mod_cast (by norm_num : (-10 : ℝ) ≤ 10))], le_refl _, by norm_num⟩
  | coe x =>
    refine ⟨min 10 (max (-10) x), ?_, ?_, min_le_left _ _⟩
    · rw [EReal.coe_strictMono.monotone.map_min, EReal.coe_strictMono.monotone.map_max]
    · exact le_min (by norm_num) (le_max_left _ _)
  | top => exact ⟨10, by rw [max_eq_right le_top, min_eq_left le_top], by norm_num, le_refl _⟩

/-- The grid position is a real number in [0, 100). -/
theorem bcoef_range (r g d q : EReal) : ∃ x : ℝ, bcoef r g d q = (x : EReal) ∧ 0 ≤ x ∧ x < 100 := by
  unfold bcoef
  rw [wLo_eq, wHi_eq, wDz_eq]
  obtain ⟨c, hc, hc0, hc1⟩ := clip_real (r + g * d * q)
  rw [hc, Ideal.div_coe (by norm_num : (13421773 / 67108864 : ℝ) ≠ 0)]
  refine ⟨(c - -10) * (1 / (13421773 / 67108864)), ?_, ?_, ?_⟩
  · rw [← EReal.coe_sub, ← EReal.coe_mul]
  · apply mul_nonneg <;> [linarith; norm_num]
  · have : (c - -10) ≤ 20 := by linarith
    calc (c - -10) * (1 / (13421773 / 67108864)) ≤ 20 * (1 / (13421773 / 67108864)) :=
          mul_le_mul_of_nonneg_right this (by norm_num)
      _ < 100 := by norm_num

/-- An integer in [0, 100], as a float, converts to its own 32-bit word. -/
theorem fptosi_int (k : ℤ) (h0 : 0 ≤ k) (h1 : k ≤ 100) : Ideal.fptosi 32 (((k : ℝ)) : EReal) = BitVec.ofInt 32 k := by
  rw [Ideal.fptosi, Ideal.toIntClamped_coe]
  congr 1
  simp only [Int.floor_intCast, Int.ceil_intCast, ite_self]
  norm_num
  omega

/-- The 32-bit word of an integer in [0, 100] is that of its natural number, and reads back as the integer. -/
theorem ofInt_small (k : ℤ) (h0 : 0 ≤ k) (h1 : k ≤ 100) :
    BitVec.ofInt 32 k = BitVec.ofNat 32 k.toNat ∧ (BitVec.ofInt 32 k).toInt = k := by
  obtain ⟨n, rfl⟩ := Int.eq_ofNat_of_zero_le h0
  have hn : n ≤ 100 := by omega
  refine ⟨by simp, ?_⟩
  rw [show BitVec.ofInt 32 (n : ℤ) = BitVec.ofNat 32 n from by simp, BitVec.toInt_eq_toNat_cond, BitVec.toNat_ofNat,
    Nat.mod_eq_of_lt (by omega), if_pos (by omega)]

/-! ## Words of small natural numbers -/

theorem toInt_ofNat_le (n : ℕ) (h : n ≤ 101) : (BitVec.ofNat 32 n).toInt = (n : ℤ) := by
  rw [BitVec.toInt_eq_toNat_cond, BitVec.toNat_ofNat, Nat.mod_eq_of_lt (by omega), if_pos (by omega)]

theorem ofNat_inj_le (n k : ℕ) (hn : n ≤ 101) (hk : k ≤ 101) (h : BitVec.ofNat 32 n = BitVec.ofNat 32 k) : n = k := by
  have := congrArg BitVec.toNat h
  rwa [BitVec.toNat_ofNat, BitVec.toNat_ofNat, Nat.mod_eq_of_lt (by omega), Nat.mod_eq_of_lt (by omega)] at this

theorem ofNat_sub_one (n : ℕ) (h1 : 1 ≤ n) (h : n ≤ 101) : IntOp.subi (BitVec.ofNat 32 n) 1#32 = BitVec.ofNat 32 (n - 1) := by
  apply BitVec.eq_of_toNat_eq
  show (BitVec.ofNat 32 n - 1#32).toNat = (BitVec.ofNat 32 (n - 1)).toNat
  simp only [BitVec.toNat_sub, BitVec.toNat_ofNat]
  omega

theorem ofNat_add_one (n : ℕ) (h : n ≤ 100) : IntOp.addi (BitVec.ofNat 32 n) 1#32 = BitVec.ofNat 32 (n + 1) := by
  apply BitVec.eq_of_toNat_eq
  show (BitVec.ofNat 32 n + 1#32).toNat = (BitVec.ofNat 32 (n + 1)).toNat
  simp only [BitVec.toNat_add, BitVec.toNat_ofNat]
  omega

/-- Counting a negative index from the end leaves the word of a natural number at most 100 as it is. -/
theorem wrap101_ofNat (n : ℕ) (h : n ≤ 100) : wrap101 (BitVec.ofNat 32 n) = BitVec.ofNat 32 n := by
  unfold wrap101
  have hn : ¬ IntOp.cmpi .slt (BitVec.ofNat 32 n) 0#32 = 1#1 := by
    rw [IntOp.cmpi_slt, toInt_ofNat_le n (by omega)]
    have : (0#32 : BitVec 32).toInt = 0 := by decide
    rw [this]; omega
  rw [ValueIdx.eq_zero_of_ne_one hn, ValueIdx.select_zero]

/-! ## The two atoms, over the floor `f ≤ 99` and the ceiling `g ≤ 100` of the position -/

theorem lower_atom (f g : ℕ) (hf : f ≤ 99) (hg : g ≤ 100) :
    ∃ n : Fin 101, Scalar.select (IntOp.andi (IntOp.cmpi .sgt (BitVec.ofNat 32 g) 0#32) (IntOp.cmpi .eq (BitVec.ofNat 32 f) (BitVec.ofNat 32 g)))
      (IntOp.subi (BitVec.ofNat 32 f) 1#32) (BitVec.ofNat 32 f) = BitVec.ofNat 32 n.val := by
  by_cases hm : IntOp.andi (IntOp.cmpi .sgt (BitVec.ofNat 32 g) 0#32) (IntOp.cmpi .eq (BitVec.ofNat 32 f) (BitVec.ofNat 32 g)) = 1#1
  · rw [hm, ValueIdx.select_one]
    obtain ⟨hgt, heq⟩ := IntOp.andi_eq_one.mp hm
    have hfg : f = g := ofNat_inj_le f g (by omega) (by omega) (IntOp.cmpi_eq.mp heq)
    have hpos : 0 < g := by
      have h := IntOp.cmpi_sgt.mp hgt
      rw [toInt_ofNat_le g (by omega)] at h
      have : (0#32 : BitVec 32).toInt = 0 := by decide
      rw [this] at h; omega
    exact ⟨⟨f - 1, by omega⟩, ofNat_sub_one f (by omega) (by omega)⟩
  · rw [ValueIdx.eq_zero_of_ne_one hm, ValueIdx.select_zero]
    exact ⟨⟨f, by omega⟩, rfl⟩

theorem upper_atom (f g : ℕ) (hf : f ≤ 99) (hg : g ≤ 100) :
    ∃ n : Fin 101, Scalar.select (IntOp.andi (IntOp.cmpi .slt (BitVec.ofNat 32 f) 100#32) (IntOp.cmpi .eq (BitVec.ofNat 32 f) (BitVec.ofNat 32 g)))
      (IntOp.addi (BitVec.ofNat 32 g) 1#32) (BitVec.ofNat 32 g) = BitVec.ofNat 32 n.val := by
  by_cases hm : IntOp.andi (IntOp.cmpi .slt (BitVec.ofNat 32 f) 100#32) (IntOp.cmpi .eq (BitVec.ofNat 32 f) (BitVec.ofNat 32 g)) = 1#1
  · rw [hm, ValueIdx.select_one]
    obtain ⟨-, heq⟩ := IntOp.andi_eq_one.mp hm
    have hfg : f = g := ofNat_inj_le f g (by omega) (by omega) (IntOp.cmpi_eq.mp heq)
    exact ⟨⟨g + 1, by omega⟩, ofNat_add_one g (by omega)⟩
  · rw [ValueIdx.eq_zero_of_ne_one hm, ValueIdx.select_zero]
    exact ⟨⟨g, by omega⟩, rfl⟩

/-- Floor and ceiling of a position in [0, 100) as words of natural numbers. -/
theorem lo0_hi0 (x : ℝ) (h0 : 0 ≤ x) (h1 : x < 100) :
    ∃ f g : ℕ, f ≤ 99 ∧ g ≤ 100 ∧ lo0 (x : EReal) = BitVec.ofNat 32 f ∧ hi0 (x : EReal) = BitVec.ofNat 32 g := by
  have hf0 : 0 ≤ ⌊x⌋ := Int.floor_nonneg.mpr h0
  have hf1 : ⌊x⌋ < 100 := Int.floor_lt.mpr (by exact_mod_cast h1)
  have hc0 : 0 ≤ ⌈x⌉ := Int.ceil_nonneg h0
  have hc1 : ⌈x⌉ ≤ 100 := Int.ceil_le.mpr (by exact_mod_cast h1.le)
  refine ⟨⌊x⌋.toNat, ⌈x⌉.toNat, by omega, by omega, ?_, ?_⟩
  · show Ideal.fptosi 32 (((⌊x⌋ : ℤ) : ℝ) : EReal) = _
    rw [fptosi_int _ hf0 (by omega)]; exact (ofInt_small _ hf0 (by omega)).1
  · show Ideal.fptosi 32 (((⌈x⌉ : ℤ) : ℝ) : EReal) = _
    rw [fptosi_int _ hc0 hc1]; exact (ofInt_small _ hc0 hc1).1

/-- THE RANGE: at the grid position of any row and support point, both atom indices are words of atoms. -/
theorem atoms_on_grid (r g d q : EReal) :
    (∃ n : Fin 101, loIdx (bcoef r g d q) = BitVec.ofNat 32 n.val) ∧ (∃ n : Fin 101, hiIdx (bcoef r g d q) = BitVec.ofNat 32 n.val) := by
  obtain ⟨x, hx, h0, h1⟩ := bcoef_range r g d q
  obtain ⟨f, c, hf, hc, hl, hh⟩ := lo0_hi0 x h0 h1
  rw [hx]
  unfold loIdx hiIdx
  rw [hl, hh]
  exact ⟨lower_atom f c hf hc, upper_atom f c hf hc⟩

/-- So counting from the end changes neither. -/
theorem wrap101_loIdx (r g d q : EReal) : wrap101 (loIdx (bcoef r g d q)) = loIdx (bcoef r g d q) := by
  obtain ⟨⟨n, hn⟩, -⟩ := atoms_on_grid r g d q
  rw [hn]; exact wrap101_ofNat n.val (by have := n.isLt; omega)

theorem wrap101_hiIdx (r g d q : EReal) : wrap101 (hiIdx (bcoef r g d q)) = hiIdx (bcoef r g d q) := by
  obtain ⟨-, ⟨n, hn⟩⟩ := atoms_on_grid r g d q
  rw [hn]; exact wrap101_ofNat n.val (by have := n.isLt; omega)

end Cert.C51

end
-- ==== Proof.RefValue.lean ====
/-
  The idealized reference's result array is the row-by-row specification of its arguments.

  The reference adds, with two scatter-adds into an array of zeros, the mass sent to the lower atom and then the mass
  sent to the upper atom of every (row, source atom) pair, at the position (row, atom index). Row indices are the
  rows themselves and atom indices lie in [0, 100] (the clip keeps the grid position in [0, 100)), so every update
  lands inside the array, the index normalisation does nothing, and the element at (row r, atom a) ends as the sum
  over the 101 source atoms j of the mass of (r, j) that is sent to a: first the lower masses, then the upper ones;
  as one sum over j of both, it is the specification.
-/
import proofs.«141976_j712964571807_2_alg».proof.Proof.RefRow
import proofs.«141976_j712964571807_2_alg».proof.Proof.RefLanded
import proofs.«141976_j712964571807_2_alg».proof.Proof.AtomRange

noncomputable section

namespace Cert.ReferenceIdeal.ArrayValue

open Cert.ReferenceIdeal Cert.ReferenceIdeal.Read Idealize.ShloMosaic Idealize.ShloMosaic.ValueIdx

variable (x0 : (⟨S65536x48, .f32⟩ : BufTy).Contents (Elt Ideal)) (x1 : (⟨S65536x12, .f32⟩ : BufTy).Contents (Elt Ideal)) (x2 x3 x4 : (⟨S65536, .f32⟩ : BufTy).Contents (Elt Ideal)) (x5 : (⟨S101, .f32⟩ : BufTy).Contents (Elt Ideal)) (x6 : (⟨S60x1024, .f32⟩ : BufTy).Contents (Elt Ideal)) (x7 : (⟨S1024, .f32⟩ : BufTy).Contents (Elt Ideal)) (x8 : (⟨S1024x512, .f32⟩ : BufTy).Contents (Elt Ideal)) (x9 : (⟨S512, .f32⟩ : BufTy).Contents (Elt Ideal)) (x10 : (⟨S512x256, .f32⟩ : BufTy).Contents (Elt Ideal)) (x11 : (⟨S256, .f32⟩ : BufTy).Contents (Elt Ideal)) (x12 : (⟨S256x101, .f32⟩ : BufTy).Contents (Elt Ideal)) (x13 : (⟨S101, .f32⟩ : BufTy).Contents (Elt Ideal))

/-- The lower-atom index column holds words of atoms. -/
theorem lower_on_grid (r : Fin 65536) (j : Fin 101) :
    ∃ n : Fin 101, val_main_v82 (F := Ideal) x2 x3 x4 x5 (ix3 r j (0 : Fin 1)) = BitVec.ofNat 32 n.val := by
  rw [RowValue.lowerIdx_apply, C51.wrap101_loIdx]
  exact (C51.atoms_on_grid _ _ _ _).1

/-- The upper-atom index column holds words of atoms. -/
theorem upper_on_grid (r : Fin 65536) (j : Fin 101) :
    ∃ n : Fin 101, val_main_v100 (F := Ideal) x2 x3 x4 x5 (ix3 r j (0 : Fin 1)) = BitVec.ofNat 32 n.val := by
  rw [RowValue.upperIdx_apply, C51.wrap101_hiIdx]
  exact (C51.atoms_on_grid _ _ _ _).2

/-- The reference's result, index by index, is the specification. -/
theorem result_eq : val_main_v102 (F := Ideal) x0 x1 x2 x3 x4 x5 x6 x7 x8 x9 x10 x11 x12 x13 = C51.G x0 x1 x2 x3 x4 x5 x6 x7 x8 x9 x10 x11 x12 x13 := by
  funext i
  obtain ⟨r, a, rfl⟩ : ∃ (r : Fin 65536) (a : Fin 101), i = ix2 r a := ⟨i 0, i 1, eq_ix2 i⟩
  rw [C51.G_apply]
  unfold val_main_v102 val_main_v101
  rw [Landed.scatter_apply _ _ _ _ (fun r j => RowValue.rowIdx'_apply r j) (fun r j => upper_on_grid x2 x3 x4 x5 r j) r a]
  unfold val_main_v84 val_main_v83
  rw [Landed.scatter_apply _ _ _ _ (fun r j => RowValue.rowIdx_apply r j) (fun r j => lower_on_grid x2 x3 x4 x5 r j) r a]
  rw [RowValue.zero_apply, show C51.w0 = 0 from Ideal.ofBits_zero_f32, zero_add]
  simp only [RowValue.lowerIdx_apply, RowValue.upperIdx_apply, RowValue.lowMass_apply, RowValue.highMass_apply,
    C51.wrap101_loIdx, C51.wrap101_hiIdx]
  unfold C51.rowG C51.landed
  rw [Finset.sum_add_distrib]

end Cert.ReferenceIdeal.ArrayValue

end
-- ==== Proof.lean ====
/-
  The certificate of the categorical-projection kernel against its reference.

  Both idealized programs compute, for each of 65536 batch rows, a four-layer network's softmax distribution over
  101 atoms and project it onto the atoms' grid after the row's reward, bootstrap flag and discount have moved the
  support: `Cert.C51.G` (Proof/Projection.lean) is that result as one function of the fourteen argument arrays. The
  kernel computes it block by block (256 rows per grid point) and lands the masses by comparing each atom index with
  every target atom in chunks of source atoms (Proof/KernelRow.lean, Proof/KernelLanded.lean, Proof/KernelBody.lean,
  Proof/KernelArray.lean, Proof/KernelValue.lean); the reference computes it on whole arrays and lands the masses by two
  accumulating scatters (Proof/RefRow.lean, Proof/RefLanded.lean, Proof/RefValue.lean). The two agree because every
  atom index lies on the grid (Proof/AtomRange.lean: the clip bounds the grid position whatever the inputs) and
  because sums of extended reals may be regrouped and reordered; no finiteness of the inputs is used.
  The three frames are the generated ones; the ideal pass rewrote nothing, so `preserves` is `True`.
-/
import proofs.«141976_j712964571807_2_alg».proof.Defs
import proofs.«141976_j712964571807_2_alg».proof.Proof.Gen.Kernel
import proofs.«141976_j712964571807_2_alg».proof.Proof.Gen.Kernel.Skeleton
import proofs.«141976_j712964571807_2_alg».proof.Proof.Gen.Kernel.Launch
import proofs.«141976_j712964571807_2_alg».proof.Proof.Gen.Kernel.Points
import proofs.«141976_j712964571807_2_alg».proof.Proof.Gen.Kernel.Frame
import proofs.«141976_j712964571807_2_alg».proof.Proof.Gen.KernelIdeal
import proofs.«141976_j712964571807_2_alg».proof.Proof.Gen.KernelIdeal.Skeleton
import proofs.«141976_j712964571807_2_alg».proof.Proof.Gen.KernelIdeal.Launch
import proofs.«141976_j712964571807_2_alg».proof.Proof.Gen.KernelIdeal.Points
import proofs.«141976_j712964571807_2_alg».proof.Proof.Gen.KernelIdeal.Frame
import proofs.«141976_j712964571807_2_alg».proof.Proof.Gen.ReferenceIdeal
import proofs.«141976_j712964571807_2_alg».proof.Proof.Gen.Pre_finite_inputs
import proofs.«141976_j712964571807_2_alg».proof.Proof.Gen.KernelIdeal.Value
import proofs.«141976_j712964571807_2_alg».proof.Proof.Gen.ReferenceIdeal.Run
import proofs.«141976_j712964571807_2_alg».proof.Proof.Gen.ReferenceIdeal.Read
import proofs.«141976_j712964571807_2_alg».proof.Proof.KernelValue
import proofs.«141976_j712964571807_2_alg».proof.Proof.RefValue
import Idealize.ShloMosaic.Adequacy
import Idealize.ShloMosaic.Init

noncomputable section

namespace Cert.Proof

open Idealize.ShloMosaic Idealize.SL.Sem

theorem frame_kernel : Cert.frame_Kernel := fun m ρ _ => Cert.Kernel.Gen.frame m ρ

theorem frame_kernelIdeal : Cert.frame_KernelIdeal := fun m ρ _ => Cert.KernelIdeal.Gen.frame m ρ

theorem frame_referenceIdeal : Cert.frame_ReferenceIdeal := fun m ρ _ =>
  (θ_run Cert.ReferenceIdeal.defs _ _).mono (fun _ h c => (h c).2) (Cert.ReferenceIdeal.Value.run (F := Ideal) m ρ)

theorem preserves : Cert.preserves_Kernel_KernelIdeal := trivial

/-- From memories that agree on the arguments both runs end with the result array at the specification of the
    arguments: the kernel's by its blocks, the reference's by its stages. -/
theorem algebraic : Cert.algebraic_KernelIdeal_ReferenceIdeal := by
  intro m ρ m' ρ' _ hagree
  refine ⟨fun c => Cert.KernelIdeal.ArrayValue.spec m c, Cert.KernelIdeal.ArrayValue.run m ρ, ?_⟩
  refine (θ_run Cert.ReferenceIdeal.defs _ _).mono (fun _ h c => ⟨(h c).1.trans ?_, (h c).2⟩)
    (Cert.ReferenceIdeal.Value.run (F := Ideal) m' ρ')
  obtain ⟨e0, e1, e2, e3, e4, e5, e6, e7, e8, e9, e10, e11, e12, e13⟩ := hagree c
  rw [Cert.ReferenceIdeal.Read.val_main_v102_eq, Cert.ReferenceIdeal.ArrayValue.result_eq, e0, e1, e2, e3, e4, e5, e6, e7, e8, e9, e10, e11, e12, e13]

theorem claim : Cert.Claim := ⟨Cert.Kernel.Gen.facts, Cert.KernelIdeal.Gen.facts, Cert.ReferenceIdeal.Gen.facts, Cert.Pre_finite_inputs.Gen.facts,
  frame_kernel, frame_kernelIdeal, frame_referenceIdeal, preserves, algebraic⟩

end Cert.Proof

end
